-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part3 {F : FTy → Type} [FloatOps F] (main_arg14 : FVec F S128 .f32) (main_arg15 : FVec F S_ .f32) (main_v45 : IVec S_ 1) (main_v49 : IVec S_ 1) : IVec S_ 1 :=
  let main_v50 : IVec S_ 1 := andi main_v45 main_v49
  let main_v51 : FVec F S128 .f32 := Host.absf main_arg14
  let main_cst_20 : FVec F S_ .f32 := constant S_ .f32 0x7F800000#32
  let main_v52 : FVec F S128 .f32 := broadcastInDim S128 ![] bcast_S_S128 main_cst_20
  let main_v53 : IVec S128 1 := cmpf .olt main_v51 main_v52
  let main_c_21 : IVec S_ 1 := constantI S_ 1 1#1
  let main_v54 : IVec S_ 1 := (fun x v => Host.reduce IntOp.andi x v reducesTo_S128_S_d0 h_S_) main_v53 main_c_21
  let main_v55 : IVec S_ 1 := andi main_v50 main_v54
  let main_v56 : FVec F S_ .f32 := Host.absf main_arg15
  let main_cst_22 : FVec F S_ .f32 := constant S_ .f32 0x7F800000#32
  let main_v57 : IVec S_ 1 := cmpf .olt main_v56 main_cst_22
  let main_c_23 : IVec S_ 1 := constantI S_ 1 1#1
  let main_v58 : IVec S_ 1 := (fun x v => Host.reduce IntOp.andi x v reducesTo_S_S_d h_S_) main_v57 main_c_23
  let main_v59 : IVec S_ 1 := andi main_v55 main_v58
  main_v59

def fn_part2 {F : FTy → Type} [FloatOps F] (main_arg11 : FVec F S128 .f32) (main_arg12 : FVec F S_ .f32) (main_arg13 : FVec F S128 .f32) (main_arg14 : FVec F S128 .f32) (main_arg15 : FVec F S_ .f32) (main_v31 : IVec S_ 1) (main_v32 : FVec F S128x128 .f32) (main_cst_12 : FVec F S_ .f32) : IVec S_ 1 :=
  let main_v33 : FVec F S128x128 .f32 := broadcastInDim S128x128 ![] bcast_S_S128x128 main_cst_12
  let main_v34 : IVec S128x128 1 := cmpf .olt main_v32 main_v33
  let main_c_13 : IVec S_ 1 := constantI S_ 1 1#1
  let main_v35 : IVec S_ 1 := (fun x v => Host.reduce IntOp.andi x v reducesTo_S128x128_S_d0_1 h_S_) main_v34 main_c_13
  let main_v36 : IVec S_ 1 := andi main_v31 main_v35
  let main_v37 : FVec F S128 .f32 := Host.absf main_arg11
  let main_cst_14 : FVec F S_ .f32 := constant S_ .f32 0x7F800000#32
  let main_v38 : FVec F S128 .f32 := broadcastInDim S128 ![] bcast_S_S128 main_cst_14
  let main_v39 : IVec S128 1 := cmpf .olt main_v37 main_v38
  let main_c_15 : IVec S_ 1 := constantI S_ 1 1#1
  let main_v40 : IVec S_ 1 := (fun x v => Host.reduce IntOp.andi x v reducesTo_S128_S_d0 h_S_) main_v39 main_c_15
  let main_v41 : IVec S_ 1 := andi main_v36 main_v40
  let main_v42 : FVec F S_ .f32 := Host.absf main_arg12
  let main_cst_16 : FVec F S_ .f32 := constant S_ .f32 0x7F800000#32
  let main_v43 : IVec S_ 1 := cmpf .olt main_v42 main_cst_16
  let main_c_17 : IVec S_ 1 := constantI S_ 1 1#1
  let main_v44 : IVec S_ 1 := (fun x v => Host.reduce IntOp.andi x v reducesTo_S_S_d h_S_) main_v43 main_c_17
  let main_v45 : IVec S_ 1 := andi main_v41 main_v44
  let main_v46 : FVec F S128 .f32 := Host.absf main_arg13
  let main_cst_18 : FVec F S_ .f32 := constant S_ .f32 0x7F800000#32
  let main_v47 : FVec F S128 .f32 := broadcastInDim S128 ![] bcast_S_S128 main_cst_18
  let main_v48 : IVec S128 1 := cmpf .olt main_v46 main_v47
  let main_c_19 : IVec S_ 1 := constantI S_ 1 1#1
  let main_v49 : IVec S_ 1 := (fun x v => Host.reduce IntOp.andi x v reducesTo_S128_S_d0 h_S_) main_v48 main_c_19
  fn_part3 (F := F) main_arg14 main_arg15 main_v45 main_v49

def fn_part1 {F : FTy → Type} [FloatOps F] (main_arg7 : FVec F S128 .f32) (main_arg8 : FVec F S128 .f32) (main_arg9 : FVec F S_ .f32) (main_arg10 : FVec F S128x128 .f32) (main_arg11 : FVec F S128 .f32) (main_arg12 : FVec F S_ .f32) (main_arg13 : FVec F S128 .f32) (main_arg14 : FVec F S128 .f32) (main_arg15 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128 .f32 := Host.absf main_arg7
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128 .f32 := Host.absf main_arg8
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S_ .f32 := Host.absf main_arg9
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S128x128 .f32 := Host.absf main_arg10
  let main_cst_12 : FVec F S_ .f32 := constant S_ .f32 0x7F800000#32
  fn_part2 (F := F) main_arg11 main_arg12 main_arg13 main_arg14 main_arg15 main_v31 main_v32 main_cst_12

def fn {F : FTy → Type} [FloatOps F] (main_arg0 : FVec F S50000x128 .f32) (main_arg1 : IVec S600000 32) (main_arg2 : IVec S600000 32) (main_arg3 : IVec S50000 32) (main_arg4 : FVec F S128x128 .f32) (main_arg5 : FVec F S128 .f32) (main_arg6 : FVec F S_ .f32) (main_arg7 : FVec F S128 .f32) (main_arg8 : FVec F S128 .f32) (main_arg9 : FVec F S_ .f32) (main_arg10 : FVec F S128x128 .f32) (main_arg11 : FVec F S128 .f32) (main_arg12 : FVec F S_ .f32) (main_arg13 : FVec F S128 .f32) (main_arg14 : FVec F S128 .f32) (main_arg15 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg6
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg7 main_arg8 main_arg9 main_arg10 main_arg11 main_arg12 main_arg13 main_arg14 main_arg15 main_v13 main_v15 main_c_5
-- ==== Kernel.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S1x1 : Shape := ⟨2, ![1, 1]⟩
abbrev S5000x128 : Shape := ⟨2, ![5000, 128]⟩
abbrev S5000x1 : Shape := ⟨2, ![5000, 1]⟩
abbrev S64x128 : Shape := ⟨2, ![64, 128]⟩

abbrev nBuf : Space → Nat
  | .hbm => 144
  | .vmem => 44
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S128x128, .f32⟩
  | 5 => ⟨S128, .f32⟩
  | 6 => ⟨S_, .f32⟩
  | 7 => ⟨S128, .f32⟩
  | 8 => ⟨S128, .f32⟩
  | 9 => ⟨S_, .f32⟩
  | 10 => ⟨S128x128, .f32⟩
  | 11 => ⟨S128, .f32⟩
  | 12 => ⟨S_, .f32⟩
  | 13 => ⟨S128, .f32⟩
  | 14 => ⟨S128, .f32⟩
  | 15 => ⟨S_, .f32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S600000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S50000x1, .f32⟩
  | 50 => ⟨S50000x128, .f32⟩
  | 51 => ⟨S50000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S1x128, .f32⟩
  | 66 => ⟨S1x1, .f32⟩
  | 67 => ⟨S50000x128, .f32⟩
  | 68 => ⟨S1x128, .f32⟩
  | 69 => ⟨S1x128, .f32⟩
  | 70 => ⟨S128, .f32⟩
  | 71 => ⟨S_, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S128, .f32⟩
  | 87 => ⟨S1x128, .f32⟩
  | 88 => ⟨S1x128, .f32⟩
  | 89 => ⟨S1x128, .f32⟩
  | 90 => ⟨S1x128, .f32⟩
  | 91 => ⟨S1x1, .f32⟩
  | 92 => ⟨S50000x128, .f32⟩
  | 93 => ⟨S50000x128, .f32⟩
  | 94 => ⟨S_, .f32⟩
  | 95 => ⟨S64x128, .f32⟩
  | 96 => ⟨S50000x1, .i32⟩
  | 97 => ⟨S64x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S50000x128, .f32⟩
  | 109 => ⟨S600000x1, .i32⟩
  | 110 => ⟨S50000x128, .f32⟩
  | 111 => ⟨S1x128, .f32⟩
  | 112 => ⟨S1x1, .f32⟩
  | 113 => ⟨S50000x128, .f32⟩
  | 114 => ⟨S1x128, .f32⟩
  | 115 => ⟨S1x128, .f32⟩
  | 116 => ⟨S128, .f32⟩
  | 117 => ⟨S_, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S1x128, .f32⟩
  | 6 => ⟨S1x128, .f32⟩
  | 7 => ⟨S1x128, .f32⟩
  | 8 => ⟨S1x128, .f32⟩
  | 9 => ⟨S1x1, .f32⟩
  | 10 => ⟨S50000x128, .f32⟩
  | 11 => ⟨S_, .f32⟩
  | 12 => ⟨S64x128, .f32⟩
  | 13 => ⟨S50000x1, .i32⟩
  | 14 => ⟨S64x128, .f32⟩
  | 15 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S1x1, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S1x1, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x1, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v12 : Ref sig .tc := ⟨.hbm, 36, rfl⟩
abbrev main_cst_5 : Ref sig .tc := ⟨.hbm, 37, rfl⟩
abbrev main_v13 : Ref sig .tc := ⟨.hbm, 38, rfl⟩
abbrev main_v14 : Ref sig .tc := ⟨.hbm, 39, rfl⟩
abbrev main_cst_6 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c : Ref sig .tc := ⟨.hbm, 52, rfl⟩
abbrev main_v23 : Ref sig .tc := ⟨.hbm, 53, rfl⟩
abbrev main_v24 : Ref sig .tc := ⟨.hbm, 54, rfl⟩
abbrev main_c_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_9 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35_0 : Ref sig .tc := ⟨.hbm, 67, rfl⟩
abbrev main_v35_1 : Ref sig .tc := ⟨.hbm, 68, rfl⟩
abbrev main_v35_2 : Ref sig .tc := ⟨.hbm, 69, rfl⟩
abbrev main_v36 : Ref sig .tc := ⟨.hbm, 70, rfl⟩
abbrev main_cst_10 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_11 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_12 : Ref sig .tc := ⟨.hbm, 80, rfl⟩
abbrev main_v44 : Ref sig .tc := ⟨.hbm, 81, rfl⟩
abbrev main_v45 : Ref sig .tc := ⟨.hbm, 82, rfl⟩
abbrev main_cst_13 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_cst_14 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_15 : Ref sig .tc := ⟨.hbm, 98, rfl⟩
abbrev main_v58 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_17 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70_0 : Ref sig .tc := ⟨.hbm, 113, rfl⟩
abbrev main_v70_1 : Ref sig .tc := ⟨.hbm, 114, rfl⟩
abbrev main_v70_2 : Ref sig .tc := ⟨.hbm, 115, rfl⟩
abbrev main_v71 : Ref sig .tc := ⟨.hbm, 116, rfl⟩
abbrev main_cst_18 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_19 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_20 : Ref sig .tc := ⟨.hbm, 126, rfl⟩
abbrev main_v79 : Ref sig .tc := ⟨.hbm, 127, rfl⟩
abbrev main_v80 : Ref sig .tc := ⟨.hbm, 128, rfl⟩
abbrev main_cst_21 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_22 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg7_0 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem7_0 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S_S1x1 : S_.ShapeCasts S1x1
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  reduces_S5000x128_S128 : S5000x128.Reduces [0] S128
  shapeCasts_S1x128_S128 : S1x128.ShapeCasts S128
  bcast_S_S128 : S_.BroadcastsInDim S128 (![] : Fin 0 → Fin S128.rank)
  bcast_S_S64x128 : S_.BroadcastsInDim S64x128 (![] : Fin 0 → Fin S64x128.rank)
  bcast_S50000_S50000x1_0 : S50000.BroadcastsInDim S50000x1 (![0] : Fin 1 → Fin S50000x1.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v54_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v54_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S64x128 : Shape := ⟨2, ![64, 128]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S128x128, .f32⟩
  | 5 => ⟨S128, .f32⟩
  | 6 => ⟨S_, .f32⟩
  | 7 => ⟨S128, .f32⟩
  | 8 => ⟨S128, .f32⟩
  | 9 => ⟨S_, .f32⟩
  | 10 => ⟨S128x128, .f32⟩
  | 11 => ⟨S128, .f32⟩
  | 12 => ⟨S_, .f32⟩
  | 13 => ⟨S128, .f32⟩
  | 14 => ⟨S128, .f32⟩
  | 15 => ⟨S_, .f32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S600000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S50000x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .i1⟩
  | 110 => ⟨S50000x128, .f32⟩
  | 111 => ⟨S50000x128, .f32⟩
  | 112 => ⟨S50000x128, .f32⟩
  | 113 => ⟨S_, .f32⟩
  | 114 => ⟨S64x128, .f32⟩
  | 115 => ⟨S50000x1, .i32⟩
  | 116 => ⟨S64x128, .f32⟩
  | 117 => ⟨S50000x1, .f32⟩
  | 118 => ⟨S50000x128, .f32⟩
  | 119 => ⟨S50000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000x128, .f32⟩
  | 1 => ⟨S_, .f32⟩
  | 2 => ⟨S50000x128, .f32⟩
  | 3 => ⟨S600000x1, .i32⟩
  | 4 => ⟨S50000x128, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .i1⟩
  | 15 => ⟨S50000x128, .f32⟩
  | 16 => ⟨S50000x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S128, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .i1⟩
  | 51 => ⟨S50000x128, .f32⟩
  | 52 => ⟨S50000x128, .f32⟩
  | 53 => ⟨S50000x128, .f32⟩
  | 54 => ⟨S_, .f32⟩
  | 55 => ⟨S64x128, .f32⟩
  | 56 => ⟨S50000x1, .i32⟩
  | 57 => ⟨S64x128, .f32⟩
  | 58 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v12 : Ref sig .tc := ⟨.hbm, 36, rfl⟩
abbrev main_cst_5 : Ref sig .tc := ⟨.hbm, 37, rfl⟩
abbrev main_v13 : Ref sig .tc := ⟨.hbm, 38, rfl⟩
abbrev main_v14 : Ref sig .tc := ⟨.hbm, 39, rfl⟩
abbrev main_cst_6 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_8 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_9 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_11 : Ref sig .tc := ⟨.hbm, 77, rfl⟩
abbrev main_v44 : Ref sig .tc := ⟨.hbm, 78, rfl⟩
abbrev main_cst_12 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_13 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_15 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_18 : Ref sig .tc := ⟨.hbm, 120, rfl⟩
abbrev main_v80 : Ref sig .tc := ⟨.hbm, 121, rfl⟩
abbrev main_v81 : Ref sig .tc := ⟨.hbm, 122, rfl⟩
abbrev main_c_19 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_20 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_26 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_27 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_28 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.KernelRun.lean ====
/-
  The idealized kernel program's run, with every buffer named.

  The program is thirteen segments: five stretches of host operations, then four kernel regions, each followed by a
  stretch of host operations. The generated frame module folds the buffer contents through these segments
  (`Gen.W0`, the launch memory, up to `Gen.W13`, the contents at the return) and proves each region's and each stretch's
  step. Here the same launch theorem of the pipeline library is instantiated with the strongest final reading it
  offers: every weakly fair execution terminates, and at the end EVERY unscoped buffer of every core holds `Gen.W13`'s
  contents. The two results and the sixteen arguments are then particular buffers.
-/
import proofs.«147171_j25031069401693_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which needs plain
-- definitions unfolded inside a metavariable's type
set_option backward.isDefEq.respectTransparency.types false in
/-- Every weakly fair execution of the program terminates without a fault, and in every final state each unscoped
    buffer `b` of each core `c` holds `Gen.W13 m ρ c b`: the contents obtained by folding the thirteen segments over
    the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource per core is needed
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      -- each segment's post is the next one's pre as stated; the last post is regrouped into the final thread state
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- what the launch deals on a core is the first thread state: its unscoped buffers at the launch memory
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      -- the last thread state holds every unscoped buffer at the final contents: read them against the final state
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- A TensorCore buffer of the program is unscoped, so `run_all` speaks of it. -/
theorem mem_ucRefs (b : Ref sig .tc) (h : ¬ (Proc.devRef .tc b : DevRef τ sig).isScoped) :
    Proc.devRef .tc b ∈ Pipeline.ucRefs τ sig := mem_uc b h

end Cert.KernelIdeal.RunValue

end
-- ==== Proof.Spec.lean ====
/-
  The two pointwise laws of the graph-convolution network, as functions on the extended reals.

  `prelu al z` is the parametric rectifier: `z` where `0 ≤ z`, else `al * z`.
  `convAt` is one entry of a convolution layer before normalisation: row `i` of the aggregated features, scaled by
  the row's in-degree factor, times column `j` of the weights, plus the bias, rectified.
  `bnPrelu` is one entry of the batch normalisation followed by the rectifier: centre, scale by the inverse standard
  deviation, then by the learnt gain, add the learnt shift, rectify.
  Both programs compute exactly these at every entry; what differs between them is how the column statistics
  (mean and inverse standard deviation) are obtained.
-/
import Idealize.ShloMosaic.PureOps.Ideal
import Idealize.ShloMosaic.Lib.ValueIdx

noncomputable section

namespace Cert.Bridge

open Idealize.ShloMosaic Idealize.ShloMosaic.ValueIdx

/-- The parametric rectifier on the extended reals: the comparison is the order's, the branch a selection on its bit. -/
def prelu (al z : EReal) : EReal := Scalar.select (Ideal.cmp .oge z 0) z (al * z)

/-- Entry `(i, j)` of a convolution layer: `prelu al (∑ k, (A i k · nd i) · W k j + b j)`. -/
def convAt (A : (⟨2, ![50000, 128]⟩ : Shape).Idx → EReal) (nd : (⟨2, ![50000, 1]⟩ : Shape).Idx → EReal)
    (W : (⟨2, ![128, 128]⟩ : Shape).Idx → EReal) (b : (⟨2, ![1, 128]⟩ : Shape).Idx → EReal)
    (al : (⟨2, ![1, 1]⟩ : Shape).Idx → EReal) (i : Fin 50000) (j : Fin 128) : EReal :=
  prelu (al (ix2 0 0)) ((∑ k : Fin 128, (A (ix2 i k) * nd (ix2 i 0)) * W (ix2 k j)) + b (ix2 0 j))

/-- One entry of batch normalisation then the rectifier: `prelu al (((h − mu) · sg) · ga + be)`. -/
def bnPrelu (h mu sg ga be al : EReal) : EReal := prelu al (((h - mu) * sg) * ga + be)

end Cert.Bridge

end
-- ==== Proof.LayoutFacts.lean ====
/-
  Reshapes between a vector and its one-row or one-column matrix, and the broadcast of a column along the rows,
  read at an index.

  A reshape keeps the row-major position. The position of `(r, 0)` in an `n × 1` array is `r`, the position of
  `(0, q)` in a `1 × n` array is `q`, and the one position of a `1 × 1` array is that of the scalar; so these reshapes
  read the vector at the surviving coordinate. Broadcasting an `n × 1` column to `n × k` reads the column at the row.
-/
import Idealize.ShloMosaic.Lib.Pipeline.Value
import Idealize.ShloMosaic.Lib.ValueIdx

namespace Cert.Bridge

open Idealize.ShloMosaic Idealize.ShloMosaic.ValueIdx

variable {α : Type}

/-- A vector reshaped to one column, at `(r, 0)`: the vector at `r`. -/
theorem cast_col {n : Nat} (y : (⟨1, ![n]⟩ : Shape).Idx → α) (h : (⟨1, ![n]⟩ : Shape).ShapeCasts ⟨2, ![n, 1]⟩)
    (j : (⟨2, ![n, 1]⟩ : Shape).Idx) : shapeCast ⟨2, ![n, 1]⟩ y h j = y (ix1 (j 0)) := by
  refine shapeCast_apply y h j (ix1 (j 0)) ?_
  rw [Shape.rowMajor_val_one, Shape.rowMajor_val_two]
  have h1 : (j 1).val = 0 := by have := (j 1).isLt; simp at this; omega
  show (j 0).val = (j 0).val * 1 + (j 1).val
  omega

/-- A vector reshaped to one row, at `(0, q)`: the vector at `q`. -/
theorem cast_row {n : Nat} (y : (⟨1, ![n]⟩ : Shape).Idx → α) (h : (⟨1, ![n]⟩ : Shape).ShapeCasts ⟨2, ![1, n]⟩)
    (j : (⟨2, ![1, n]⟩ : Shape).Idx) : shapeCast ⟨2, ![1, n]⟩ y h j = y (ix1 (j 1)) := by
  refine shapeCast_apply y h j (ix1 (j 1)) ?_
  rw [Shape.rowMajor_val_one, Shape.rowMajor_val_two]
  have h0 : (j 0).val = 0 := by have := (j 0).isLt; simp at this; omega
  show (j 1).val = (j 0).val * n + (j 1).val
  rw [h0]; omega

/-- A one-row matrix reshaped to a vector, at `q`: the row at `(0, q)`. -/
theorem cast_unrow {n : Nat} (y : (⟨2, ![1, n]⟩ : Shape).Idx → α) (h : (⟨2, ![1, n]⟩ : Shape).ShapeCasts ⟨1, ![n]⟩)
    (j : (⟨1, ![n]⟩ : Shape).Idx) : shapeCast ⟨1, ![n]⟩ y h j = y (ix2 0 (j 0)) := by
  refine shapeCast_apply y h j (ix2 0 (j 0)) ?_
  rw [Shape.rowMajor_val_one, Shape.rowMajor_val_two]
  show (0 : Nat) * n + (j 0).val = (j 0).val
  omega

/-- A scalar reshaped to a `1 × 1` matrix: the scalar. -/
theorem cast_scal (y : (⟨0, ![]⟩ : Shape).Idx → α) (h : (⟨0, ![]⟩ : Shape).ShapeCasts ⟨2, ![1, 1]⟩)
    (j : (⟨2, ![1, 1]⟩ : Shape).Idx) : shapeCast ⟨2, ![1, 1]⟩ y h j = y ix0 := by
  refine shapeCast_apply y h j ix0 ?_
  rw [Shape.rowMajor_val_two]
  have h0 : (j 0).val = 0 := by have := (j 0).isLt; simp at this; omega
  have h1 : (j 1).val = 0 := by have := (j 1).isLt; simp at this; omega
  have hz : ((⟨0, ![]⟩ : Shape).rowMajor ix0).val = 0 := by
    have := ((⟨0, ![]⟩ : Shape).rowMajor ix0).isLt; simp [Shape.numel] at this; omega
  rw [hz, h0, h1]; simp

/-- A column broadcast along the rows, at `(r, q)`: the column at `(r, 0)`. -/
theorem bcast_col {n k : Nat} (y : (⟨2, ![n, 1]⟩ : Shape).Idx → α)
    (h : (⟨2, ![n, 1]⟩ : Shape).BroadcastsInDim ⟨2, ![n, k]⟩ ![0, 1]) (j : (⟨2, ![n, k]⟩ : Shape).Idx) :
    broadcastInDim ⟨2, ![n, k]⟩ ![0, 1] h y j = y (ix2 (j 0) 0) := by
  refine broadcastInDim_apply ![0, 1] h y j (ix2 (j 0) 0) fun a => ?_
  match a with
  | ⟨0, _⟩ =>
    show (j 0).val = if n = 1 then 0 else (j 0).val
    split
    · have := (j 0).isLt; simp at this; omega
    · rfl
  | ⟨1, _⟩ => show (0 : Nat) = if (1 : Nat) = 1 then 0 else (j 1).val; rw [if_pos rfl]

end Cert.Bridge
-- ==== Proof.ERealFacts.lean ====
/-
  Facts about finite sums and finiteness on the extended reals that the two programs' comparison uses.

  Every value the two programs compare is an extended real.  The comparison of a variance computed
  as a clamped difference of moments with a variance computed as a mean of squared deviations is an
  identity of real numbers only; so the file first isolates the finite extended reals ("IsReal"),
  shows the operations in play keep values finite, and then transports the real identity.
-/
import Mathlib.Data.EReal.Basic
import Mathlib.Data.EReal.Operations
import Mathlib.Data.EReal.Inv
import Mathlib.Algebra.BigOperators.Group.Finset.Basic
import Mathlib.Algebra.BigOperators.Fin
import Mathlib.Data.Fintype.BigOperators
import Mathlib.Tactic.Ring
import Mathlib.Tactic.FieldSimp
import Mathlib.Tactic.Linarith
import Mathlib.Tactic.Positivity
import Idealize.ShloMosaic.PureOps.Ideal

open Idealize.ShloMosaic

namespace Cert.Bridge

/-! ### Finite extended reals -/

/-- An extended real is finite: it is the image of a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem isReal_ite {p : Prop} [Decidable p] {x y : EReal} (hx : IsReal x) (hy : IsReal y) :
    IsReal (if p then x else y) := by
  split <;> assumption

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient by a nonzero real is the product with its reciprocal, so it stays finite. -/
theorem IsReal.div_coe {x : EReal} (hx : IsReal x) {y : ℝ} (hy : y ≠ 0) :
    IsReal (Ideal.div x (y : EReal)) := by
  rw [Ideal.div_coe hy]
  exact hx.mul (isReal_coe _)

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

theorem isReal_iff {x : EReal} : IsReal x ↔ x ≠ ⊤ ∧ x ≠ ⊥ := by
  constructor
  · intro h
    exact ⟨h.ne_top, h.ne_bot⟩
  · rintro ⟨ht, hb⟩
    exact ⟨x.toReal, (EReal.coe_toReal ht hb).symm⟩

/-! ### The reciprocal square root away from its corners -/

/-- At a positive real the reciprocal square root is the real number \`(√r)⁻¹\`. -/
theorem isReal_rsqrt_of_pos {r : ℝ} (h : 0 < r) : IsReal (Ideal.rsqrt (r : EReal)) := by
  rw [Ideal.rsqrt_coe, if_neg (not_lt.mpr h.le), if_neg h.ne']
  exact isReal_coe _

/-- Clamping below by one keeps the argument positive. -/
theorem isReal_rsqrt_max_one {x : EReal} (hx : IsReal x) : IsReal (Ideal.rsqrt (max x 1)) := by
  obtain ⟨a, rfl⟩ := hx
  have hmax : max ((a : ℝ) : EReal) 1 = ((max a 1 : ℝ) : EReal) := by
    rw [← EReal.coe_one]
    exact (EReal.coe_strictMono.monotone.map_max).symm
  rw [hmax]
  exact isReal_rsqrt_of_pos (lt_of_lt_of_le one_pos (le_max_right a 1))

/-- A nonnegative finite value plus a positive real is a positive real. -/
theorem isReal_rsqrt_add_pos {v : EReal} (hv : IsReal v) (h0 : 0 ≤ v) {e : ℝ} (he : 0 < e) :
    IsReal (Ideal.rsqrt (v + (e : EReal))) := by
  obtain ⟨a, rfl⟩ := hv
  have ha : (0 : ℝ) ≤ a := by exact_mod_cast h0
  rw [← EReal.coe_add]
  exact isReal_rsqrt_of_pos (by linarith)

/-! ### The two variances agree on finite data -/

/-- The coercion from the reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The real identity: mean of squares minus square of the mean is the mean squared deviation.
    With \`S = ∑ g\`, \`m = S / N\` and \`N\` the number of terms,
    \`∑ (g − m)² = ∑ g² − 2 m S + N m² = ∑ g² − N m²\`. -/
theorem real_variance {ι : Type*} [Fintype ι] (g : ι → ℝ) (N : ℝ)
    (hN : N = (Fintype.card ι : ℝ)) (hpos : 0 < N) :
    (∑ i, g i * g i) * (1 / N) - (∑ i, g i) * (1 / N) * ((∑ i, g i) * (1 / N))
      = (∑ i, (g i - (∑ i, g i) * (1 / N)) * (g i - (∑ i, g i) * (1 / N))) * (1 / N) := by
  generalize hS : (∑ i, g i) = S
  generalize hm : S * (1 / N) = m
  have hSm : S = N * m := by rw [← hm]; field_simp
  have h1 : ∑ i, (g i - m) * (g i - m) = (∑ i, g i * g i) - 2 * m * S + N * (m * m) := by
    have hexp : ∀ i, (g i - m) * (g i - m) = g i * g i - 2 * m * g i + m * m := fun i => by ring
    simp only [hexp]
    rw [Finset.sum_add_distrib, Finset.sum_sub_distrib, ← Finset.mul_sum, hS, Finset.sum_const,
      Finset.card_univ, nsmul_eq_mul, ← hN]
  rw [h1, hSm]
  field_simp
  ring

/-- The mean squared deviation of real data, as a real number. -/
theorem deviation_coe {ι : Type*} [Fintype ι] (g : ι → ℝ) (N : ℝ) (hpos : 0 < N) :
    Ideal.div (∑ i, ((g i : EReal) - Ideal.div (∑ i, (g i : EReal)) (N : EReal))
        * ((g i : EReal) - Ideal.div (∑ i, (g i : EReal)) (N : EReal))) (N : EReal)
      = (((∑ i, (g i - (∑ i, g i) * (1 / N)) * (g i - (∑ i, g i) * (1 / N))) * (1 / N) : ℝ) : EReal) := by
  simp only [Ideal.div_coe hpos.ne', ← coe_sum, ← EReal.coe_mul, ← EReal.coe_sub]

theorem real_deviation_nonneg {ι : Type*} [Fintype ι] (g : ι → ℝ) (N : ℝ) (hpos : 0 < N) :
    0 ≤ (∑ i, (g i - (∑ i, g i) * (1 / N)) * (g i - (∑ i, g i) * (1 / N))) * (1 / N) :=
  mul_nonneg (Finset.sum_nonneg fun i _ => mul_self_nonneg _) (by positivity)

/-- THE LAW: on finite data the clamped difference of moments is the mean squared deviation. -/
theorem variance_eq {ι : Type*} [Fintype ι] (f : ι → EReal) (hf : ∀ i, IsReal (f i)) (N : ℝ)
    (hN : N = (Fintype.card ι : ℝ)) (hpos : 0 < N) :
    max (Ideal.div (∑ i, f i * f i) (N : EReal)
          - Ideal.div (∑ i, f i) (N : EReal) * Ideal.div (∑ i, f i) (N : EReal)) 0
      = Ideal.div (∑ i, (f i - Ideal.div (∑ i, f i) (N : EReal))
          * (f i - Ideal.div (∑ i, f i) (N : EReal))) (N : EReal) := by
  choose g hg using hf
  obtain rfl : f = fun i => (g i : EReal) := funext hg
  rw [deviation_coe g N hpos]
  simp only [Ideal.div_coe hpos.ne', ← coe_sum, ← EReal.coe_mul, ← EReal.coe_sub]
  rw [real_variance g N hN hpos]
  exact max_eq_left (by exact_mod_cast real_deviation_nonneg g N hpos)

theorem variance_nonneg {ι : Type*} [Fintype ι] (f : ι → EReal) (hf : ∀ i, IsReal (f i)) (N : ℝ)
    (hpos : 0 < N) :
    0 ≤ Ideal.div (∑ i, (f i - Ideal.div (∑ i, f i) (N : EReal))
          * (f i - Ideal.div (∑ i, f i) (N : EReal))) (N : EReal) := by
  choose g hg using hf
  obtain rfl : f = fun i => (g i : EReal) := funext hg
  rw [deviation_coe g N hpos]
  exact_mod_cast real_deviation_nonneg g N hpos

theorem variance_isReal {ι : Type*} [Fintype ι] (f : ι → EReal) (hf : ∀ i, IsReal (f i)) (N : ℝ)
    (hpos : 0 < N) :
    IsReal (Ideal.div (∑ i, (f i - Ideal.div (∑ i, f i) (N : EReal))
          * (f i - Ideal.div (∑ i, f i) (N : EReal))) (N : EReal)) := by
  choose g hg using hf
  obtain rfl : f = fun i => (g i : EReal) := funext hg
  rw [deviation_coe g N hpos]
  exact isReal_coe _

/-! ### Regrouping sums -/

/-- A double sum over \`a\` blocks of \`b\` terms is the single sum over the \`a * b\` flattened
    positions \`t * b + r\`. -/
theorem sum_blocks {M : Type*} [AddCommMonoid M] (a b : ℕ) (g : Fin a → Fin b → M)
    (g' : Fin (a * b) → M)
    (h : ∀ (t : Fin a) (r : Fin b) (hk : t.val * b + r.val < a * b),
      g t r = g' ⟨t.val * b + r.val, hk⟩) :
    ∑ t, ∑ r, g t r = ∑ k, g' k := by
  rw [← Fintype.sum_prod_type', ← finProdFinEquiv.sum_comp]
  apply Fintype.sum_congr
  rintro ⟨t, r⟩
  have hk : t.val * b + r.val < a * b :=
    calc t.val * b + r.val < t.val * b + b := Nat.add_lt_add_left r.2 _
      _ = (t.val + 1) * b := (Nat.succ_mul _ _).symm
      _ ≤ a * b := Nat.mul_le_mul_right _ t.2
  rw [h t r hk]
  congr 1
  apply Fin.ext
  simp only [finProdFinEquiv_apply_val]
  rw [Nat.mul_comm, Nat.add_comm]

/-- A running sum started at its first term and extended one term at a time is the partial sum. -/
theorem acc_eq_sum {M : Type*} [AddCommMonoid M] (s acc : ℕ → M) (h0 : acc 0 = 0 + s 0)
    (hs : ∀ n, acc (n + 1) = acc n + s (n + 1)) (n : ℕ) :
    acc n = ∑ t ∈ Finset.range (n + 1), s t := by
  induction n with
  | zero => simp [h0]
  | succ n ih => rw [hs, ih, Finset.sum_range_succ _ (n + 1)]

end Cert.Bridge
-- ==== Proof.PreFinite.lean ====
/-
  The precondition, decoded: every float argument is a finite extended real.

  The precondition is a conjunction, one conjunct per float argument: "every entry has absolute
  value below +∞", spelled as a comparison of `|x|` against the pattern of +∞ followed by an
  "and" over all entries.  At the exact reading of a float, `|x| = max x (−x)` and the pattern of +∞
  denotes `⊤`; `max x (−x) < ⊤` excludes both `x = ⊤` and `x = ⊥`, so `x` is a real number.
-/
import proofs.«147171_j25031069401693_2_alg».proof.Proof.Gen.Pre_finite_inputs
import proofs.«147171_j25031069401693_2_alg».proof.Proof.ERealFacts
import Idealize.ShloMosaic.Lib.ReduceAll
import Idealize.ShloMosaic.Lib.ValueIdx
import Idealize.ShloMosaic.PureOps.Ideal.Laws

open Idealize.ShloMosaic

namespace Cert.Bridge

/-- The pattern of +∞ denotes the top element. -/
theorem ofBits_inf : Ideal.ofBits .f32 0x7F800000#32 = ⊤ := by
  simp [Ideal.ofBits, Ideal.ieee]

/-- An extended real whose absolute value compares below `⊤` is finite. -/
theorem isReal_of_abs_lt_top (x : EReal) (h : Ideal.cmp .olt (max x (-x)) ⊤ = 1#1) : IsReal x := by
  have hlt : max x (-x) < ⊤ := by
    have h' : BitVec.ofBool (decide (max x (-x) < ⊤)) = 1#1 := h
    by_contra hn
    rw [decide_eq_false hn] at h'
    exact absurd h' (by decide)
  rw [isReal_iff]
  constructor
  · rintro rfl
    simp at hlt
  · rintro rfl
    simp at hlt

/-- The result of an "and" over all entries has a single index. -/
instance subsingleton_scalarIdx : Subsingleton Cert.Pre_finite_inputs.S_.Idx :=
  ⟨fun a b => funext fun d => d.elim0⟩

/-- One conjunct of the precondition: if "and over all entries of (|x| < c)" is 1, where every
    entry of `c` is the pattern of +∞, then every entry of `x` is finite. -/
theorem isReal_of_all {s : Shape} {axes : List (Fin s.rank)} (x c : FVec Ideal s .f32)
    (hc : ∀ i, c i = Ideal.ofBits .f32 0x7F800000#32) (init : IVec Cert.Pre_finite_inputs.S_ 1)
    (hred : s.ReducesTo axes Cert.Pre_finite_inputs.S_) (hu : 0 < Cert.Pre_finite_inputs.S_.numel)
    (j : Cert.Pre_finite_inputs.S_.Idx)
    (e : Host.reduce IntOp.andi (cmpf .olt (Host.absf x) c) init hred hu j = 1#1) :
    ∀ i, IsReal (x i) := by
  intro i
  have hi : Ideal.cmp .olt (max (x i) (-(x i))) (c i) = 1#1 :=
    Host.reduce_andi_all (cmpf .olt (Host.absf x) c) init hred hu j e i
  rw [hc i, ofBits_inf] at hi
  exact isReal_of_abs_lt_top _ hi

open Cert.Pre_finite_inputs in
/-- The precondition gives finiteness of each of the thirteen float arguments, in argument order. -/
theorem finite_of_pre (x0 : FVec Ideal Cert.Pre_finite_inputs.S50000x128 .f32)
    (x1 x2 : IVec Cert.Pre_finite_inputs.S600000 32) (x3 : IVec Cert.Pre_finite_inputs.S50000 32)
    (x4 : FVec Ideal Cert.Pre_finite_inputs.S128x128 .f32) (x5 : FVec Ideal Cert.Pre_finite_inputs.S128 .f32) (x6 : FVec Ideal Cert.Pre_finite_inputs.S_ .f32)
    (x7 x8 : FVec Ideal Cert.Pre_finite_inputs.S128 .f32) (x9 : FVec Ideal Cert.Pre_finite_inputs.S_ .f32)
    (x10 : FVec Ideal Cert.Pre_finite_inputs.S128x128 .f32) (x11 : FVec Ideal Cert.Pre_finite_inputs.S128 .f32) (x12 : FVec Ideal Cert.Pre_finite_inputs.S_ .f32)
    (x13 x14 : FVec Ideal Cert.Pre_finite_inputs.S128 .f32) (x15 : FVec Ideal Cert.Pre_finite_inputs.S_ .f32)
    (h : Cert.Pre_finite_inputs.fn (F := Ideal) x0 x1 x2 x3 x4 x5 x6 x7 x8 x9 x10 x11 x12 x13 x14 x15
      = fun _ => 1#1) :
    (∀ i, IsReal (x0 i)) ∧ (∀ i, IsReal (x4 i)) ∧ (∀ i, IsReal (x5 i)) ∧ (∀ i, IsReal (x6 i)) ∧
    (∀ i, IsReal (x7 i)) ∧ (∀ i, IsReal (x8 i)) ∧ (∀ i, IsReal (x9 i)) ∧ (∀ i, IsReal (x10 i)) ∧
    (∀ i, IsReal (x11 i)) ∧ (∀ i, IsReal (x12 i)) ∧ (∀ i, IsReal (x13 i)) ∧ (∀ i, IsReal (x14 i)) ∧
    (∀ i, IsReal (x15 i)) := by
  have h0 := congrFun h ValueIdx.ix0
  dsimp only [Cert.Pre_finite_inputs.fn, fn_part1, fn_part2, fn_part3] at h0
  simp only [Idealize.ShloMosaic.andi, IntOp.andi_eq_one] at h0
  obtain ⟨⟨⟨⟨⟨⟨⟨⟨⟨⟨⟨⟨e0, e4⟩, e5⟩, e6⟩, e7⟩, e8⟩, e9⟩, e10⟩, e11⟩, e12⟩, e13⟩, e14⟩, e15⟩ := h0
  exact ⟨isReal_of_all _ _ (fun _ => rfl) _ _ _ _ e0, isReal_of_all _ _ (fun _ => rfl) _ _ _ _ e4,
    isReal_of_all _ _ (fun _ => rfl) _ _ _ _ e5, isReal_of_all _ _ (fun _ => rfl) _ _ _ _ e6,
    isReal_of_all _ _ (fun _ => rfl) _ _ _ _ e7, isReal_of_all _ _ (fun _ => rfl) _ _ _ _ e8,
    isReal_of_all _ _ (fun _ => rfl) _ _ _ _ e9, isReal_of_all _ _ (fun _ => rfl) _ _ _ _ e10,
    isReal_of_all _ _ (fun _ => rfl) _ _ _ _ e11, isReal_of_all _ _ (fun _ => rfl) _ _ _ _ e12,
    isReal_of_all _ _ (fun _ => rfl) _ _ _ _ e13, isReal_of_all _ _ (fun _ => rfl) _ _ _ _ e14,
    isReal_of_all _ _ (fun _ => rfl) _ _ _ _ e15⟩

end Cert.Bridge
-- ==== Proof.RefRead.lean ====
/-
  The reference program's stages read at an index, in the vocabulary of the two pointwise laws.

  The reference computes a convolution layer's entry `(p, q)` as the rectified sum over `k` of
  `(aggregate (p, k) · in-degree factor p) · weight (k, q)` plus the bias `q`: that is `convAt`; the column mean as the
  column sum over the 50000 rows divided by 50000; the variance as the mean of the squared deviations; and the
  normalised, rectified entry as `bnPrelu` of the entry and its column's statistics.
-/
import proofs.«147171_j25031069401693_2_alg».proof.Proof.RefReadP
import proofs.«147171_j25031069401693_2_alg».proof.Proof.Spec

set_option quotPrecheck false
set_option maxRecDepth 16384

noncomputable section

namespace Cert.ReferenceIdeal.RefRead

open Cert.ReferenceIdeal Cert.ReferenceIdeal.ReadP Cert.Bridge
open Idealize.ShloMosaic Idealize.ShloMosaic.ValueIdx

local notation "𝔸" => (⟨S50000x128, .f32⟩ : BufTy).Contents (Elt Ideal)
local notation "𝕀" => (⟨S600000, .i32⟩ : BufTy).Contents (Elt Ideal)
local notation "𝕎" => (⟨S128x128, .f32⟩ : BufTy).Contents (Elt Ideal)
local notation "𝕍" => (⟨S128, .f32⟩ : BufTy).Contents (Elt Ideal)
local notation "𝕊" => (⟨S_, .f32⟩ : BufTy).Contents (Elt Ideal)

/-- Layer 0 before the rectifier, at entry `(p, q)`: the contraction of the degree-scaled aggregate's row `p` with
    the weights' column `q`, plus the bias. -/
theorem v38_at (x0 : 𝔸) (x1 x2 : 𝕀) (x4 : 𝕎) (x5 : 𝕍) (p : Fin 50000) (q : Fin 128) :
    val_main_v38 (F := Ideal) x0 x1 x2 x4 x5 (ix2 p q)
      = (∑ k : Fin 128, (val_main_v31 (F := Ideal) x0 x1 x2 (ix2 p k) * val_main_v18 (F := Ideal) x2 (ix1 p)) * x4 (ix2 k q))
        + x5 (ix1 q) := by
  rewrite [val_main_v38_apply, val_main_v35_apply, val_main_v37_apply, val_main_v36_apply]
  show _ + _ = _ + _
  refine congrArg₂ (· + ·) ?_ ?_
  · refine Finset.sum_congr rfl fun k _ => ?_
    rewrite [val_main_v34_apply, val_main_v33_apply, val_main_v32_apply]
    have e1 : lidx_main_v35 (ix2 p q) k = ix2 p k := funext fun a => Fin.ext (by match a with | ⟨0, _⟩ => rfl | ⟨1, _⟩ => rfl)
    have e2 : ridx_main_v35 (ix2 p q) k = ix2 k q := funext fun a => Fin.ext (by match a with | ⟨0, _⟩ => rfl | ⟨1, _⟩ => rfl)
    have e3 : idx_main_v32 (idx_main_v33 (ix2 p k)) = ix1 p := funext fun a => Fin.ext (by match a with | ⟨0, _⟩ => rfl)
    rewrite [e1, e2, e3]
    rfl
  · have e4 : idx_main_v36 (idx_main_v37 (ix2 p q)) = ix1 q := funext fun a => Fin.ext (by match a with | ⟨0, _⟩ => rfl)
    rw [e4]

/-- Layer 0's convolution output is the convolution law at every entry. -/
theorem v43_at (x0 : 𝔸) (x1 x2 : 𝕀) (x4 : 𝕎) (x5 : 𝕍) (x6 : 𝕊) (p : Fin 50000) (q : Fin 128) :
    val_main_v43 (F := Ideal) x0 x1 x2 x4 x5 x6 (ix2 p q)
      = convAt (val_main_v31 (F := Ideal) x0 x1 x2) (fun j => val_main_v18 (F := Ideal) x2 (ix1 (j 0))) x4
          (fun j => x5 (ix1 (j 1))) (fun _ => x6 ix0) p q := by
  rewrite [val_main_v43_apply, val_main_v40_apply, val_main_v42_apply, val_main_v41_apply, val_main_v39_apply,
    val_main_cst_10_apply, v38_at]
  have e5 : idx_main_v41 (ix2 p q) = ix0 := funext fun a => a.elim0
  rewrite [e5]
  unfold convAt prelu
  show Scalar.select (Ideal.cmp .oge _ (Ideal.ofBits .f32 0x00000000#32)) _ _ = _
  rewrite [Ideal.ofBits_zero_f32]
  rfl

local notation "N₅" => Ideal.ofBits .f32 0x47435000#32
local notation "ε₅" => Ideal.ofBits .f32 0x3727C5AC#32

/-- Layer 0's column mean: the column's sum over the 50000 rows, divided by 50000. -/
theorem v46_at (x0 : 𝔸) (x1 x2 : 𝕀) (x4 : 𝕎) (x5 : 𝕍) (x6 : 𝕊) (q : Fin 128) :
    val_main_v46 (F := Ideal) x0 x1 x2 x4 x5 x6 (ix1 q)
      = Ideal.div (∑ r : Fin 50000, val_main_v43 (F := Ideal) x0 x1 x2 x4 x5 x6 (ix2 r q)) N₅ := by
  rewrite [val_main_v46_apply, val_main_v44_apply, val_main_v45_apply, val_main_cst_12_apply, val_main_cst_11_apply]
  show Ideal.div (Ideal.ofBits .f32 0x00000000#32 + _) _ = _
  rewrite [Ideal.ofBits_zero_f32, zero_add]
  refine congrArg (fun s => Ideal.div s N₅) (Finset.sum_congr rfl fun k _ => ?_)
  exact congrArg _ (funext fun a => Fin.ext (by match a with | ⟨0, _⟩ => rfl | ⟨1, _⟩ => rfl))

/-- Layer 0's column variance: the mean of the squared deviations from the column mean. -/
theorem v53_at (x0 : 𝔸) (x1 x2 : 𝕀) (x4 : 𝕎) (x5 : 𝕍) (x6 : 𝕊) (q : Fin 128) :
    val_main_v53 (F := Ideal) x0 x1 x2 x4 x5 x6 (ix1 q)
      = Ideal.div (∑ r : Fin 50000,
          (val_main_v43 (F := Ideal) x0 x1 x2 x4 x5 x6 (ix2 r q) - val_main_v46 (F := Ideal) x0 x1 x2 x4 x5 x6 (ix1 q))
          * (val_main_v43 (F := Ideal) x0 x1 x2 x4 x5 x6 (ix2 r q) - val_main_v46 (F := Ideal) x0 x1 x2 x4 x5 x6 (ix1 q))) N₅ := by
  rewrite [val_main_v53_apply, val_main_v51_apply, val_main_v52_apply, val_main_cst_14_apply, val_main_cst_13_apply]
  show Ideal.div (Ideal.ofBits .f32 0x00000000#32 + _) _ = _
  rewrite [Ideal.ofBits_zero_f32, zero_add]
  refine congrArg (fun s => Ideal.div s N₅) (Finset.sum_congr rfl fun k _ => ?_)
  rewrite [val_main_v50_apply, val_main_v49_apply, val_main_v48_apply, val_main_v47_apply]
  have e1 : idx_main_v51 (ix1 q) k = ix2 k q := funext fun a => Fin.ext (by match a with | ⟨0, _⟩ => rfl | ⟨1, _⟩ => rfl)
  have e2 : idx_main_v47 (idx_main_v48 (ix2 k q)) = ix1 q := funext fun a => Fin.ext (by match a with | ⟨0, _⟩ => rfl)
  rewrite [e1, e2]
  rfl

/-- Layer 0's inverse standard deviation. -/
theorem v59_at (x0 : 𝔸) (x1 x2 : 𝕀) (x4 : 𝕎) (x5 : 𝕍) (x6 : 𝕊) (q : Fin 128) :
    val_main_v59 (F := Ideal) x0 x1 x2 x4 x5 x6 (ix1 q)
      = Ideal.rsqrt (val_main_v53 (F := Ideal) x0 x1 x2 x4 x5 x6 (ix1 q) + ε₅) := by
  rewrite [val_main_v59_apply, val_main_v58_apply, val_main_v57_apply, val_main_cst_15_apply]
  rfl

/-- Layer 0's output: the normalisation law at every entry, with the column's mean and inverse standard deviation. -/
theorem v73_at (x0 : 𝔸) (x1 x2 : 𝕀) (x4 : 𝕎) (x5 : 𝕍) (x6 : 𝕊) (x7 x8 : 𝕍) (x9 : 𝕊) (p : Fin 50000) (q : Fin 128) :
    val_main_v73 (F := Ideal) x0 x1 x2 x4 x5 x6 x7 x8 x9 (ix2 p q)
      = bnPrelu (val_main_v43 (F := Ideal) x0 x1 x2 x4 x5 x6 (ix2 p q)) (val_main_v46 (F := Ideal) x0 x1 x2 x4 x5 x6 (ix1 q))
          (val_main_v59 (F := Ideal) x0 x1 x2 x4 x5 x6 (ix1 q)) (x7 (ix1 q)) (x8 (ix1 q)) (x9 ix0) := by
  rewrite [val_main_v73_apply, val_main_v70_apply, val_main_v72_apply, val_main_v71_apply, val_main_v69_apply,
    val_main_cst_16_apply, val_main_v68_apply, val_main_v65_apply, val_main_v62_apply, val_main_v56_apply,
    val_main_v55_apply, val_main_v54_apply, val_main_v61_apply, val_main_v60_apply, val_main_v64_apply, val_main_v63_apply,
    val_main_v67_apply, val_main_v66_apply]
  have e1 : idx_main_v54 (idx_main_v55 (ix2 p q)) = ix1 q := funext fun a => Fin.ext (by match a with | ⟨0, _⟩ => rfl)
  have e2 : idx_main_v60 (idx_main_v61 (ix2 p q)) = ix1 q := funext fun a => Fin.ext (by match a with | ⟨0, _⟩ => rfl)
  have e3 : idx_main_v63 (idx_main_v64 (ix2 p q)) = ix1 q := funext fun a => Fin.ext (by match a with | ⟨0, _⟩ => rfl)
  have e4 : idx_main_v66 (idx_main_v67 (ix2 p q)) = ix1 q := funext fun a => Fin.ext (by match a with | ⟨0, _⟩ => rfl)
  have e5 : idx_main_v71 (ix2 p q) = ix0 := funext fun a => a.elim0
  rewrite [e1, e2, e3, e4, e5]
  unfold bnPrelu prelu
  show Scalar.select (Ideal.cmp .oge _ (Ideal.ofBits .f32 0x00000000#32)) _ _ = _
  rewrite [Ideal.ofBits_zero_f32]
  rfl

/-- Layer 0's output scaled by the row's out-degree factor: what layer 1 gathers. -/
theorem v79_at (x0 : 𝔸) (x1 x2 : 𝕀) (x4 : 𝕎) (x5 : 𝕍) (x6 : 𝕊) (x7 x8 : 𝕍) (x9 : 𝕊) (p : Fin 50000) (q : Fin 128) :
    val_main_v79 (F := Ideal) x0 x1 x2 x4 x5 x6 x7 x8 x9 (ix2 p q)
      = val_main_v73 (F := Ideal) x0 x1 x2 x4 x5 x6 x7 x8 x9 (ix2 p q) * val_main_v12 (F := Ideal) x1 (ix1 p) := by
  rewrite [val_main_v79_apply, val_main_v78_apply, val_main_v77_apply]
  have e1 : idx_main_v77 (idx_main_v78 (ix2 p q)) = ix1 p := funext fun a => Fin.ext (by match a with | ⟨0, _⟩ => rfl)
  rewrite [e1]
  rfl

end Cert.ReferenceIdeal.RefRead

end
-- ==== Proof.Walk.lean ====
import proofs.«147171_j25031069401693_2_alg».proof.Proof.Gen.KernelIdeal.Frame

/-! # Walking the fold of buffer contents through the program's segments

The idealized program is thirteen segments: stretches of host operations and four pipelined regions. The
contents of every buffer at each segment boundary are a fold from the launch memory (`Gen.W0` … `Gen.W13`).
This file reads that fold at the buffers the rest of the proof needs:

* at a region's exit, each OUTPUT array holds what the pipeline's write-backs leave;
* a buffer that a stretch of host operations does not write, and that is not an array of a region, is
  carried unchanged across that segment; an INPUT array of a region leaves the region as it entered;
* hence every ARGUMENT of the program holds, at every boundary, its contents at launch. -/

set_option maxRecDepth 16384

noncomputable section

namespace Cert.KernelIdeal.Walk

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg) (c : Dev nD)

/-! ## Region exits: each output array holds what the pipeline's write-backs leave -/

theorem W6_v35_0 : W6 m ρ c (Proc.devRef .tc main_v35_0) = (dat0 (V5 m ρ) c).arrAt 5 cfg0.N := W6_arr m ρ c 5
theorem W6_v35_1 : W6 m ρ c (Proc.devRef .tc main_v35_1) = (dat0 (V5 m ρ) c).arrAt 6 cfg0.N := W6_arr m ρ c 6
theorem W6_v35_2 : W6 m ρ c (Proc.devRef .tc main_v35_2) = (dat0 (V5 m ρ) c).arrAt 7 cfg0.N := W6_arr m ρ c 7
theorem W8_v54_0 : W8 m ρ c (Proc.devRef .tc main_v54_0) = (dat1 (V7 m ρ) c).arrAt 7 cfg1.N := W8_arr m ρ c 7
theorem W8_v54_1 : W8 m ρ c (Proc.devRef .tc main_v54_1) = (dat1 (V7 m ρ) c).arrAt 8 cfg1.N := W8_arr m ρ c 8
theorem W10_v70_0 : W10 m ρ c (Proc.devRef .tc main_v70_0) = (dat2 (V9 m ρ) c).arrAt 5 cfg2.N := W10_arr m ρ c 5
theorem W10_v70_1 : W10 m ρ c (Proc.devRef .tc main_v70_1) = (dat2 (V9 m ρ) c).arrAt 6 cfg2.N := W10_arr m ρ c 6
theorem W10_v70_2 : W10 m ρ c (Proc.devRef .tc main_v70_2) = (dat2 (V9 m ρ) c).arrAt 7 cfg2.N := W10_arr m ρ c 7
theorem W12_v89 : W12 m ρ c (Proc.devRef .tc main_v89) = (dat3 (V11 m ρ) c).arrAt 6 cfg3.N := W12_arr m ρ c 6

/-! ## What each stretch of host operations writes

Every host operation writes exactly one buffer, its result. Listing the results of a stretch once, a buffer
outside that list is carried unchanged across the stretch (`StableHlo.after_of_writes_sub`). -/

/-- One operation's written set (a singleton) lies in the listed results. -/
local macro "writes_one" : tactic => `(tactic| (
  simp only [StableHlo.nullary_writes, StableHlo.unary_writes, StableHlo.binary_writes, StableHlo.ternary_writes,
    StableHlo.quaternary_writes, StableHlo.reshape_writes, StableHlo.binaryIndexed_writes,
    Finset.singleton_subset_iff, List.mem_toFinset]
  exact List.mem_map_of_mem (by decide)))

/-- The buffers `hostOps0`'s operations write. -/
abbrev hostOps0_W : List (Ref sig .tc) := [main_cst, main_v0, main_cst_0, main_v1, main_v2, main_v3, main_cst_1, main_v4, main_v5, main_v6, main_cst_2, main_v7, main_v8, main_cst_3, main_v9, main_v10, main_v11, main_cst_4]
theorem hostOps0_writes : (hostOps0 : List (HloOp τ sig (Elt F))).Forall fun op => op.writes ⊆ (hostOps0_W.map (Proc.devRef (τ := τ) .tc)).toFinset := by
  simp only [List.Forall]; repeat' apply And.intro
  all_goals writes_one
/-- A buffer `hostOps0` does not write holds after it what it held before. -/
theorem W1_of (r : Ref sig .tc) (h : r ∉ hostOps0_W) : W1 m ρ c (Proc.devRef .tc r) = W0 m ρ c (Proc.devRef .tc r) :=
  StableHlo.after_of_writes_sub hostOps0 _ hostOps0_writes h

/-- The buffers `hostOps0_1`'s operations write. -/
abbrev hostOps0_1_W : List (Ref sig .tc) := [main_call0_v0, main_call0_v1, main_v12]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals writes_one
/-- A buffer `hostOps0_1` does not write holds after it what it held before. -/
theorem W2_of (r : Ref sig .tc) (h : r ∉ hostOps0_1_W) : W2 m ρ c (Proc.devRef .tc r) = W1 m ρ c (Proc.devRef .tc r) :=
  StableHlo.after_of_writes_sub hostOps0_1 _ hostOps0_1_writes h

/-- The buffers `hostOps0_2`'s operations write. -/
abbrev hostOps0_2_W : List (Ref sig .tc) := [main_cst_5, main_v13, main_v14, main_cst_6, main_v15, main_v16, main_v17, main_cst_7]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals writes_one
/-- A buffer `hostOps0_2` does not write holds after it what it held before. -/
theorem W3_of (r : Ref sig .tc) (h : r ∉ hostOps0_2_W) : W3 m ρ c (Proc.devRef .tc r) = W2 m ρ c (Proc.devRef .tc r) :=
  StableHlo.after_of_writes_sub hostOps0_2 _ hostOps0_2_writes h

/-- The buffers `hostOps0_3`'s operations write. -/
abbrev hostOps0_3_W : List (Ref sig .tc) := [main_call1_v0, main_call1_v1, main_v18]
theorem hostOps0_3_writes : (hostOps0_3 : List (HloOp τ sig (Elt F))).Forall fun op => op.writes ⊆ (hostOps0_3_W.map (Proc.devRef (τ := τ) .tc)).toFinset := by
  simp only [List.Forall]; repeat' apply And.intro
  all_goals writes_one
/-- A buffer `hostOps0_3` does not write holds after it what it held before. -/
theorem W4_of (r : Ref sig .tc) (h : r ∉ hostOps0_3_W) : W4 m ρ c (Proc.devRef .tc r) = W3 m ρ c (Proc.devRef .tc r) :=
  StableHlo.after_of_writes_sub hostOps0_3 _ hostOps0_3_writes h

/-- The buffers `hostOps0_4`'s operations write. -/
abbrev hostOps0_4_W : List (Ref sig .tc) := [main_v19, main_v20, main_v21, main_v22, main_c, main_v23, main_v24, main_c_8, main_v25, main_v26, main_v27, main_v28, main_v29, main_cst_9, main_v30, main_v31, main_v32, main_v33, main_v34]
theorem hostOps0_4_writes : (hostOps0_4 : List (HloOp τ sig (Elt F))).Forall fun op => op.writes ⊆ (hostOps0_4_W.map (Proc.devRef (τ := τ) .tc)).toFinset := by
  simp only [List.Forall]; repeat' apply And.intro
  all_goals writes_one
/-- A buffer `hostOps0_4` does not write holds after it what it held before. -/
theorem W5_of (r : Ref sig .tc) (h : r ∉ hostOps0_4_W) : W5 m ρ c (Proc.devRef .tc r) = W4 m ρ c (Proc.devRef .tc r) :=
  StableHlo.after_of_writes_sub hostOps0_4 _ hostOps0_4_writes h

/-- The buffers `hostOps1`'s operations write. -/
abbrev hostOps1_W : List (Ref sig .tc) := [main_v36, main_cst_10, main_v37, main_v38, main_v39, main_cst_11, main_v40, main_v41, main_v42, main_v43, main_cst_12, main_v44, main_v45, main_cst_13, main_v46, main_v47, main_v48, main_v49, main_v50, main_v51, main_v52, main_v53]
theorem hostOps1_writes : (hostOps1 : List (HloOp τ sig (Elt F))).Forall fun op => op.writes ⊆ (hostOps1_W.map (Proc.devRef (τ := τ) .tc)).toFinset := by
  simp only [List.Forall]; repeat' apply And.intro
  all_goals writes_one
/-- A buffer `hostOps1` does not write holds after it what it held before. -/
theorem W7_of (r : Ref sig .tc) (h : r ∉ hostOps1_W) : W7 m ρ c (Proc.devRef .tc r) = W6 m ρ c (Proc.devRef .tc r) :=
  StableHlo.after_of_writes_sub hostOps1 _ hostOps1_writes h

/-- The buffers `hostOps2`'s operations write. -/
abbrev hostOps2_W : List (Ref sig .tc) := [main_cst_14, main_v55, main_v56, main_v57, main_c_15, main_v58, main_v59, main_c_16, main_v60, main_v61, main_v62, main_v63, main_v64, main_cst_17, main_v65, main_v66, main_v67, main_v68, main_v69]
theorem hostOps2_writes : (hostOps2 : List (HloOp τ sig (Elt F))).Forall fun op => op.writes ⊆ (hostOps2_W.map (Proc.devRef (τ := τ) .tc)).toFinset := by
  simp only [List.Forall]; repeat' apply And.intro
  all_goals writes_one
/-- A buffer `hostOps2` does not write holds after it what it held before. -/
theorem W9_of (r : Ref sig .tc) (h : r ∉ hostOps2_W) : W9 m ρ c (Proc.devRef .tc r) = W8 m ρ c (Proc.devRef .tc r) :=
  StableHlo.after_of_writes_sub hostOps2 _ hostOps2_writes h

/-- The buffers `hostOps3`'s operations write. -/
abbrev hostOps3_W : List (Ref sig .tc) := [main_v71, main_cst_18, main_v72, main_v73, main_v74, main_cst_19, main_v75, main_v76, main_v77, main_v78, main_cst_20, main_v79, main_v80, main_cst_21, main_v81, main_v82, main_v83, main_v84, main_v85, main_v86, main_v87, main_v88]
theorem hostOps3_writes : (hostOps3 : List (HloOp τ sig (Elt F))).Forall fun op => op.writes ⊆ (hostOps3_W.map (Proc.devRef (τ := τ) .tc)).toFinset := by
  simp only [List.Forall]; repeat' apply And.intro
  all_goals writes_one
/-- A buffer `hostOps3` does not write holds after it what it held before. -/
theorem W11_of (r : Ref sig .tc) (h : r ∉ hostOps3_W) : W11 m ρ c (Proc.devRef .tc r) = W10 m ρ c (Proc.devRef .tc r) :=
  StableHlo.after_of_writes_sub hostOps3 _ hostOps3_writes h

/-- The buffers `hostOps4`'s operations write. -/
abbrev hostOps4_W : List (Ref sig .tc) := [main_cst_22, main_v90, main_v91, main_v92, main_v93]
theorem hostOps4_writes : (hostOps4 : List (HloOp τ sig (Elt F))).Forall fun op => op.writes ⊆ (hostOps4_W.map (Proc.devRef (τ := τ) .tc)).toFinset := by
  simp only [List.Forall]; repeat' apply And.intro
  all_goals writes_one
/-- A buffer `hostOps4` does not write holds after it what it held before. -/
theorem W13_of (r : Ref sig .tc) (h : r ∉ hostOps4_W) : W13 m ρ c (Proc.devRef .tc r) = W12 m ρ c (Proc.devRef .tc r) :=
  StableHlo.after_of_writes_sub hostOps4 _ hostOps4_writes h

/-! ## Intermediates carried across segments

A region changes only its own arrays, and of those only the outputs: an input array leaves the region as it
entered (`Dat.arrAt_in`). -/

/-- `main_v19`, written before region 0 and read by region 1, is untouched by region 0 and the stretch after it. -/
theorem W7_v19 : W7 m ρ c (Proc.devRef .tc main_v19) = W5 m ρ c (Proc.devRef .tc main_v19) :=
  (W7_of m ρ c main_v19 (by decide)).trans (W6_of_ne m ρ c main_v19 (by decide))

/-- `main_v20` is an input array of region 0 (window 1): it leaves region 0 as it entered, and nothing up to
    region 2's entry writes it. -/
theorem W9_v20 : W9 m ρ c (Proc.devRef .tc main_v20) = W5 m ρ c (Proc.devRef .tc main_v20) :=
  (W9_of m ρ c main_v20 (by decide)).trans <| (W8_of_ne m ρ c main_v20 (by decide)).trans <|
    (W7_of m ρ c main_v20 (by decide)).trans <|
      (W6_arr m ρ c 1).trans (((dat0 (V5 m ρ) c).arrAt_in 1 rfl _).trans (A_eq0 (V5 m ρ) c 1))

/-- Region 0's first output reaches region 1's entry unchanged. -/
theorem W7_v35_0 : W7 m ρ c (Proc.devRef .tc main_v35_0) = W6 m ρ c (Proc.devRef .tc main_v35_0) :=
  W7_of m ρ c main_v35_0 (by decide)

/-- Region 2's first output reaches region 3's entry unchanged. -/
theorem W11_v70_0 : W11 m ρ c (Proc.devRef .tc main_v70_0) = W10 m ρ c (Proc.devRef .tc main_v70_0) :=
  W11_of m ρ c main_v70_0 (by decide)

/-- `main_v57`, written before region 2, is an array of neither region 2 nor region 3. -/
theorem W12_v57 : W12 m ρ c (Proc.devRef .tc main_v57) = W9 m ρ c (Proc.devRef .tc main_v57) :=
  (W12_of_ne m ρ c main_v57 (by decide)).trans <| (W11_of m ρ c main_v57 (by decide)).trans
    (W10_of_ne m ρ c main_v57 (by decide))

/-- Region 3's output is not written by the last stretch. -/
theorem W13_v89 : W13 m ρ c (Proc.devRef .tc main_v89) = W12 m ρ c (Proc.devRef .tc main_v89) :=
  W13_of m ρ c main_v89 (by decide)

theorem W13_v57 : W13 m ρ c (Proc.devRef .tc main_v57) = W9 m ρ c (Proc.devRef .tc main_v57) :=
  (W13_of m ρ c main_v57 (by decide)).trans (W12_v57 m ρ c)

/-! ## The arguments hold their launch contents at every boundary

No host operation writes an argument, and a region either does not touch it or reads it through an input
window (`main_arg4` in region 0, `main_arg10` in region 2), which leaves the array as it entered. -/

/-- The program's sixteen arguments. -/
def argRefs : List (Ref sig .tc) := [main_arg0, main_arg1, main_arg2, main_arg3, main_arg4, main_arg5, main_arg6, main_arg7, main_arg8, main_arg9, main_arg10, main_arg11, main_arg12, main_arg13, main_arg14, main_arg15]

theorem arg_not_hostOps0 : ∀ b ∈ argRefs, b ∉ hostOps0_W := by decide
theorem arg_not_hostOps0_1 : ∀ b ∈ argRefs, b ∉ hostOps0_1_W := by decide
theorem arg_not_hostOps0_2 : ∀ b ∈ argRefs, b ∉ hostOps0_2_W := by decide
theorem arg_not_hostOps0_3 : ∀ b ∈ argRefs, b ∉ hostOps0_3_W := by decide
theorem arg_not_hostOps0_4 : ∀ b ∈ argRefs, b ∉ hostOps0_4_W := by decide
theorem arg_not_hostOps1 : ∀ b ∈ argRefs, b ∉ hostOps1_W := by decide
theorem arg_not_hostOps2 : ∀ b ∈ argRefs, b ∉ hostOps2_W := by decide
theorem arg_not_hostOps3 : ∀ b ∈ argRefs, b ∉ hostOps3_W := by decide
theorem arg_not_hostOps4 : ∀ b ∈ argRefs, b ∉ hostOps4_W := by decide
theorem arg_not_arr0 : ∀ b ∈ argRefs, b ≠ main_arg4 → ∀ w, Pipeline.arrRef spec0 w ≠ b := by decide
theorem arg_not_arr1 : ∀ b ∈ argRefs, ∀ w, Pipeline.arrRef spec1 w ≠ b := by decide
theorem arg_not_arr2 : ∀ b ∈ argRefs, b ≠ main_arg10 → ∀ w, Pipeline.arrRef spec2 w ≠ b := by decide
theorem arg_not_arr3 : ∀ b ∈ argRefs, ∀ w, Pipeline.arrRef spec3 w ≠ b := by decide

variable (b : Ref sig .tc) (hb : b ∈ argRefs)
include hb

theorem W1_arg : W1 m ρ c (Proc.devRef .tc b) = m ((c : Thread nD τ).loc b) :=
  W1_of m ρ c b (arg_not_hostOps0 b hb)
theorem W2_arg : W2 m ρ c (Proc.devRef .tc b) = m ((c : Thread nD τ).loc b) :=
  (W2_of m ρ c b (arg_not_hostOps0_1 b hb)).trans (W1_arg m ρ c b hb)
theorem W3_arg : W3 m ρ c (Proc.devRef .tc b) = m ((c : Thread nD τ).loc b) :=
  (W3_of m ρ c b (arg_not_hostOps0_2 b hb)).trans (W2_arg m ρ c b hb)
theorem W4_arg : W4 m ρ c (Proc.devRef .tc b) = m ((c : Thread nD τ).loc b) :=
  (W4_of m ρ c b (arg_not_hostOps0_3 b hb)).trans (W3_arg m ρ c b hb)
/-- At region 0's entry. -/
theorem W5_arg : W5 m ρ c (Proc.devRef .tc b) = m ((c : Thread nD τ).loc b) :=
  (W5_of m ρ c b (arg_not_hostOps0_4 b hb)).trans (W4_arg m ρ c b hb)
/-- At region 0's exit: `main_arg4` is its input window 2's array, the others are not its arrays. -/
theorem W6_arg : W6 m ρ c (Proc.devRef .tc b) = m ((c : Thread nD τ).loc b) := by
  by_cases h4 : b = main_arg4
  · subst h4
    exact ((W6_arr m ρ c 2).trans (((dat0 (V5 m ρ) c).arrAt_in 2 rfl _).trans (A_eq0 (V5 m ρ) c 2))).trans
      (W5_arg m ρ c main_arg4 hb)
  · exact (W6_of_ne m ρ c b (arg_not_arr0 b hb h4)).trans (W5_arg m ρ c b hb)
/-- At region 1's entry. -/
theorem W7_arg : W7 m ρ c (Proc.devRef .tc b) = m ((c : Thread nD τ).loc b) :=
  (W7_of m ρ c b (arg_not_hostOps1 b hb)).trans (W6_arg m ρ c b hb)
theorem W8_arg : W8 m ρ c (Proc.devRef .tc b) = m ((c : Thread nD τ).loc b) :=
  (W8_of_ne m ρ c b (arg_not_arr1 b hb)).trans (W7_arg m ρ c b hb)
/-- At region 2's entry. -/
theorem W9_arg : W9 m ρ c (Proc.devRef .tc b) = m ((c : Thread nD τ).loc b) :=
  (W9_of m ρ c b (arg_not_hostOps2 b hb)).trans (W8_arg m ρ c b hb)
/-- At region 2's exit: `main_arg10` is its input window 2's array, the others are not its arrays. -/
theorem W10_arg : W10 m ρ c (Proc.devRef .tc b) = m ((c : Thread nD τ).loc b) := by
  by_cases h10 : b = main_arg10
  · subst h10
    exact ((W10_arr m ρ c 2).trans (((dat2 (V9 m ρ) c).arrAt_in 2 rfl _).trans (A_eq2 (V9 m ρ) c 2))).trans
      (W9_arg m ρ c main_arg10 hb)
  · exact (W10_of_ne m ρ c b (arg_not_arr2 b hb h10)).trans (W9_arg m ρ c b hb)
/-- At region 3's entry. -/
theorem W11_arg : W11 m ρ c (Proc.devRef .tc b) = m ((c : Thread nD τ).loc b) :=
  (W11_of m ρ c b (arg_not_hostOps3 b hb)).trans (W10_arg m ρ c b hb)
/-- At region 3's exit. -/
theorem W12_arg : W12 m ρ c (Proc.devRef .tc b) = m ((c : Thread nD τ).loc b) :=
  (W12_of_ne m ρ c b (arg_not_arr3 b hb)).trans (W11_arg m ρ c b hb)
/-- At the return. -/
theorem W13_arg : W13 m ρ c (Proc.devRef .tc b) = m ((c : Thread nD τ).loc b) :=
  (W13_of m ρ c b (arg_not_hostOps4 b hb)).trans (W12_arg m ρ c b hb)

omit hb

end Cert.KernelIdeal.Walk
-- ==== Proof.BnValue.lean ====
/-
  The batch-normalisation regions of the kernel, read as whole arrays.

  Two of the kernel's four regions apply, entry by entry, the batch normalisation followed by the parametric
  rectifier (`Cert.Bridge.bnPrelu`): the entry of the feature array is centred by its column's mean, scaled by the
  column's inverse standard deviation and by the learnt gain, shifted, and rectified. The first of the two regions
  also writes a second array, the same entries multiplied by the row's out-degree factor.

  The region walks the 50000 rows in ten blocks of 5000. This module reads what one block's body computes at an entry
  (the payload lemmas), then what a grid point writes back as a block of ONE whole-array function, then — the ten
  blocks tiling the rows, the block that holds row r being block r / 5000 — the array after the region as that
  function of the arrays the region found.
-/
import proofs.«147171_j25031069401693_2_alg».proof.Proof.Gen.KernelIdeal.Frame
import proofs.«147171_j25031069401693_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BnValue

open Idealize.ShloMosaic Idealize.ShloMosaic.TcCoe Idealize.SL.Sem
open Idealize.ShloMosaic.Pipeline (Dat)
open Idealize.ShloMosaic.ValueIdx
open Cert.KernelIdeal Cert.KernelIdeal.Gen Cert.Bridge

/-! ## Broadcasts of a single entry and of a column, read at an entry -/

section Broadcasts
variable {α : Type}

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Broadcasts

/-! ## The scalar law respects equal arguments -/

theorem bnPrelu_congr {h h2 mu mu2 sg sg2 ga ga2 be be2 al al2 : EReal} (e0 : h = h2) (e1 : mu = mu2) (e2 : sg = sg2)
    (e3 : ga = ga2) (e4 : be = be2) (e5 : al = al2) : bnPrelu h mu sg ga be al = bnPrelu h2 mu2 sg2 ga2 be2 al2 := by
  rw [e0, e1, e2, e3, e4, e5]

/-- The zero offsets of a whole-block access, however spelt. -/
theorem hz : (![0, 0] : Fin 2 → Nat) = fun _ => 0 := funext fun a => by fin_cases a <;> rfl

/-! ## The whole-array functions -/

/-- Batch normalisation then the rectifier, entry by entry: entry `(r, j)` of the features against column `j` of the
    four per-column rows and the one rectifier slope. -/
abbrev bnArr (H : S50000x128.Idx → EReal) (MU SG GA BE : S1x128.Idx → EReal) (AL : S1x1.Idx → EReal) :
    S50000x128.Idx → EReal :=
  fun i => bnPrelu (H i) (MU (ix2 (0 : Fin 1) (i 1 : Fin 128))) (SG (ix2 (0 : Fin 1) (i 1 : Fin 128)))
    (GA (ix2 (0 : Fin 1) (i 1 : Fin 128))) (BE (ix2 (0 : Fin 1) (i 1 : Fin 128))) (AL (ix2 (0 : Fin 1) (0 : Fin 1)))

/-- The same, each row multiplied by the row's factor. -/
abbrev bnScaledArr (H : S50000x128.Idx → EReal) (MU SG GA BE : S1x128.Idx → EReal) (AL : S1x1.Idx → EReal)
    (NS : S50000x1.Idx → EReal) : S50000x128.Idx → EReal :=
  fun i => bnArr H MU SG GA BE AL i * NS (ix2 (i 0 : Fin 50000) (0 : Fin 1))

/-! ## What the body computes at an entry -/

/-- The body's stored value at entry `(p, q)` of a block: the scalar law of the block's entry, of column `q` of the four
    per-column rows, and of the slope. The broadcasts are read by the layout lemmas, everything else is entrywise; the
    zero the comparison is made against is the literal's value. -/
theorem bn_payload_at (x0 : Vec Ideal S5000x128 .f32) (x1 x2 x3 x4 : Vec Ideal S1x128 .f32) (x5 : Vec Ideal S1x1 .f32)
    (p : Fin 5000) (q : Fin 128) :
    k1_pay1 (F := Ideal) x0 x1 x2 x3 x4 x5 (ix2 p q)
      = bnPrelu (x0 (ix2 p q)) (x1 (ix2 (0 : Fin 1) q)) (x2 (ix2 (0 : Fin 1) q)) (x3 (ix2 (0 : Fin 1) q))
          (x4 (ix2 (0 : Fin 1) q)) (x5 (ix2 (0 : Fin 1) (0 : Fin 1))) := by
  have hrow : ∀ x : Vec Ideal S1x128 .f32,
      broadcastTo S5000x128 x broadcasts_S1x128_S5000x128 (ix2 p q) = x (ix2 (0 : Fin 1) q) :=
    fun x => broadcastTo_1b_ab_apply x broadcasts_S1x128_S5000x128 p q
  have hone : broadcastTo S5000x128 x5 broadcasts_S1x1_S5000x128 (ix2 p q) = x5 (ix2 (0 : Fin 1) (0 : Fin 1)) :=
    broadcastTo_11_ab_apply x5 broadcasts_S1x1_S5000x128 p q
  unfold k1_pay1 bnPrelu prelu
  simp only [select_apply, cmpf_apply, mulf_apply, addf_apply, subf_apply, broadcast_apply, shapeCast_self, hrow, hone,
    Ideal.ofBits_def, Ideal.ofBits_zero_f32]
  rfl

/-- The second stored value: the first, times the row's factor. -/
theorem bn_scaled_payload_at (x0 : Vec Ideal S5000x128 .f32) (x1 x2 x3 x4 : Vec Ideal S1x128 .f32)
    (x5 : Vec Ideal S1x1 .f32) (x6 : Vec Ideal S5000x1 .f32) (p : Fin 5000) (q : Fin 128) :
    k1_pay2 (F := Ideal) x0 x1 x2 x3 x4 x5 x6 (ix2 p q)
      = bnPrelu (x0 (ix2 p q)) (x1 (ix2 (0 : Fin 1) q)) (x2 (ix2 (0 : Fin 1) q)) (x3 (ix2 (0 : Fin 1) q))
          (x4 (ix2 (0 : Fin 1) q)) (x5 (ix2 (0 : Fin 1) (0 : Fin 1))) * x6 (ix2 p (0 : Fin 1)) := by
  have hcol : broadcastTo S5000x128 x6 broadcasts_S5000x1_S5000x128 (ix2 p q) = x6 (ix2 p (0 : Fin 1)) :=
    broadcastTo_a1_ab_apply x6 broadcasts_S5000x1_S5000x128 p q
  unfold k1_pay2
  simp only [mulf_apply, shapeCast_self, hcol, bn_payload_at]

/-- The other region's stored value is the same law (its body is the same operations). -/
theorem bn_payload3_at (x0 : Vec Ideal S5000x128 .f32) (x1 x2 x3 x4 : Vec Ideal S1x128 .f32) (x5 : Vec Ideal S1x1 .f32)
    (p : Fin 5000) (q : Fin 128) :
    k3_pay1 (F := Ideal) x0 x1 x2 x3 x4 x5 (ix2 p q)
      = bnPrelu (x0 (ix2 p q)) (x1 (ix2 (0 : Fin 1) q)) (x2 (ix2 (0 : Fin 1) q)) (x3 (ix2 (0 : Fin 1) q))
          (x4 (ix2 (0 : Fin 1) q)) (x5 (ix2 (0 : Fin 1) (0 : Fin 1))) := by
  have hrow : ∀ x : Vec Ideal S1x128 .f32,
      broadcastTo S5000x128 x broadcasts_S1x128_S5000x128 (ix2 p q) = x (ix2 (0 : Fin 1) q) :=
    fun x => broadcastTo_1b_ab_apply x broadcasts_S1x128_S5000x128 p q
  have hone : broadcastTo S5000x128 x5 broadcasts_S1x1_S5000x128 (ix2 p q) = x5 (ix2 (0 : Fin 1) (0 : Fin 1)) :=
    broadcastTo_11_ab_apply x5 broadcasts_S1x1_S5000x128 p q
  unfold k3_pay1 bnPrelu prelu
  simp only [select_apply, cmpf_apply, mulf_apply, addf_apply, subf_apply, broadcast_apply, shapeCast_self, hrow, hone,
    Ideal.ofBits_def, Ideal.ofBits_zero_f32]
  rfl

/-! # The scaled region (pipeline 1) -/

section Region1
variable (V : (c : Dev nD) → (b : Ref sig .tc) → Buf (Elt Ideal) ((c : Thread nD τ).loc b))

/-- The printed index maps, decided over the ten grid points: a row-blocked window's block index is the point's number
    on the rows and zero on the columns; a resident window's is zero on both. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! ## Each input block as entries of its array -/

/-- The feature block at point `t` holds rows `5000 t … 5000 t + 4999` of the feature array. -/
theorem blk1_0_at (c : Dev nD) (t : Fin cfg1.N) (y : S5000x128.Idx) (k : S50000x128.Idx)
    (hk0 : (k 0).val = t.val * 5000 + (y 0).val) (hk1 : (k 1).val = (y 1).val) :
    (iblk1 V c 0 t : Vec Ideal S5000x128 .f32) y = (V c main_v35_0 : S50000x128.Idx → EReal) k := by
  obtain ⟨e0, e1, -⟩ := index_facts1 t
  unfold iblk1
  rw [View.read_apply]
  show (V c main_v35_0 : S50000x128.Idx → EReal) _ = V c main_v35_0 k
  refine congrArg (V c main_v35_0 : S50000x128.Idx → EReal) (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- A resident row (window 1) is its whole array at every point. -/
theorem blk1_1_at (c : Dev nD) (t : Fin cfg1.N) (y k : S1x128.Idx)
    (hk0 : (k 0).val = (y 0).val) (hk1 : (k 1).val = (y 1).val) :
    (iblk1 V c 1 t : Vec Ideal S1x128 .f32) y = (V c main_v49 : S1x128.Idx → EReal) k := by
  obtain ⟨-, -, e0, e1, -⟩ := index_facts1 t
  unfold iblk1
  rw [View.read_apply]
  show (V c main_v49 : S1x128.Idx → EReal) _ = V c main_v49 k
  refine congrArg (V c main_v49 : S1x128.Idx → EReal) (funext fun a => Fin.ext ?_)
  match a with
  | ⟨0, _⟩ => show win1_1.index t (0 : Fin 2) * 1 + 1 * (y 0).val = (k 0).val; rw [e0, hk0]; omega
  | ⟨1, _⟩ => show win1_1.index t (1 : Fin 2) * 128 + 1 * (y 1).val = (k 1).val; rw [e1, hk1]; omega

/-- A resident row (window 2) is its whole array at every point. -/
theorem blk1_2_at (c : Dev nD) (t : Fin cfg1.N) (y k : S1x128.Idx)
    (hk0 : (k 0).val = (y 0).val) (hk1 : (k 1).val = (y 1).val) :
    (iblk1 V c 2 t : Vec Ideal S1x128 .f32) y = (V c main_v50 : S1x128.Idx → EReal) k := by
  obtain ⟨-, -, -, -, e0, e1, -⟩ := index_facts1 t
  unfold iblk1
  rw [View.read_apply]
  show (V c main_v50 : S1x128.Idx → EReal) _ = V c main_v50 k
  refine congrArg (V c main_v50 : S1x128.Idx → EReal) (funext fun a => Fin.ext ?_)
  match a with
  | ⟨0, _⟩ => show win1_2.index t (0 : Fin 2) * 1 + 1 * (y 0).val = (k 0).val; rw [e0, hk0]; omega
  | ⟨1, _⟩ => show win1_2.index t (1 : Fin 2) * 128 + 1 * (y 1).val = (k 1).val; rw [e1, hk1]; omega

/-- A resident row (window 3) is its whole array at every point. -/
theorem blk1_3_at (c : Dev nD) (t : Fin cfg1.N) (y k : S1x128.Idx)
    (hk0 : (k 0).val = (y 0).val) (hk1 : (k 1).val = (y 1).val) :
    (iblk1 V c 3 t : Vec Ideal S1x128 .f32) y = (V c main_v51 : S1x128.Idx → EReal) k := by
  obtain ⟨-, -, -, -, -, -, e0, e1, -⟩ := index_facts1 t
  unfold iblk1
  rw [View.read_apply]
  show (V c main_v51 : S1x128.Idx → EReal) _ = V c main_v51 k
  refine congrArg (V c main_v51 : S1x128.Idx → EReal) (funext fun a => Fin.ext ?_)
  match a with
  | ⟨0, _⟩ => show win1_3.index t (0 : Fin 2) * 1 + 1 * (y 0).val = (k 0).val; rw [e0, hk0]; omega
  | ⟨1, _⟩ => show win1_3.index t (1 : Fin 2) * 128 + 1 * (y 1).val = (k 1).val; rw [e1, hk1]; omega

/-- A resident row (window 4) is its whole array at every point. -/
theorem blk1_4_at (c : Dev nD) (t : Fin cfg1.N) (y k : S1x128.Idx)
    (hk0 : (k 0).val = (y 0).val) (hk1 : (k 1).val = (y 1).val) :
    (iblk1 V c 4 t : Vec Ideal S1x128 .f32) y = (V c main_v52 : S1x128.Idx → EReal) k := by
  obtain ⟨-, -, -, -, -, -, -, -, e0, e1, -⟩ := index_facts1 t
  unfold iblk1
  rw [View.read_apply]
  show (V c main_v52 : S1x128.Idx → EReal) _ = V c main_v52 k
  refine congrArg (V c main_v52 : S1x128.Idx → EReal) (funext fun a => Fin.ext ?_)
  match a with
  | ⟨0, _⟩ => show win1_4.index t (0 : Fin 2) * 1 + 1 * (y 0).val = (k 0).val; rw [e0, hk0]; omega
  | ⟨1, _⟩ => show win1_4.index t (1 : Fin 2) * 128 + 1 * (y 1).val = (k 1).val; rw [e1, hk1]; omega

/-- The resident slope (window 5) is its one-entry array at every point. -/
theorem blk1_5_at (c : Dev nD) (t : Fin cfg1.N) (y k : S1x1.Idx)
    (hk0 : (k 0).val = (y 0).val) (hk1 : (k 1).val = (y 1).val) :
    (iblk1 V c 5 t : Vec Ideal S1x1 .f32) y = (V c main_v53 : S1x1.Idx → EReal) k := by
  obtain ⟨-, -, -, -, -, -, -, -, -, -, e0, e1, -⟩ := index_facts1 t
  unfold iblk1
  rw [View.read_apply]
  show (V c main_v53 : S1x1.Idx → EReal) _ = V c main_v53 k
  refine congrArg (V c main_v53 : S1x1.Idx → EReal) (funext fun a => Fin.ext ?_)
  match a with
  | ⟨0, _⟩ => show win1_5.index t (0 : Fin 2) * 1 + 1 * (y 0).val = (k 0).val; rw [e0, hk0]; omega
  | ⟨1, _⟩ => show win1_5.index t (1 : Fin 2) * 1 + 1 * (y 1).val = (k 1).val; rw [e1, hk1]; omega

/-- The row factors' block at point `t` holds rows `5000 t … 5000 t + 4999` of the factor column. -/
theorem blk1_6_at (c : Dev nD) (t : Fin cfg1.N) (y : S5000x1.Idx) (k : S50000x1.Idx)
    (hk0 : (k 0).val = t.val * 5000 + (y 0).val) (hk1 : (k 1).val = (y 1).val) :
    (iblk1 V c 6 t : Vec Ideal S5000x1 .f32) y = (V c main_v19 : S50000x1.Idx → EReal) k := by
  obtain ⟨-, -, -, -, -, -, -, -, -, -, -, -, e0, e1, -⟩ := index_facts1 t
  unfold iblk1
  rw [View.read_apply]
  show (V c main_v19 : S50000x1.Idx → EReal) _ = V c main_v19 k
  refine congrArg (V c main_v19 : S50000x1.Idx → EReal) (funext fun a => Fin.ext ?_)
  match a with
  | ⟨0, _⟩ => show win1_6.index t (0 : Fin 2) * 5000 + 1 * (y 0).val = (k 0).val; rw [e0, hk0]; omega
  | ⟨1, _⟩ => show win1_6.index t (1 : Fin 2) * 1 + 1 * (y 1).val = (k 1).val; rw [e1, hk1]; omega

/-! ## What a point writes back -/

/-- The scalar law of the blocks' entries at `(p, q)` of point `t` is the whole-array function at any entry `k` in row
    `5000 t + p`, column `q`. -/
theorem bn_blocks_at1 (c : Dev nD) (t : Fin cfg1.N) (p : Fin 5000) (q : Fin 128) (k : S50000x128.Idx)
    (hk0 : (k 0).val = t.val * 5000 + p.val) (hk1 : (k 1).val = q.val) :
    bnPrelu ((iblk1 V c 0 t : Vec Ideal S5000x128 .f32) (ix2 p q))
        ((iblk1 V c 1 t : Vec Ideal S1x128 .f32) (ix2 (0 : Fin 1) q))
        ((iblk1 V c 2 t : Vec Ideal S1x128 .f32) (ix2 (0 : Fin 1) q))
        ((iblk1 V c 3 t : Vec Ideal S1x128 .f32) (ix2 (0 : Fin 1) q))
        ((iblk1 V c 4 t : Vec Ideal S1x128 .f32) (ix2 (0 : Fin 1) q))
        ((iblk1 V c 5 t : Vec Ideal S1x1 .f32) (ix2 (0 : Fin 1) (0 : Fin 1)))
      = bnArr (V c main_v35_0) (V c main_v49) (V c main_v50) (V c main_v51) (V c main_v52) (V c main_v53) k :=
  bnPrelu_congr (blk1_0_at V c t (ix2 p q) k hk0 hk1)
    (blk1_1_at V c t (ix2 (0 : Fin 1) q) (ix2 (0 : Fin 1) (k 1 : Fin 128)) rfl hk1)
    (blk1_2_at V c t (ix2 (0 : Fin 1) q) (ix2 (0 : Fin 1) (k 1 : Fin 128)) rfl hk1)
    (blk1_3_at V c t (ix2 (0 : Fin 1) q) (ix2 (0 : Fin 1) (k 1 : Fin 128)) rfl hk1)
    (blk1_4_at V c t (ix2 (0 : Fin 1) q) (ix2 (0 : Fin 1) (k 1 : Fin 128)) rfl hk1)
    (blk1_5_at V c t (ix2 (0 : Fin 1) (0 : Fin 1)) (ix2 (0 : Fin 1) (0 : Fin 1)) rfl rfl)

/-- WHAT POINT `t` WRITES BACK through window 7 is block `t` of the whole-array function. -/
theorem flushed1_7_eq (c : Dev nD) (t : Fin cfg1.N) :
    (dat1 (F := Ideal) V c).flushed 7 t = ((cfg1.win 7).blk t).view.read (Elt Ideal)
      (bnArr (V c main_v35_0) (V c main_v49) (V c main_v50) (V c main_v51) (V c main_v52) (V c main_v53)) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S1x128) hz, View.ld_unit_zero (S := S1x1) hz]
  obtain ⟨-, -, -, -, -, -, -, -, -, -, -, -, -, -, e0, e1, -⟩ := index_facts1 t
  funext j
  show k1_pay1 (F := Ideal) (iblk1 V c 0 t) (iblk1 V c 1 t) (iblk1 V c 2 t) (iblk1 V c 3 t) (iblk1 V c 4 t) (iblk1 V c 5 t) j
      = bnArr (V c main_v35_0) (V c main_v49) (V c main_v50) (V c main_v51) (V c main_v52) (V c main_v53)
          (((cfg1.win 7).blk t).view.emb j)
  obtain ⟨p, q, rfl⟩ : ∃ (p : Fin 5000) (q : Fin 128), j = ix2 p q := ⟨j 0, j 1, eq_ix2 j⟩
  refine (bn_payload_at (iblk1 V c 0 t) (iblk1 V c 1 t) (iblk1 V c 2 t) (iblk1 V c 3 t) (iblk1 V c 4 t) (iblk1 V c 5 t) p q).trans ?_
  refine bn_blocks_at1 V c t p q _ ?_ ?_
  · show win1_7.index t (0 : Fin 2) * 5000 + 1 * p.val = t.val * 5000 + p.val; rw [e0]; omega
  · show win1_7.index t (1 : Fin 2) * 128 + 1 * q.val = q.val; rw [e1]; omega

/-- WHAT POINT `t` WRITES BACK through window 8 is block `t` of the scaled whole-array function. -/
theorem flushed1_8_eq (c : Dev nD) (t : Fin cfg1.N) :
    (dat1 (F := Ideal) V c).flushed 8 t = ((cfg1.win 8).blk t).view.read (Elt Ideal)
      (bnScaledArr (V c main_v35_0) (V c main_v49) (V c main_v50) (V c main_v51) (V c main_v52) (V c main_v53)
        (V c main_v19)) := by
  show (cfg1.win 8).cut (grid1.coords t) ((dat1 (F := Ideal) V c).after 8 t) = _
  rw [after1_8]
  unfold out1_8
  rw [View.canon_unit_zero hz]
  simp only [View.ld_unit_zero (S := S5000x128) hz, View.ld_unit_zero (S := S1x128) hz, View.ld_unit_zero (S := S1x1) hz,
    View.ld_unit_zero (S := S5000x1) hz]
  obtain ⟨-, -, -, -, -, -, -, -, -, -, -, -, -, -, -, -, e0, e1⟩ := index_facts1 t
  funext j
  show k1_pay2 (F := Ideal) (iblk1 V c 0 t) (iblk1 V c 1 t) (iblk1 V c 2 t) (iblk1 V c 3 t) (iblk1 V c 4 t) (iblk1 V c 5 t)
        (iblk1 V c 6 t) j
      = bnScaledArr (V c main_v35_0) (V c main_v49) (V c main_v50) (V c main_v51) (V c main_v52) (V c main_v53)
          (V c main_v19) (((cfg1.win 8).blk t).view.emb j)
  obtain ⟨p, q, rfl⟩ : ∃ (p : Fin 5000) (q : Fin 128), j = ix2 p q := ⟨j 0, j 1, eq_ix2 j⟩
  refine (bn_scaled_payload_at (iblk1 V c 0 t) (iblk1 V c 1 t) (iblk1 V c 2 t) (iblk1 V c 3 t) (iblk1 V c 4 t) (iblk1 V c 5 t)
    (iblk1 V c 6 t) p q).trans ?_
  have hk0 : ((((cfg1.win 8).blk t).view.emb (ix2 p q) : S50000x128.Idx) 0).val = t.val * 5000 + p.val := by
    show win1_8.index t (0 : Fin 2) * 5000 + 1 * p.val = t.val * 5000 + p.val; rw [e0]; omega
  have hk1 : ((((cfg1.win 8).blk t).view.emb (ix2 p q) : S50000x128.Idx) 1).val = q.val := by
    show win1_8.index t (1 : Fin 2) * 128 + 1 * q.val = q.val; rw [e1]; omega
  exact congrArg₂ (· * ·) (bn_blocks_at1 V c t p q _ hk0 hk1)
    (blk1_6_at V c t (ix2 p (0 : Fin 1)) (ix2 ((((cfg1.win 8).blk t).view.emb (ix2 p q) : S50000x128.Idx) 0 : Fin 50000) (0 : Fin 1)) hk0 rfl)

/-! ## The ten blocks tile the rows -/

/-- An entry is in point `t`'s block of window 7 iff each coordinate is in the block's range on its axis. -/
theorem mem_blk1_7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v54_0).slice (win1_7.rect t)).set ↔ _
  rw [View.set_slice_whole, Rect.mem_set_unit]
  exact Iff.rfl

/-- Likewise for window 8. -/
theorem mem_blk1_8 (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v54_1).slice (win1_8.rect t)).set ↔ _
  rw [View.set_slice_whole, Rect.mem_set_unit]
  exact Iff.rfl

/-- Every entry of the array is in the block of the point that holds its row: row `r` is in block `r / 5000`. -/
theorem rows_cover1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1, -⟩ := index_facts1 t
  refine ⟨t, flush1_7 t, ?_⟩
  rw [mem_blk1_7]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- Likewise for window 8. -/
theorem rows_cover1_8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, -, -, e0, e1⟩ := index_facts1 t
  refine ⟨t, flush1_8 t, ?_⟩
  rw [mem_blk1_8]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 128 ≤ (i 1).val ∧ (i 1).val < win1_8.index t (1 : Fin 2) * 128 + 128
    rw [e1]; omega

/-! ## The arrays after the region -/

/-- THE FIRST OUTPUT after the region: the scalar law, entry by entry, of the arrays the region found. -/
theorem final1_7 (c : Dev nD) :
    (dat1 (F := Ideal) V c).arrAt 7 cfg1.N = fun i : S50000x128.Idx =>
      bnPrelu ((V c main_v35_0 : S50000x128.Idx → EReal) i)
        ((V c main_v49 : S1x128.Idx → EReal) (ix2 (0 : Fin 1) (i 1 : Fin 128)))
        ((V c main_v50 : S1x128.Idx → EReal) (ix2 (0 : Fin 1) (i 1 : Fin 128)))
        ((V c main_v51 : S1x128.Idx → EReal) (ix2 (0 : Fin 1) (i 1 : Fin 128)))
        ((V c main_v52 : S1x128.Idx → EReal) (ix2 (0 : Fin 1) (i 1 : Fin 128)))
        ((V c main_v53 : S1x1.Idx → EReal) (ix2 (0 : Fin 1) (0 : Fin 1))) :=
  (dat1 (F := Ideal) V c).arrAt_eq_of_cover 7
    (bnArr (V c main_v35_0) (V c main_v49) (V c main_v50) (V c main_v51) (V c main_v52) (V c main_v53))
    (fun t _ => flushed1_7_eq V c t) rows_cover1_7

/-- THE SECOND OUTPUT after the region: the same entries, each multiplied by its row's factor. -/
theorem final1_8 (c : Dev nD) :
    (dat1 (F := Ideal) V c).arrAt 8 cfg1.N = fun i : S50000x128.Idx =>
      bnPrelu ((V c main_v35_0 : S50000x128.Idx → EReal) i)
        ((V c main_v49 : S1x128.Idx → EReal) (ix2 (0 : Fin 1) (i 1 : Fin 128)))
        ((V c main_v50 : S1x128.Idx → EReal) (ix2 (0 : Fin 1) (i 1 : Fin 128)))
        ((V c main_v51 : S1x128.Idx → EReal) (ix2 (0 : Fin 1) (i 1 : Fin 128)))
        ((V c main_v52 : S1x128.Idx → EReal) (ix2 (0 : Fin 1) (i 1 : Fin 128)))
        ((V c main_v53 : S1x1.Idx → EReal) (ix2 (0 : Fin 1) (0 : Fin 1)))
      * (V c main_v19 : S50000x1.Idx → EReal) (ix2 (i 0 : Fin 50000) (0 : Fin 1)) :=
  (dat1 (F := Ideal) V c).arrAt_eq_of_cover 8
    (bnScaledArr (V c main_v35_0) (V c main_v49) (V c main_v50) (V c main_v51) (V c main_v52) (V c main_v53)
      (V c main_v19))
    (fun t _ => flushed1_8_eq V c t) rows_cover1_8

end Region1

/-! # The unscaled region (pipeline 3) -/

section Region3
variable (V : (c : Dev nD) → (b : Ref sig .tc) → Buf (Elt Ideal) ((c : Thread nD τ).loc b))

/-- The printed index maps, decided over the ten grid points: a row-blocked window's block index is the point's number
    on the rows and zero on the columns; a resident window's is zero on both. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## Each input block as entries of its array -/

/-- The feature block at point `t` holds rows `5000 t … 5000 t + 4999` of the feature array. -/
theorem blk3_0_at (c : Dev nD) (t : Fin cfg3.N) (y : S5000x128.Idx) (k : S50000x128.Idx)
    (hk0 : (k 0).val = t.val * 5000 + (y 0).val) (hk1 : (k 1).val = (y 1).val) :
    (iblk3 V c 0 t : Vec Ideal S5000x128 .f32) y = (V c main_v70_0 : S50000x128.Idx → EReal) k := by
  obtain ⟨e0, e1, -⟩ := index_facts3 t
  unfold iblk3
  rw [View.read_apply]
  show (V c main_v70_0 : S50000x128.Idx → EReal) _ = V c main_v70_0 k
  refine congrArg (V c main_v70_0 : S50000x128.Idx → EReal) (funext fun a => Fin.ext ?_)
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- A resident row (window 1) is its whole array at every point. -/
theorem blk3_1_at (c : Dev nD) (t : Fin cfg3.N) (y k : S1x128.Idx)
    (hk0 : (k 0).val = (y 0).val) (hk1 : (k 1).val = (y 1).val) :
    (iblk3 V c 1 t : Vec Ideal S1x128 .f32) y = (V c main_v84 : S1x128.Idx → EReal) k := by
  obtain ⟨-, -, e0, e1, -⟩ := index_facts3 t
  unfold iblk3
  rw [View.read_apply]
  show (V c main_v84 : S1x128.Idx → EReal) _ = V c main_v84 k
  refine congrArg (V c main_v84 : S1x128.Idx → EReal) (funext fun a => Fin.ext ?_)
  match a with
  | ⟨0, _⟩ => show win3_1.index t (0 : Fin 2) * 1 + 1 * (y 0).val = (k 0).val; rw [e0, hk0]; omega
  | ⟨1, _⟩ => show win3_1.index t (1 : Fin 2) * 128 + 1 * (y 1).val = (k 1).val; rw [e1, hk1]; omega

/-- A resident row (window 2) is its whole array at every point. -/
theorem blk3_2_at (c : Dev nD) (t : Fin cfg3.N) (y k : S1x128.Idx)
    (hk0 : (k 0).val = (y 0).val) (hk1 : (k 1).val = (y 1).val) :
    (iblk3 V c 2 t : Vec Ideal S1x128 .f32) y = (V c main_v85 : S1x128.Idx → EReal) k := by
  obtain ⟨-, -, -, -, e0, e1, -⟩ := index_facts3 t
  unfold iblk3
  rw [View.read_apply]
  show (V c main_v85 : S1x128.Idx → EReal) _ = V c main_v85 k
  refine congrArg (V c main_v85 : S1x128.Idx → EReal) (funext fun a => Fin.ext ?_)
  match a with
  | ⟨0, _⟩ => show win3_2.index t (0 : Fin 2) * 1 + 1 * (y 0).val = (k 0).val; rw [e0, hk0]; omega
  | ⟨1, _⟩ => show win3_2.index t (1 : Fin 2) * 128 + 1 * (y 1).val = (k 1).val; rw [e1, hk1]; omega

/-- A resident row (window 3) is its whole array at every point. -/
theorem blk3_3_at (c : Dev nD) (t : Fin cfg3.N) (y k : S1x128.Idx)
    (hk0 : (k 0).val = (y 0).val) (hk1 : (k 1).val = (y 1).val) :
    (iblk3 V c 3 t : Vec Ideal S1x128 .f32) y = (V c main_v86 : S1x128.Idx → EReal) k := by
  obtain ⟨-, -, -, -, -, -, e0, e1, -⟩ := index_facts3 t
  unfold iblk3
  rw [View.read_apply]
  show (V c main_v86 : S1x128.Idx → EReal) _ = V c main_v86 k
  refine congrArg (V c main_v86 : S1x128.Idx → EReal) (funext fun a => Fin.ext ?_)
  match a with
  | ⟨0, _⟩ => show win3_3.index t (0 : Fin 2) * 1 + 1 * (y 0).val = (k 0).val; rw [e0, hk0]; omega
  | ⟨1, _⟩ => show win3_3.index t (1 : Fin 2) * 128 + 1 * (y 1).val = (k 1).val; rw [e1, hk1]; omega

/-- A resident row (window 4) is its whole array at every point. -/
theorem blk3_4_at (c : Dev nD) (t : Fin cfg3.N) (y k : S1x128.Idx)
    (hk0 : (k 0).val = (y 0).val) (hk1 : (k 1).val = (y 1).val) :
    (iblk3 V c 4 t : Vec Ideal S1x128 .f32) y = (V c main_v87 : S1x128.Idx → EReal) k := by
  obtain ⟨-, -, -, -, -, -, -, -, e0, e1, -⟩ := index_facts3 t
  unfold iblk3
  rw [View.read_apply]
  show (V c main_v87 : S1x128.Idx → EReal) _ = V c main_v87 k
  refine congrArg (V c main_v87 : S1x128.Idx → EReal) (funext fun a => Fin.ext ?_)
  match a with
  | ⟨0, _⟩ => show win3_4.index t (0 : Fin 2) * 1 + 1 * (y 0).val = (k 0).val; rw [e0, hk0]; omega
  | ⟨1, _⟩ => show win3_4.index t (1 : Fin 2) * 128 + 1 * (y 1).val = (k 1).val; rw [e1, hk1]; omega

/-- The resident slope (window 5) is its one-entry array at every point. -/
theorem blk3_5_at (c : Dev nD) (t : Fin cfg3.N) (y k : S1x1.Idx)
    (hk0 : (k 0).val = (y 0).val) (hk1 : (k 1).val = (y 1).val) :
    (iblk3 V c 5 t : Vec Ideal S1x1 .f32) y = (V c main_v88 : S1x1.Idx → EReal) k := by
  obtain ⟨-, -, -, -, -, -, -, -, -, -, e0, e1, -⟩ := index_facts3 t
  unfold iblk3
  rw [View.read_apply]
  show (V c main_v88 : S1x1.Idx → EReal) _ = V c main_v88 k
  refine congrArg (V c main_v88 : S1x1.Idx → EReal) (funext fun a => Fin.ext ?_)
  match a with
  | ⟨0, _⟩ => show win3_5.index t (0 : Fin 2) * 1 + 1 * (y 0).val = (k 0).val; rw [e0, hk0]; omega
  | ⟨1, _⟩ => show win3_5.index t (1 : Fin 2) * 1 + 1 * (y 1).val = (k 1).val; rw [e1, hk1]; omega

/-! ## What a point writes back -/

/-- The scalar law of the blocks' entries at `(p, q)` of point `t` is the whole-array function at any entry `k` in row
    `5000 t + p`, column `q`. -/
theorem bn_blocks_at3 (c : Dev nD) (t : Fin cfg3.N) (p : Fin 5000) (q : Fin 128) (k : S50000x128.Idx)
    (hk0 : (k 0).val = t.val * 5000 + p.val) (hk1 : (k 1).val = q.val) :
    bnPrelu ((iblk3 V c 0 t : Vec Ideal S5000x128 .f32) (ix2 p q))
        ((iblk3 V c 1 t : Vec Ideal S1x128 .f32) (ix2 (0 : Fin 1) q))
        ((iblk3 V c 2 t : Vec Ideal S1x128 .f32) (ix2 (0 : Fin 1) q))
        ((iblk3 V c 3 t : Vec Ideal S1x128 .f32) (ix2 (0 : Fin 1) q))
        ((iblk3 V c 4 t : Vec Ideal S1x128 .f32) (ix2 (0 : Fin 1) q))
        ((iblk3 V c 5 t : Vec Ideal S1x1 .f32) (ix2 (0 : Fin 1) (0 : Fin 1)))
      = bnArr (V c main_v70_0) (V c main_v84) (V c main_v85) (V c main_v86) (V c main_v87) (V c main_v88) k :=
  bnPrelu_congr (blk3_0_at V c t (ix2 p q) k hk0 hk1)
    (blk3_1_at V c t (ix2 (0 : Fin 1) q) (ix2 (0 : Fin 1) (k 1 : Fin 128)) rfl hk1)
    (blk3_2_at V c t (ix2 (0 : Fin 1) q) (ix2 (0 : Fin 1) (k 1 : Fin 128)) rfl hk1)
    (blk3_3_at V c t (ix2 (0 : Fin 1) q) (ix2 (0 : Fin 1) (k 1 : Fin 128)) rfl hk1)
    (blk3_4_at V c t (ix2 (0 : Fin 1) q) (ix2 (0 : Fin 1) (k 1 : Fin 128)) rfl hk1)
    (blk3_5_at V c t (ix2 (0 : Fin 1) (0 : Fin 1)) (ix2 (0 : Fin 1) (0 : Fin 1)) rfl rfl)

/-- WHAT POINT `t` WRITES BACK through window 6 is block `t` of the whole-array function. -/
theorem flushed3_6_eq (c : Dev nD) (t : Fin cfg3.N) :
    (dat3 (F := Ideal) V c).flushed 6 t = ((cfg3.win 6).blk t).view.read (Elt Ideal)
      (bnArr (V c main_v70_0) (V c main_v84) (V c main_v85) (V c main_v86) (V c main_v87) (V c main_v88)) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz, View.ld_unit_zero (S := S1x1) hz]
  obtain ⟨-, -, -, -, -, -, -, -, -, -, -, -, e0, e1⟩ := index_facts3 t
  funext j
  show k3_pay1 (F := Ideal) (iblk3 V c 0 t) (iblk3 V c 1 t) (iblk3 V c 2 t) (iblk3 V c 3 t) (iblk3 V c 4 t) (iblk3 V c 5 t) j
      = bnArr (V c main_v70_0) (V c main_v84) (V c main_v85) (V c main_v86) (V c main_v87) (V c main_v88)
          (((cfg3.win 6).blk t).view.emb j)
  obtain ⟨p, q, rfl⟩ : ∃ (p : Fin 5000) (q : Fin 128), j = ix2 p q := ⟨j 0, j 1, eq_ix2 j⟩
  refine (bn_payload3_at (iblk3 V c 0 t) (iblk3 V c 1 t) (iblk3 V c 2 t) (iblk3 V c 3 t) (iblk3 V c 4 t) (iblk3 V c 5 t) p q).trans ?_
  refine bn_blocks_at3 V c t p q _ ?_ ?_
  · show win3_6.index t (0 : Fin 2) * 5000 + 1 * p.val = t.val * 5000 + p.val; rw [e0]; omega
  · show win3_6.index t (1 : Fin 2) * 128 + 1 * q.val = q.val; rw [e1]; omega

/-! ## The ten blocks tile the rows -/

/-- An entry is in point `t`'s block of window 6 iff each coordinate is in the block's range on its axis. -/
theorem mem_blk3_6 (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v89).slice (win3_6.rect t)).set ↔ _
  rw [View.set_slice_whole, Rect.mem_set_unit]
  exact Iff.rfl

/-- Every entry of the array is in the block of the point that holds its row: row `r` is in block `r / 5000`. -/
theorem rows_cover3_6 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e0, e1⟩ := index_facts3 t
  refine ⟨t, flush3_6 t, ?_⟩
  rw [mem_blk3_6]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 128 ≤ (i 1).val ∧ (i 1).val < win3_6.index t (1 : Fin 2) * 128 + 128
    rw [e1]; omega

/-! ## The array after the region -/

/-- THE OUTPUT after the region: the scalar law, entry by entry, of the arrays the region found. -/
theorem final3_6 (c : Dev nD) :
    (dat3 (F := Ideal) V c).arrAt 6 cfg3.N = fun i : S50000x128.Idx =>
      bnPrelu ((V c main_v70_0 : S50000x128.Idx → EReal) i)
        ((V c main_v84 : S1x128.Idx → EReal) (ix2 (0 : Fin 1) (i 1 : Fin 128)))
        ((V c main_v85 : S1x128.Idx → EReal) (ix2 (0 : Fin 1) (i 1 : Fin 128)))
        ((V c main_v86 : S1x128.Idx → EReal) (ix2 (0 : Fin 1) (i 1 : Fin 128)))
        ((V c main_v87 : S1x128.Idx → EReal) (ix2 (0 : Fin 1) (i 1 : Fin 128)))
        ((V c main_v88 : S1x1.Idx → EReal) (ix2 (0 : Fin 1) (0 : Fin 1))) :=
  (dat3 (F := Ideal) V c).arrAt_eq_of_cover 6
    (bnArr (V c main_v70_0) (V c main_v84) (V c main_v85) (V c main_v86) (V c main_v87) (V c main_v88))
    (fun t _ => flushed3_6_eq V c t) rows_cover3_6

end Region3

end Cert.KernelIdeal.BnValue

end
-- ==== Proof.HostFinite.lean ====
/-
  Finiteness through the host operations, at the exact (extended-real) reading of a float.

  Each lemma says: if every entry of every float operand is a finite extended real, so is every
  entry of the result.  Index operands (gather and scatter positions) are arbitrary: whichever
  entries they select, the selected entries are finite, and a sum of finitely many finite values is
  finite.  The only operations that can leave the finite values are the quotient and the reciprocal
  square root, so those come with the side conditions that keep them inside: a nonzero real
  divisor, and a positive argument (a value clamped below by one, or a nonnegative value plus a
  positive real).
-/
import proofs.«147171_j25031069401693_2_alg».proof.Proof.ERealFacts
import Idealize.ShloMosaic.PureOps.Ideal.Laws

open Idealize.ShloMosaic

namespace Cert.Bridge

/-! ### The float literals the programs spell -/

/-- The pattern of `+0.0` denotes `0`. -/
theorem ofBits_zero : Ideal.ofBits .f32 0x00000000#32 = 0 := Ideal.ofBits_zero_f32

/-- The pattern of `1.0` denotes `1`. -/
theorem ofBits_one : Ideal.ofBits .f32 0x3F800000#32 = 1 := by
  simp [Ideal.ofBits, Ideal.ieee, -EReal.coe_mul]; norm_num

/-- The pattern of `50000.0` denotes the real `50000`: `12800000 · 2⁻⁸`. -/
theorem ofBits_50000 : Ideal.ofBits .f32 0x47435000#32 = ((50000 : ℝ) : EReal) := by
  simp [Ideal.ofBits, Ideal.ieee, -EReal.coe_mul]; norm_num

/-- The pattern of the batch-norm epsilon denotes a positive real: `10995116 · 2⁻⁴⁰`. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem isReal_ofBits_zero : IsReal (Ideal.ofBits .f32 0x00000000#32) := by
  rw [ofBits_zero]; exact isReal_zero

theorem isReal_ofBits_one : IsReal (Ideal.ofBits .f32 0x3F800000#32) := by
  rw [ofBits_one]; exact isReal_one

theorem isReal_ofBits_50000 : IsReal (Ideal.ofBits .f32 0x47435000#32) := by
  rw [ofBits_50000]; exact isReal_coe _

theorem isReal_ofBits_eps : IsReal (Ideal.ofBits .f32 0x3727C5AC#32) := by
  obtain ⟨e, _, he⟩ := ofBits_eps
  rw [he]; exact isReal_coe _

/-! ### Elementwise operations -/

section Elementwise
variable {s : Shape} {φ : FTy}

theorem isReal_constant (s : Shape) (φ : FTy) (b : BitVec φ.bits) (hb : IsReal (Ideal.ofBits φ b)) :
    ∀ i, IsReal (constant (F := Ideal) s φ b i) := fun _ => hb

theorem isReal_addf (x y : FVec Ideal s φ) (hx : ∀ i, IsReal (x i)) (hy : ∀ i, IsReal (y i)) :
    ∀ i, IsReal (addf x y i) := fun i => (hx i).add (hy i)

theorem isReal_subf (x y : FVec Ideal s φ) (hx : ∀ i, IsReal (x i)) (hy : ∀ i, IsReal (y i)) :
    ∀ i, IsReal (subf x y i) := fun i => (hx i).sub (hy i)

theorem isReal_mulf (x y : FVec Ideal s φ) (hx : ∀ i, IsReal (x i)) (hy : ∀ i, IsReal (y i)) :
    ∀ i, IsReal (mulf x y i) := fun i => (hx i).mul (hy i)

theorem isReal_maximumf (x y : FVec Ideal s φ) (hx : ∀ i, IsReal (x i)) (hy : ∀ i, IsReal (y i)) :
    ∀ i, IsReal (maximumf x y i) := fun i => (hx i).max (hy i)

/-- A lane-wise choice between two finite vectors is finite, whatever the mask. -/
theorem isReal_select (c : IVec s 1) (a b : s.Idx → EReal) (ha : ∀ i, IsReal (a i))
    (hb : ∀ i, IsReal (b i)) : ∀ i, IsReal (select c a b i) := by
  intro i
  unfold select Scalar.select
  split
  · exact ha i
  · exact hb i

/-- A square of a finite value is nonnegative. -/
theorem nonneg_mulf_self (x : FVec Ideal s φ) (hx : ∀ i, IsReal (x i)) :
    ∀ i, (0 : EReal) ≤ mulf x x i := by
  intro i
  show (0 : EReal) ≤ x i * x i
  obtain ⟨r, hr⟩ := hx i
  rw [hr, ← EReal.coe_mul]
  exact_mod_cast mul_self_nonneg r

/-- The host quotient by a vector whose every entry is one nonzero real. -/
theorem isReal_hostDivf (x y : FVec Ideal s φ) (hx : ∀ i, IsReal (x i)) {c : ℝ} (hc : c ≠ 0)
    (hy : ∀ i, y i = (c : EReal)) : ∀ i, IsReal (Host.divf x y i) := by
  intro i
  show IsReal (Ideal.div (x i) (y i))
  rw [hy i]
  exact (hx i).div_coe hc

/-- The host quotient of a nonnegative finite value by a positive real is nonnegative. -/
theorem nonneg_hostDivf (x y : FVec Ideal s φ) (hx : ∀ i, IsReal (x i)) (h0 : ∀ i, (0 : EReal) ≤ x i)
    {c : ℝ} (hc : 0 < c) (hy : ∀ i, y i = (c : EReal)) : ∀ i, (0 : EReal) ≤ Host.divf x y i := by
  intro i
  show (0 : EReal) ≤ Ideal.div (x i) (y i)
  obtain ⟨r, hr⟩ := hx i
  have hr0 : (0 : ℝ) ≤ r := by
    have := h0 i
    rw [hr] at this
    exact_mod_cast this
  rw [hy i, Ideal.div_coe hc.ne', hr, ← EReal.coe_mul]
  exact_mod_cast mul_nonneg hr0 (by positivity)

/-- The host reciprocal square root of a positive finite value. -/
theorem isReal_hostRsqrt_of_pos (x : FVec Ideal s φ) (hx : ∀ i, IsReal (x i))
    (hpos : ∀ i, (0 : EReal) < x i) : ∀ i, IsReal (Host.rsqrt x i) := by
  intro i
  show IsReal (Ideal.rsqrt (x i))
  obtain ⟨r, hr⟩ := hx i
  have hr0 : (0 : ℝ) < r := by
    have := hpos i
    rw [hr] at this
    exact_mod_cast this
  rw [hr]
  exact isReal_rsqrt_of_pos hr0

/-- The host reciprocal square root of a finite vector clamped below by a vector of ones. -/
theorem isReal_hostRsqrt_max_one (x y : FVec Ideal s φ) (hx : ∀ i, IsReal (x i))
    (hy : ∀ i, y i = (1 : EReal)) : ∀ i, IsReal (Host.rsqrt (maximumf x y) i) := by
  intro i
  show IsReal (Ideal.rsqrt (max (x i) (y i)))
  rw [hy i]
  exact isReal_rsqrt_max_one (hx i)

/-- The host reciprocal square root of a nonnegative finite vector plus a positive real. -/
theorem isReal_hostRsqrt_add_pos (v y : FVec Ideal s φ) (hv : ∀ i, IsReal (v i))
    (h0 : ∀ i, (0 : EReal) ≤ v i) {e : ℝ} (he : 0 < e) (hy : ∀ i, y i = (e : EReal)) :
    ∀ i, IsReal (Host.rsqrt (addf v y) i) := by
  intro i
  show IsReal (Ideal.rsqrt (v i + y i))
  rw [hy i]
  exact isReal_rsqrt_add_pos (hv i) (h0 i) he

end Elementwise

/-! ### Layout operations: every entry of the result is an entry of the operand -/

theorem isReal_broadcastInDim {s t : Shape} (dims : Fin s.rank → Fin t.rank)
    (h : s.BroadcastsInDim t dims) (x : s.Idx → EReal) (hx : ∀ i, IsReal (x i)) :
    ∀ j, IsReal (broadcastInDim t dims h x j) := fun _ => hx _

theorem isReal_gather {s t si : Shape} {w : Nat} (d : GatherDims s si t) (x : s.Idx → EReal)
    (idx : IVec si w) (hx : ∀ i, IsReal (x i)) : ∀ j, IsReal (Host.gather d x idx j) :=
  fun _ => hx _

/-! ### Sums: scatter with an add body, contraction, reduction -/

/-- An accumulating scatter: each entry is the operand's plus a finite sum of update entries. -/
theorem isReal_scatterAdd {s si su : Shape} {w : Nat} {φ : FTy} (d : ScatterDims s si su)
    (x : FVec Ideal s φ) (idx : IVec si w) (upd : FVec Ideal su φ) (hx : ∀ i, IsReal (x i))
    (hu : ∀ j, IsReal (upd j)) : ∀ i, IsReal (Host.scatterAdd d x idx upd i) := by
  intro i
  simp only [Host.scatterAdd, Ideal.hostScatterAdd_def, Ideal.hostScatterAdd]
  exact (hx i).add (isReal_sum _ _ fun j _ => hu j)

/-- A contraction: each entry is zero plus a finite sum of products. -/
theorem isReal_dotGeneral {sl sr so : Shape} {φ₁ φ₂ : FTy} (d : DotDims sl sr so)
    (prec : Option ContractPrecision) (lhs : FVec Ideal sl φ₁) (rhs : FVec Ideal sr φ₂)
    (hl : ∀ i, IsReal (lhs i)) (hr : ∀ i, IsReal (rhs i)) :
    ∀ j, IsReal (Host.dotGeneral d prec lhs rhs j) := by
  intro j
  simp only [Host.dotGeneral, Ideal.dotGeneral_def, Ideal.matmul]
  exact isReal_zero.add (isReal_sum _ _ fun k _ => (hl _).mul (hr _))

/-- A sum over axes: each entry is the initial value plus a finite sum of operand entries. -/
theorem isReal_reduceAdd {s t u : Shape} {axes : List (Fin s.rank)} {φ : FTy} (x : FVec Ideal s φ)
    (init : u.Idx → Ideal φ) (h : s.ReducesTo axes t) (hu : 0 < u.numel) (hx : ∀ i, IsReal (x i))
    (hinit : ∀ i, IsReal (init i)) : ∀ j, IsReal (Host.reduceAdd x init h hu j) := by
  intro j
  simp only [Host.reduceAdd, Ideal.hostReduceAdd_def, Ideal.hostReduceAdd]
  exact (hinit _).add (isReal_sum _ _ fun i _ => hx i)

/-- A sum over axes of nonnegative entries from a nonnegative initial value is nonnegative. -/
theorem nonneg_reduceAdd {s t u : Shape} {axes : List (Fin s.rank)} {φ : FTy} (x : FVec Ideal s φ)
    (init : u.Idx → Ideal φ) (h : s.ReducesTo axes t) (hu : 0 < u.numel)
    (hx : ∀ i, (0 : EReal) ≤ x i) (hinit : ∀ i, (0 : EReal) ≤ init i) :
    ∀ j, (0 : EReal) ≤ Host.reduceAdd x init h hu j := by
  intro j
  simp only [Host.reduceAdd, Ideal.hostReduceAdd_def, Ideal.hostReduceAdd]
  exact add_nonneg (hinit _) (Finset.sum_nonneg fun i _ => hx i)

end Cert.Bridge
-- ==== Proof.RefFiniteConsts.lean ====
/-
  The constant vectors of the reference program, and three composite facts about the
  batch-normalisation denominator.

  The reference spells four float literals: 0, 1, 50000 and a positive epsilon.  Every vector it
  builds from them by broadcasting is constant; the facts below record, for each such vector, what
  the later stages need: that its entries are finite, that they are all 1, or that they are all one
  positive real.

  The composite facts: for a finite vector d (the deviations from the mean),
  (∑ d²)/c is finite and nonnegative for a positive real c — a sum of squares of reals divided by
  a positive real — hence (∑ d²)/c + e is a positive real for a positive real e, and its reciprocal
  square root is finite.
-/
import proofs.«147171_j25031069401693_2_alg».proof.Proof.RefReadP
import proofs.«147171_j25031069401693_2_alg».proof.Proof.HostFinite

open Idealize.ShloMosaic

namespace Cert.Bridge

/-! ### Composite facts -/

/-- The host quotient by a vector whose every entry is one positive real. -/
theorem isReal_hostDivf_pos {s : Shape} {φ : FTy} (x y : FVec Ideal s φ) (hx : ∀ i, IsReal (x i))
    (hy : ∃ c : ℝ, 0 < c ∧ ∀ i, y i = (c : EReal)) : ∀ i, IsReal (Host.divf x y i) := by
  obtain ⟨c, hc, hy⟩ := hy
  exact isReal_hostDivf x y hx hc.ne' hy

/-- The mean of squares of a finite vector (from a finite nonnegative initial value, by a positive
    real count) is nonnegative. -/
theorem nonneg_variance {s t u : Shape} {axes : List (Fin s.rank)} {φ : FTy} (d : FVec Ideal s φ)
    (init : u.Idx → Ideal φ) (h : s.ReducesTo axes t) (hu : 0 < u.numel) (y : FVec Ideal t φ)
    (hd : ∀ i, IsReal (d i)) (hinit : ∀ i, IsReal (init i)) (hinit0 : ∀ i, (0 : EReal) ≤ init i)
    (hy : ∃ c : ℝ, 0 < c ∧ ∀ i, y i = (c : EReal)) :
    ∀ j, (0 : EReal) ≤ Host.divf (Host.reduceAdd (mulf d d) init h hu) y j := by
  obtain ⟨c, hc, hy⟩ := hy
  exact nonneg_hostDivf _ _ (isReal_reduceAdd _ _ h hu (isReal_mulf _ _ hd hd) hinit)
    (nonneg_reduceAdd _ _ h hu (nonneg_mulf_self _ hd) hinit0) hc hy

/-- The reciprocal square root of (mean of squares + a positive real) is finite. -/
theorem isReal_hostRsqrt_variance {s t u : Shape} {axes : List (Fin s.rank)} {φ : FTy}
    (d : FVec Ideal s φ) (init : u.Idx → Ideal φ) (h : s.ReducesTo axes t) (hu : 0 < u.numel)
    (y z : FVec Ideal t φ) (hd : ∀ i, IsReal (d i)) (hinit : ∀ i, IsReal (init i))
    (hinit0 : ∀ i, (0 : EReal) ≤ init i) (hy : ∃ c : ℝ, 0 < c ∧ ∀ i, y i = (c : EReal))
    (hz : ∃ e : ℝ, 0 < e ∧ ∀ i, z i = (e : EReal)) :
    ∀ j, IsReal (Host.rsqrt (addf (Host.divf (Host.reduceAdd (mulf d d) init h hu) y) z) j) := by
  obtain ⟨e, he, hz⟩ := hz
  have h0 := nonneg_variance d init h hu y hd hinit hinit0 hy
  obtain ⟨c, hc, hy⟩ := hy
  exact isReal_hostRsqrt_add_pos _ _
    (isReal_hostDivf _ _ (isReal_reduceAdd _ _ h hu (isReal_mulf _ _ hd hd) hinit) hc.ne' hy)
    h0 he hz

end Cert.Bridge

namespace Cert.ReferenceIdeal.Finite

open Cert.ReferenceIdeal Cert.ReferenceIdeal.Gen Cert.ReferenceIdeal.ReadP Cert.Bridge
open Idealize.ShloMosaic Idealize.ShloMosaic.TcCoe Idealize.SL.Sem Idealize.ShloMosaic.StableHlo

/-! ### Vectors of ones -/

/-- The updates of the degree count: a vector of ones. -/
theorem real_v0 : ∀ i, IsReal (val_main_v0 (F := Ideal) i) := by
  unfold val_main_v0 val_main_cst
  exact isReal_broadcastInDim _ _ _ (isReal_constant _ _ _ isReal_ofBits_one)

/-- The lower clamp of the source degree: every entry is 1. -/
theorem v9_eq (i : _) : val_main_v9 (F := Ideal) i = (1 : EReal) := by
  rw [val_main_v9_apply, val_main_cst_3_apply]
  exact ofBits_one

/-- The lower clamp of the target degree: every entry is 1. -/
theorem v15_eq (i : _) : val_main_v15 (F := Ideal) i = (1 : EReal) := by
  rw [val_main_v15_apply, val_main_cst_6_apply]
  exact ofBits_one

/-! ### Vectors of zeros: the bases of the accumulating scatters and the second branch of the norms -/

theorem real_v1 : ∀ i, IsReal (val_main_v1 (F := Ideal) i) := by
  unfold val_main_v1 val_main_cst_0
  exact isReal_broadcastInDim _ _ _ (isReal_constant _ _ _ isReal_ofBits_zero)

theorem real_v4 : ∀ i, IsReal (val_main_v4 (F := Ideal) i) := by
  unfold val_main_v4 val_main_cst_1
  exact isReal_broadcastInDim _ _ _ (isReal_constant _ _ _ isReal_ofBits_zero)

theorem real_v29 : ∀ i, IsReal (val_main_v29 (F := Ideal) i) := by
  unfold val_main_v29 val_main_cst_9
  exact isReal_broadcastInDim _ _ _ (isReal_constant _ _ _ isReal_ofBits_zero)

theorem real_v87 : ∀ i, IsReal (val_main_v87 (F := Ideal) i) := by
  unfold val_main_v87 val_main_cst_20
  exact isReal_broadcastInDim _ _ _ (isReal_constant _ _ _ isReal_ofBits_zero)

theorem real_call0_v1 : ∀ i, IsReal (val_main_call0_v1 (F := Ideal) i) := by
  unfold val_main_call0_v1 val_main_call0_v0 val_main_cst_4
  exact isReal_broadcastInDim _ _ _ (isReal_constant _ _ _ isReal_ofBits_zero)

theorem real_call1_v1 : ∀ i, IsReal (val_main_call1_v1 (F := Ideal) i) := by
  unfold val_main_call1_v1 val_main_call1_v0 val_main_cst_7
  exact isReal_broadcastInDim _ _ _ (isReal_constant _ _ _ isReal_ofBits_zero)

/-! ### The initial values of the four sums: zero, hence finite and nonnegative -/

theorem real_cst_11 : ∀ i, IsReal (val_main_cst_11 (F := Ideal) i) := by
  unfold val_main_cst_11
  exact isReal_constant _ _ _ isReal_ofBits_zero

theorem real_cst_13 : ∀ i, IsReal (val_main_cst_13 (F := Ideal) i) := by
  unfold val_main_cst_13
  exact isReal_constant _ _ _ isReal_ofBits_zero

theorem real_cst_22 : ∀ i, IsReal (val_main_cst_22 (F := Ideal) i) := by
  unfold val_main_cst_22
  exact isReal_constant _ _ _ isReal_ofBits_zero

theorem real_cst_24 : ∀ i, IsReal (val_main_cst_24 (F := Ideal) i) := by
  unfold val_main_cst_24
  exact isReal_constant _ _ _ isReal_ofBits_zero

theorem nonneg_cst_13 : ∀ i, (0 : EReal) ≤ (val_main_cst_13 (F := Ideal) i : EReal) := by
  intro i
  rw [val_main_cst_13_apply]
  exact le_of_eq ofBits_zero.symm

theorem nonneg_cst_24 : ∀ i, (0 : EReal) ≤ (val_main_cst_24 (F := Ideal) i : EReal) := by
  intro i
  rw [val_main_cst_24_apply]
  exact le_of_eq ofBits_zero.symm

/-! ### The divisors: every entry is the positive real 50000 -/

theorem v45_pos : ∃ c : ℝ, 0 < c ∧ ∀ i, val_main_v45 (F := Ideal) i = (c : EReal) := by
  refine ⟨50000, by norm_num, fun i => ?_⟩
  rw [val_main_v45_apply, val_main_cst_12_apply]
  exact ofBits_50000

theorem v52_pos : ∃ c : ℝ, 0 < c ∧ ∀ i, val_main_v52 (F := Ideal) i = (c : EReal) := by
  refine ⟨50000, by norm_num, fun i => ?_⟩
  rw [val_main_v52_apply, val_main_cst_14_apply]
  exact ofBits_50000

theorem v103_pos : ∃ c : ℝ, 0 < c ∧ ∀ i, val_main_v103 (F := Ideal) i = (c : EReal) := by
  refine ⟨50000, by norm_num, fun i => ?_⟩
  rw [val_main_v103_apply, val_main_cst_23_apply]
  exact ofBits_50000

theorem v110_pos : ∃ c : ℝ, 0 < c ∧ ∀ i, val_main_v110 (F := Ideal) i = (c : EReal) := by
  refine ⟨50000, by norm_num, fun i => ?_⟩
  rw [val_main_v110_apply, val_main_cst_25_apply]
  exact ofBits_50000

/-! ### The epsilons: every entry is one positive real -/

theorem v57_pos : ∃ e : ℝ, 0 < e ∧ ∀ i, val_main_v57 (F := Ideal) i = (e : EReal) := by
  obtain ⟨e, he, hE⟩ := ofBits_eps
  refine ⟨e, he, fun i => ?_⟩
  rw [val_main_v57_apply, val_main_cst_15_apply]
  exact hE

theorem v115_pos : ∃ e : ℝ, 0 < e ∧ ∀ i, val_main_v115 (F := Ideal) i = (e : EReal) := by
  obtain ⟨e, he, hE⟩ := ofBits_eps
  refine ⟨e, he, fun i => ?_⟩
  rw [val_main_v115_apply, val_main_cst_26_apply]
  exact hE

end Cert.ReferenceIdeal.Finite
-- ==== Proof.RefFiniteStages.lean ====
/-
  The finiteness of every float stage of the reference program, one operation at a time, in program
  order.  Each lemma unfolds the definition of one stage and applies the general fact that its operation
  keeps finite values finite to the lemmas of its operands; a reciprocal square root is met together
  with the clamp, or with the mean of squares plus a positive constant, that keeps its argument positive.
  The index arguments are arbitrary.  The hypotheses are those of the arguments the stage depends on,
  taken layer by layer.
-/
import proofs.«147171_j25031069401693_2_alg».proof.Proof.RefFiniteConsts

namespace Cert.ReferenceIdeal.Finite

open Cert.ReferenceIdeal Cert.ReferenceIdeal.Gen Cert.ReferenceIdeal.ReadP Cert.Bridge
open Idealize.ShloMosaic Idealize.ShloMosaic.TcCoe Idealize.SL.Sem Idealize.ShloMosaic.StableHlo

variable {x0 : (⟨S50000x128, .f32⟩ : BufTy).Contents (Elt Ideal)}
  {x1 x2 : (⟨S600000, .i32⟩ : BufTy).Contents (Elt Ideal)}
  {x4 : (⟨S128x128, .f32⟩ : BufTy).Contents (Elt Ideal)} {x5 : (⟨S128, .f32⟩ : BufTy).Contents (Elt Ideal)} {x6 : (⟨S_, .f32⟩ : BufTy).Contents (Elt Ideal)}
  {x7 x8 : (⟨S128, .f32⟩ : BufTy).Contents (Elt Ideal)} {x9 : (⟨S_, .f32⟩ : BufTy).Contents (Elt Ideal)}
  {x10 : (⟨S128x128, .f32⟩ : BufTy).Contents (Elt Ideal)} {x11 : (⟨S128, .f32⟩ : BufTy).Contents (Elt Ideal)} {x12 : (⟨S_, .f32⟩ : BufTy).Contents (Elt Ideal)}
  {x13 x14 : (⟨S128, .f32⟩ : BufTy).Contents (Elt Ideal)} {x15 : (⟨S_, .f32⟩ : BufTy).Contents (Elt Ideal)}

theorem real_v3 : ∀ i, IsReal (val_main_v3 (F := Ideal) x1 i) := by
  unfold val_main_v3
  exact isReal_scatterAdd _ _ _ _ real_v1 real_v0

theorem real_v6 : ∀ i, IsReal (val_main_v6 (F := Ideal) x2 i) := by
  unfold val_main_v6
  exact isReal_scatterAdd _ _ _ _ real_v4 real_v0

theorem real_v11 : ∀ i, IsReal (val_main_v11 (F := Ideal) x1 i) := by
  unfold val_main_v11 val_main_v10
  exact isReal_hostRsqrt_max_one _ _ real_v3 v9_eq

theorem real_v17 : ∀ i, IsReal (val_main_v17 (F := Ideal) x2 i) := by
  unfold val_main_v17 val_main_v16
  exact isReal_hostRsqrt_max_one _ _ real_v6 v15_eq

theorem real_v12 : ∀ i, IsReal (val_main_v12 (F := Ideal) x1 i) := by
  unfold val_main_v12
  exact isReal_select _ _ _ real_v11 real_call0_v1

theorem real_v18 : ∀ i, IsReal (val_main_v18 (F := Ideal) x2 i) := by
  unfold val_main_v18
  exact isReal_select _ _ _ real_v17 real_call1_v1

theorem real_v19 : ∀ i, IsReal (val_main_v19 (F := Ideal) x1 i) := by
  unfold val_main_v19
  exact isReal_broadcastInDim _ _ _ real_v12

theorem real_v20 : ∀ i, IsReal (val_main_v20 (F := Ideal) x1 i) := by
  unfold val_main_v20
  exact isReal_broadcastInDim _ _ _ real_v19

theorem real_v32 : ∀ i, IsReal (val_main_v32 (F := Ideal) x2 i) := by
  unfold val_main_v32
  exact isReal_broadcastInDim _ _ _ real_v18

theorem real_v33 : ∀ i, IsReal (val_main_v33 (F := Ideal) x2 i) := by
  unfold val_main_v33
  exact isReal_broadcastInDim _ _ _ real_v32

theorem real_v77 : ∀ i, IsReal (val_main_v77 (F := Ideal) x1 i) := by
  unfold val_main_v77
  exact isReal_broadcastInDim _ _ _ real_v12

theorem real_v78 : ∀ i, IsReal (val_main_v78 (F := Ideal) x1 i) := by
  unfold val_main_v78
  exact isReal_broadcastInDim _ _ _ real_v77

theorem real_v90 : ∀ i, IsReal (val_main_v90 (F := Ideal) x2 i) := by
  unfold val_main_v90
  exact isReal_broadcastInDim _ _ _ real_v18

theorem real_v91 : ∀ i, IsReal (val_main_v91 (F := Ideal) x2 i) := by
  unfold val_main_v91
  exact isReal_broadcastInDim _ _ _ real_v90

section HypB
variable (hx0 : ∀ i, IsReal (x0 i)) (hx4 : ∀ i, IsReal (x4 i)) (hx5 : ∀ i, IsReal (x5 i)) (hx6 : ∀ i, IsReal (x6 i))
include hx0 hx4 hx5 hx6

theorem real_v21 : ∀ i, IsReal (val_main_v21 (F := Ideal) x0 x1 i) := by
  unfold val_main_v21
  exact isReal_mulf _ _ hx0 real_v20

theorem real_v28 : ∀ i, IsReal (val_main_v28 (F := Ideal) x0 x1 i) := by
  unfold val_main_v28
  exact isReal_gather _ _ _ (real_v21 hx0 hx4 hx5 hx6)

theorem real_v31 : ∀ i, IsReal (val_main_v31 (F := Ideal) x0 x1 x2 i) := by
  unfold val_main_v31
  exact isReal_scatterAdd _ _ _ _ real_v29 (real_v28 hx0 hx4 hx5 hx6)

theorem real_v34 : ∀ i, IsReal (val_main_v34 (F := Ideal) x0 x1 x2 i) := by
  unfold val_main_v34
  exact isReal_mulf _ _ (real_v31 hx0 hx4 hx5 hx6) real_v33

theorem real_v35 : ∀ i, IsReal (val_main_v35 (F := Ideal) x0 x1 x2 x4 i) := by
  unfold val_main_v35
  exact isReal_dotGeneral _ _ _ _ (real_v34 hx0 hx4 hx5 hx6) hx4

theorem real_v36 : ∀ i, IsReal (val_main_v36 (F := Ideal) x5 i) := by
  unfold val_main_v36
  exact isReal_broadcastInDim _ _ _ hx5

theorem real_v37 : ∀ i, IsReal (val_main_v37 (F := Ideal) x5 i) := by
  unfold val_main_v37
  exact isReal_broadcastInDim _ _ _ (real_v36 hx0 hx4 hx5 hx6)

theorem real_v38 : ∀ i, IsReal (val_main_v38 (F := Ideal) x0 x1 x2 x4 x5 i) := by
  unfold val_main_v38
  exact isReal_addf _ _ (real_v35 hx0 hx4 hx5 hx6) (real_v37 hx0 hx4 hx5 hx6)

theorem real_v41 : ∀ i, IsReal (val_main_v41 (F := Ideal) x6 i) := by
  unfold val_main_v41
  exact isReal_broadcastInDim _ _ _ hx6

theorem real_v42 : ∀ i, IsReal (val_main_v42 (F := Ideal) x0 x1 x2 x4 x5 x6 i) := by
  unfold val_main_v42
  exact isReal_mulf _ _ (real_v41 hx0 hx4 hx5 hx6) (real_v38 hx0 hx4 hx5 hx6)

theorem real_v43 : ∀ i, IsReal (val_main_v43 (F := Ideal) x0 x1 x2 x4 x5 x6 i) := by
  unfold val_main_v43
  exact isReal_select _ _ _ (real_v38 hx0 hx4 hx5 hx6) (real_v42 hx0 hx4 hx5 hx6)

theorem real_v44 : ∀ i, IsReal (val_main_v44 (F := Ideal) x0 x1 x2 x4 x5 x6 i) := by
  unfold val_main_v44
  exact isReal_reduceAdd _ _ _ _ (real_v43 hx0 hx4 hx5 hx6) real_cst_11

theorem real_v46 : ∀ i, IsReal (val_main_v46 (F := Ideal) x0 x1 x2 x4 x5 x6 i) := by
  unfold val_main_v46
  exact isReal_hostDivf_pos _ _ (real_v44 hx0 hx4 hx5 hx6) v45_pos

theorem real_v47 : ∀ i, IsReal (val_main_v47 (F := Ideal) x0 x1 x2 x4 x5 x6 i) := by
  unfold val_main_v47
  exact isReal_broadcastInDim _ _ _ (real_v46 hx0 hx4 hx5 hx6)

theorem real_v48 : ∀ i, IsReal (val_main_v48 (F := Ideal) x0 x1 x2 x4 x5 x6 i) := by
  unfold val_main_v48
  exact isReal_broadcastInDim _ _ _ (real_v47 hx0 hx4 hx5 hx6)

theorem real_v49 : ∀ i, IsReal (val_main_v49 (F := Ideal) x0 x1 x2 x4 x5 x6 i) := by
  unfold val_main_v49
  exact isReal_subf _ _ (real_v43 hx0 hx4 hx5 hx6) (real_v48 hx0 hx4 hx5 hx6)

theorem real_v50 : ∀ i, IsReal (val_main_v50 (F := Ideal) x0 x1 x2 x4 x5 x6 i) := by
  unfold val_main_v50
  exact isReal_mulf _ _ (real_v49 hx0 hx4 hx5 hx6) (real_v49 hx0 hx4 hx5 hx6)

theorem real_v51 : ∀ i, IsReal (val_main_v51 (F := Ideal) x0 x1 x2 x4 x5 x6 i) := by
  unfold val_main_v51
  exact isReal_reduceAdd _ _ _ _ (real_v50 hx0 hx4 hx5 hx6) real_cst_13

theorem real_v53 : ∀ i, IsReal (val_main_v53 (F := Ideal) x0 x1 x2 x4 x5 x6 i) := by
  unfold val_main_v53
  exact isReal_hostDivf_pos _ _ (real_v51 hx0 hx4 hx5 hx6) v52_pos

theorem real_v54 : ∀ i, IsReal (val_main_v54 (F := Ideal) x0 x1 x2 x4 x5 x6 i) := by
  unfold val_main_v54
  exact isReal_broadcastInDim _ _ _ (real_v46 hx0 hx4 hx5 hx6)

theorem real_v55 : ∀ i, IsReal (val_main_v55 (F := Ideal) x0 x1 x2 x4 x5 x6 i) := by
  unfold val_main_v55
  exact isReal_broadcastInDim _ _ _ (real_v54 hx0 hx4 hx5 hx6)

theorem real_v56 : ∀ i, IsReal (val_main_v56 (F := Ideal) x0 x1 x2 x4 x5 x6 i) := by
  unfold val_main_v56
  exact isReal_subf _ _ (real_v43 hx0 hx4 hx5 hx6) (real_v55 hx0 hx4 hx5 hx6)

theorem real_v59 : ∀ i, IsReal (val_main_v59 (F := Ideal) x0 x1 x2 x4 x5 x6 i) := by
  unfold val_main_v59 val_main_v58 val_main_v53 val_main_v51 val_main_v50
  exact isReal_hostRsqrt_variance _ _ _ _ _ _ (real_v49 hx0 hx4 hx5 hx6) real_cst_13 nonneg_cst_13 v52_pos v57_pos

theorem real_v60 : ∀ i, IsReal (val_main_v60 (F := Ideal) x0 x1 x2 x4 x5 x6 i) := by
  unfold val_main_v60
  exact isReal_broadcastInDim _ _ _ (real_v59 hx0 hx4 hx5 hx6)

theorem real_v61 : ∀ i, IsReal (val_main_v61 (F := Ideal) x0 x1 x2 x4 x5 x6 i) := by
  unfold val_main_v61
  exact isReal_broadcastInDim _ _ _ (real_v60 hx0 hx4 hx5 hx6)

theorem real_v62 : ∀ i, IsReal (val_main_v62 (F := Ideal) x0 x1 x2 x4 x5 x6 i) := by
  unfold val_main_v62
  exact isReal_mulf _ _ (real_v56 hx0 hx4 hx5 hx6) (real_v61 hx0 hx4 hx5 hx6)

section HypC
variable (hx7 : ∀ i, IsReal (x7 i)) (hx8 : ∀ i, IsReal (x8 i)) (hx9 : ∀ i, IsReal (x9 i))
include hx7 hx8 hx9

theorem real_v63 : ∀ i, IsReal (val_main_v63 (F := Ideal) x7 i) := by
  unfold val_main_v63
  exact isReal_broadcastInDim _ _ _ hx7

theorem real_v64 : ∀ i, IsReal (val_main_v64 (F := Ideal) x7 i) := by
  unfold val_main_v64
  exact isReal_broadcastInDim _ _ _ (real_v63 hx0 hx4 hx5 hx6 hx7 hx8 hx9)

theorem real_v65 : ∀ i, IsReal (val_main_v65 (F := Ideal) x0 x1 x2 x4 x5 x6 x7 i) := by
  unfold val_main_v65
  exact isReal_mulf _ _ (real_v62 hx0 hx4 hx5 hx6) (real_v64 hx0 hx4 hx5 hx6 hx7 hx8 hx9)

theorem real_v66 : ∀ i, IsReal (val_main_v66 (F := Ideal) x8 i) := by
  unfold val_main_v66
  exact isReal_broadcastInDim _ _ _ hx8

theorem real_v67 : ∀ i, IsReal (val_main_v67 (F := Ideal) x8 i) := by
  unfold val_main_v67
  exact isReal_broadcastInDim _ _ _ (real_v66 hx0 hx4 hx5 hx6 hx7 hx8 hx9)

theorem real_v68 : ∀ i, IsReal (val_main_v68 (F := Ideal) x0 x1 x2 x4 x5 x6 x7 x8 i) := by
  unfold val_main_v68
  exact isReal_addf _ _ (real_v65 hx0 hx4 hx5 hx6 hx7 hx8 hx9) (real_v67 hx0 hx4 hx5 hx6 hx7 hx8 hx9)

theorem real_v71 : ∀ i, IsReal (val_main_v71 (F := Ideal) x9 i) := by
  unfold val_main_v71
  exact isReal_broadcastInDim _ _ _ hx9

theorem real_v72 : ∀ i, IsReal (val_main_v72 (F := Ideal) x0 x1 x2 x4 x5 x6 x7 x8 x9 i) := by
  unfold val_main_v72
  exact isReal_mulf _ _ (real_v71 hx0 hx4 hx5 hx6 hx7 hx8 hx9) (real_v68 hx0 hx4 hx5 hx6 hx7 hx8 hx9)

theorem real_v73 : ∀ i, IsReal (val_main_v73 (F := Ideal) x0 x1 x2 x4 x5 x6 x7 x8 x9 i) := by
  unfold val_main_v73
  exact isReal_select _ _ _ (real_v68 hx0 hx4 hx5 hx6 hx7 hx8 hx9) (real_v72 hx0 hx4 hx5 hx6 hx7 hx8 hx9)

theorem real_v79 : ∀ i, IsReal (val_main_v79 (F := Ideal) x0 x1 x2 x4 x5 x6 x7 x8 x9 i) := by
  unfold val_main_v79
  exact isReal_mulf _ _ (real_v73 hx0 hx4 hx5 hx6 hx7 hx8 hx9) real_v78

theorem real_v86 : ∀ i, IsReal (val_main_v86 (F := Ideal) x0 x1 x2 x4 x5 x6 x7 x8 x9 i) := by
  unfold val_main_v86
  exact isReal_gather _ _ _ (real_v79 hx0 hx4 hx5 hx6 hx7 hx8 hx9)

theorem real_v89 : ∀ i, IsReal (val_main_v89 (F := Ideal) x0 x1 x2 x4 x5 x6 x7 x8 x9 i) := by
  unfold val_main_v89
  exact isReal_scatterAdd _ _ _ _ real_v87 (real_v86 hx0 hx4 hx5 hx6 hx7 hx8 hx9)

theorem real_v92 : ∀ i, IsReal (val_main_v92 (F := Ideal) x0 x1 x2 x4 x5 x6 x7 x8 x9 i) := by
  unfold val_main_v92
  exact isReal_mulf _ _ (real_v89 hx0 hx4 hx5 hx6 hx7 hx8 hx9) real_v91

section HypD
variable (hx10 : ∀ i, IsReal (x10 i)) (hx11 : ∀ i, IsReal (x11 i)) (hx12 : ∀ i, IsReal (x12 i))
include hx10 hx11 hx12

theorem real_v93 : ∀ i, IsReal (val_main_v93 (F := Ideal) x0 x1 x2 x4 x5 x6 x7 x8 x9 x10 i) := by
  unfold val_main_v93
  exact isReal_dotGeneral _ _ _ _ (real_v92 hx0 hx4 hx5 hx6 hx7 hx8 hx9) hx10

theorem real_v94 : ∀ i, IsReal (val_main_v94 (F := Ideal) x11 i) := by
  unfold val_main_v94
  exact isReal_broadcastInDim _ _ _ hx11

theorem real_v95 : ∀ i, IsReal (val_main_v95 (F := Ideal) x11 i) := by
  unfold val_main_v95
  exact isReal_broadcastInDim _ _ _ (real_v94 hx0 hx4 hx5 hx6 hx7 hx8 hx9 hx10 hx11 hx12)

theorem real_v96 : ∀ i, IsReal (val_main_v96 (F := Ideal) x0 x1 x2 x4 x5 x6 x7 x8 x9 x10 x11 i) := by
  unfold val_main_v96
  exact isReal_addf _ _ (real_v93 hx0 hx4 hx5 hx6 hx7 hx8 hx9 hx10 hx11 hx12) (real_v95 hx0 hx4 hx5 hx6 hx7 hx8 hx9 hx10 hx11 hx12)

theorem real_v99 : ∀ i, IsReal (val_main_v99 (F := Ideal) x12 i) := by
  unfold val_main_v99
  exact isReal_broadcastInDim _ _ _ hx12

theorem real_v100 : ∀ i, IsReal (val_main_v100 (F := Ideal) x0 x1 x2 x4 x5 x6 x7 x8 x9 x10 x11 x12 i) := by
  unfold val_main_v100
  exact isReal_mulf _ _ (real_v99 hx0 hx4 hx5 hx6 hx7 hx8 hx9 hx10 hx11 hx12) (real_v96 hx0 hx4 hx5 hx6 hx7 hx8 hx9 hx10 hx11 hx12)

theorem real_v101 : ∀ i, IsReal (val_main_v101 (F := Ideal) x0 x1 x2 x4 x5 x6 x7 x8 x9 x10 x11 x12 i) := by
  unfold val_main_v101
  exact isReal_select _ _ _ (real_v96 hx0 hx4 hx5 hx6 hx7 hx8 hx9 hx10 hx11 hx12) (real_v100 hx0 hx4 hx5 hx6 hx7 hx8 hx9 hx10 hx11 hx12)

theorem real_v102 : ∀ i, IsReal (val_main_v102 (F := Ideal) x0 x1 x2 x4 x5 x6 x7 x8 x9 x10 x11 x12 i) := by
  unfold val_main_v102
  exact isReal_reduceAdd _ _ _ _ (real_v101 hx0 hx4 hx5 hx6 hx7 hx8 hx9 hx10 hx11 hx12) real_cst_22

theorem real_v104 : ∀ i, IsReal (val_main_v104 (F := Ideal) x0 x1 x2 x4 x5 x6 x7 x8 x9 x10 x11 x12 i) := by
  unfold val_main_v104
  exact isReal_hostDivf_pos _ _ (real_v102 hx0 hx4 hx5 hx6 hx7 hx8 hx9 hx10 hx11 hx12) v103_pos

theorem real_v105 : ∀ i, IsReal (val_main_v105 (F := Ideal) x0 x1 x2 x4 x5 x6 x7 x8 x9 x10 x11 x12 i) := by
  unfold val_main_v105
  exact isReal_broadcastInDim _ _ _ (real_v104 hx0 hx4 hx5 hx6 hx7 hx8 hx9 hx10 hx11 hx12)

theorem real_v106 : ∀ i, IsReal (val_main_v106 (F := Ideal) x0 x1 x2 x4 x5 x6 x7 x8 x9 x10 x11 x12 i) := by
  unfold val_main_v106
  exact isReal_broadcastInDim _ _ _ (real_v105 hx0 hx4 hx5 hx6 hx7 hx8 hx9 hx10 hx11 hx12)

theorem real_v107 : ∀ i, IsReal (val_main_v107 (F := Ideal) x0 x1 x2 x4 x5 x6 x7 x8 x9 x10 x11 x12 i) := by
  unfold val_main_v107
  exact isReal_subf _ _ (real_v101 hx0 hx4 hx5 hx6 hx7 hx8 hx9 hx10 hx11 hx12) (real_v106 hx0 hx4 hx5 hx6 hx7 hx8 hx9 hx10 hx11 hx12)

theorem real_v108 : ∀ i, IsReal (val_main_v108 (F := Ideal) x0 x1 x2 x4 x5 x6 x7 x8 x9 x10 x11 x12 i) := by
  unfold val_main_v108
  exact isReal_mulf _ _ (real_v107 hx0 hx4 hx5 hx6 hx7 hx8 hx9 hx10 hx11 hx12) (real_v107 hx0 hx4 hx5 hx6 hx7 hx8 hx9 hx10 hx11 hx12)

theorem real_v109 : ∀ i, IsReal (val_main_v109 (F := Ideal) x0 x1 x2 x4 x5 x6 x7 x8 x9 x10 x11 x12 i) := by
  unfold val_main_v109
  exact isReal_reduceAdd _ _ _ _ (real_v108 hx0 hx4 hx5 hx6 hx7 hx8 hx9 hx10 hx11 hx12) real_cst_24

theorem real_v111 : ∀ i, IsReal (val_main_v111 (F := Ideal) x0 x1 x2 x4 x5 x6 x7 x8 x9 x10 x11 x12 i) := by
  unfold val_main_v111
  exact isReal_hostDivf_pos _ _ (real_v109 hx0 hx4 hx5 hx6 hx7 hx8 hx9 hx10 hx11 hx12) v110_pos

theorem real_v112 : ∀ i, IsReal (val_main_v112 (F := Ideal) x0 x1 x2 x4 x5 x6 x7 x8 x9 x10 x11 x12 i) := by
  unfold val_main_v112
  exact isReal_broadcastInDim _ _ _ (real_v104 hx0 hx4 hx5 hx6 hx7 hx8 hx9 hx10 hx11 hx12)

theorem real_v113 : ∀ i, IsReal (val_main_v113 (F := Ideal) x0 x1 x2 x4 x5 x6 x7 x8 x9 x10 x11 x12 i) := by
  unfold val_main_v113
  exact isReal_broadcastInDim _ _ _ (real_v112 hx0 hx4 hx5 hx6 hx7 hx8 hx9 hx10 hx11 hx12)

theorem real_v114 : ∀ i, IsReal (val_main_v114 (F := Ideal) x0 x1 x2 x4 x5 x6 x7 x8 x9 x10 x11 x12 i) := by
  unfold val_main_v114
  exact isReal_subf _ _ (real_v101 hx0 hx4 hx5 hx6 hx7 hx8 hx9 hx10 hx11 hx12) (real_v113 hx0 hx4 hx5 hx6 hx7 hx8 hx9 hx10 hx11 hx12)

theorem real_v117 : ∀ i, IsReal (val_main_v117 (F := Ideal) x0 x1 x2 x4 x5 x6 x7 x8 x9 x10 x11 x12 i) := by
  unfold val_main_v117 val_main_v116 val_main_v111 val_main_v109 val_main_v108
  exact isReal_hostRsqrt_variance _ _ _ _ _ _ (real_v107 hx0 hx4 hx5 hx6 hx7 hx8 hx9 hx10 hx11 hx12) real_cst_24 nonneg_cst_24 v110_pos v115_pos

theorem real_v118 : ∀ i, IsReal (val_main_v118 (F := Ideal) x0 x1 x2 x4 x5 x6 x7 x8 x9 x10 x11 x12 i) := by
  unfold val_main_v118
  exact isReal_broadcastInDim _ _ _ (real_v117 hx0 hx4 hx5 hx6 hx7 hx8 hx9 hx10 hx11 hx12)

theorem real_v119 : ∀ i, IsReal (val_main_v119 (F := Ideal) x0 x1 x2 x4 x5 x6 x7 x8 x9 x10 x11 x12 i) := by
  unfold val_main_v119
  exact isReal_broadcastInDim _ _ _ (real_v118 hx0 hx4 hx5 hx6 hx7 hx8 hx9 hx10 hx11 hx12)

theorem real_v120 : ∀ i, IsReal (val_main_v120 (F := Ideal) x0 x1 x2 x4 x5 x6 x7 x8 x9 x10 x11 x12 i) := by
  unfold val_main_v120
  exact isReal_mulf _ _ (real_v114 hx0 hx4 hx5 hx6 hx7 hx8 hx9 hx10 hx11 hx12) (real_v119 hx0 hx4 hx5 hx6 hx7 hx8 hx9 hx10 hx11 hx12)

section HypE
variable (hx13 : ∀ i, IsReal (x13 i)) (hx14 : ∀ i, IsReal (x14 i)) (hx15 : ∀ i, IsReal (x15 i))
include hx13 hx14 hx15

theorem real_v121 : ∀ i, IsReal (val_main_v121 (F := Ideal) x13 i) := by
  unfold val_main_v121
  exact isReal_broadcastInDim _ _ _ hx13

theorem real_v122 : ∀ i, IsReal (val_main_v122 (F := Ideal) x13 i) := by
  unfold val_main_v122
  exact isReal_broadcastInDim _ _ _ (real_v121 hx0 hx4 hx5 hx6 hx7 hx8 hx9 hx10 hx11 hx12 hx13 hx14 hx15)

theorem real_v123 : ∀ i, IsReal (val_main_v123 (F := Ideal) x0 x1 x2 x4 x5 x6 x7 x8 x9 x10 x11 x12 x13 i) := by
  unfold val_main_v123
  exact isReal_mulf _ _ (real_v120 hx0 hx4 hx5 hx6 hx7 hx8 hx9 hx10 hx11 hx12) (real_v122 hx0 hx4 hx5 hx6 hx7 hx8 hx9 hx10 hx11 hx12 hx13 hx14 hx15)

theorem real_v124 : ∀ i, IsReal (val_main_v124 (F := Ideal) x14 i) := by
  unfold val_main_v124
  exact isReal_broadcastInDim _ _ _ hx14

theorem real_v125 : ∀ i, IsReal (val_main_v125 (F := Ideal) x14 i) := by
  unfold val_main_v125
  exact isReal_broadcastInDim _ _ _ (real_v124 hx0 hx4 hx5 hx6 hx7 hx8 hx9 hx10 hx11 hx12 hx13 hx14 hx15)

theorem real_v126 : ∀ i, IsReal (val_main_v126 (F := Ideal) x0 x1 x2 x4 x5 x6 x7 x8 x9 x10 x11 x12 x13 x14 i) := by
  unfold val_main_v126
  exact isReal_addf _ _ (real_v123 hx0 hx4 hx5 hx6 hx7 hx8 hx9 hx10 hx11 hx12 hx13 hx14 hx15) (real_v125 hx0 hx4 hx5 hx6 hx7 hx8 hx9 hx10 hx11 hx12 hx13 hx14 hx15)

theorem real_v129 : ∀ i, IsReal (val_main_v129 (F := Ideal) x15 i) := by
  unfold val_main_v129
  exact isReal_broadcastInDim _ _ _ hx15

theorem real_v130 : ∀ i, IsReal (val_main_v130 (F := Ideal) x0 x1 x2 x4 x5 x6 x7 x8 x9 x10 x11 x12 x13 x14 x15 i) := by
  unfold val_main_v130
  exact isReal_mulf _ _ (real_v129 hx0 hx4 hx5 hx6 hx7 hx8 hx9 hx10 hx11 hx12 hx13 hx14 hx15) (real_v126 hx0 hx4 hx5 hx6 hx7 hx8 hx9 hx10 hx11 hx12 hx13 hx14 hx15)

theorem real_v131 : ∀ i, IsReal (val_main_v131 (F := Ideal) x0 x1 x2 x4 x5 x6 x7 x8 x9 x10 x11 x12 x13 x14 x15 i) := by
  unfold val_main_v131
  exact isReal_select _ _ _ (real_v126 hx0 hx4 hx5 hx6 hx7 hx8 hx9 hx10 hx11 hx12 hx13 hx14 hx15) (real_v130 hx0 hx4 hx5 hx6 hx7 hx8 hx9 hx10 hx11 hx12 hx13 hx14 hx15)

end HypE
end HypD
end HypC
end HypB

end Cert.ReferenceIdeal.Finite
-- ==== Proof.RefFinite.lean ====
/-
  Every float value the reference program computes is a finite extended real, provided its float
  arguments are; and its two batch-normalisation variances are nonnegative.

  The reference is a two-layer graph network: degree norms (an accumulating scatter of ones, the
  reciprocal square root of the degree clamped below by one, and a choice against zero), a scaling of
  the rows, a gather of rows by edge source and an accumulating scatter by edge target, a second
  scaling, a contraction with a weight matrix, a bias, a two-slope rectifier (a choice between a value
  and its multiple), and a batch normalisation (mean = sum / 50000, variance = sum of squared
  deviations / 50000, scaling by the reciprocal square root of variance plus a positive constant,
  then an affine map), followed by a second rectifier; then the same layer once more.

  Sums, products, differences, choices and re-indexings keep finite values finite.  The two places
  that could leave the finite values are the quotient (its divisor is the positive real 50000) and
  the reciprocal square root (its argument is at least one for the degree norms, and a nonnegative
  variance plus a positive real for the batch normalisation).  The index arguments (edge sources,
  edge targets) are arbitrary: whatever entries they select or collide, finitely many finite values
  are added.

  This module states the facts about the named stages; the stage-by-stage chain behind them is the
  imported table, and the general lemmas are in the modules that table imports.
-/
import proofs.«147171_j25031069401693_2_alg».proof.Proof.RefFiniteStages

namespace Cert.ReferenceIdeal.Finite

open Cert.ReferenceIdeal Cert.ReferenceIdeal.Gen Cert.ReferenceIdeal.ReadP Cert.Bridge
open Idealize.ShloMosaic Idealize.ShloMosaic.TcCoe Idealize.SL.Sem Idealize.ShloMosaic.StableHlo

variable {x0 : (⟨S50000x128, .f32⟩ : BufTy).Contents (Elt Ideal)}
  (x1 x2 : (⟨S600000, .i32⟩ : BufTy).Contents (Elt Ideal))
  {x4 : (⟨S128x128, .f32⟩ : BufTy).Contents (Elt Ideal)} {x5 : (⟨S128, .f32⟩ : BufTy).Contents (Elt Ideal)} {x6 : (⟨S_, .f32⟩ : BufTy).Contents (Elt Ideal)}
  {x7 x8 : (⟨S128, .f32⟩ : BufTy).Contents (Elt Ideal)} {x9 : (⟨S_, .f32⟩ : BufTy).Contents (Elt Ideal)}
  {x10 : (⟨S128x128, .f32⟩ : BufTy).Contents (Elt Ideal)} {x11 : (⟨S128, .f32⟩ : BufTy).Contents (Elt Ideal)} {x12 : (⟨S_, .f32⟩ : BufTy).Contents (Elt Ideal)}
  {x13 x14 : (⟨S128, .f32⟩ : BufTy).Contents (Elt Ideal)} {x15 : (⟨S_, .f32⟩ : BufTy).Contents (Elt Ideal)}

/-! ### The degree norms: finite whatever the edges are -/

/-- The source-degree norm. -/
theorem isReal_v12 : ∀ i, IsReal (val_main_v12 (F := Ideal) x1 i) := real_v12

/-- The target-degree norm. -/
theorem isReal_v18 : ∀ i, IsReal (val_main_v18 (F := Ideal) x2 i) := real_v18

section Layer0
variable (hx0 : ∀ i, IsReal (x0 i)) (hx4 : ∀ i, IsReal (x4 i)) (hx5 : ∀ i, IsReal (x5 i))
  (hx6 : ∀ i, IsReal (x6 i))
include hx0 hx4 hx5 hx6

/-- Layer 0, the aggregate over incoming edges. -/
theorem isReal_v31 : ∀ i, IsReal (val_main_v31 (F := Ideal) x0 x1 x2 i) :=
  real_v31 hx0 hx4 hx5 hx6

/-- Layer 0, the output of the convolution after its rectifier. -/
theorem isReal_v43 : ∀ i, IsReal (val_main_v43 (F := Ideal) x0 x1 x2 x4 x5 x6 i) :=
  real_v43 hx0 hx4 hx5 hx6

/-- Layer 0, the batch mean. -/
theorem isReal_v46 : ∀ i, IsReal (val_main_v46 (F := Ideal) x0 x1 x2 x4 x5 x6 i) :=
  real_v46 hx0 hx4 hx5 hx6

/-- Layer 0, the batch variance: the mean of squared deviations. -/
theorem isReal_v53 : ∀ i, IsReal (val_main_v53 (F := Ideal) x0 x1 x2 x4 x5 x6 i) :=
  real_v53 hx0 hx4 hx5 hx6

/-- Layer 0, the batch variance is nonnegative: a sum of squares of reals over a positive real. -/
theorem nonneg_v53 :
    ∀ i, (0 : EReal) ≤ (val_main_v53 (F := Ideal) x0 x1 x2 x4 x5 x6 i : EReal) := by
  unfold val_main_v53 val_main_v51 val_main_v50
  exact nonneg_variance _ _ _ _ _ (real_v49 hx0 hx4 hx5 hx6) real_cst_13 nonneg_cst_13 v52_pos

/-- Layer 0, the reciprocal standard deviation. -/
theorem isReal_v59 : ∀ i, IsReal (val_main_v59 (F := Ideal) x0 x1 x2 x4 x5 x6 i) :=
  real_v59 hx0 hx4 hx5 hx6

section Layer0b
variable (hx7 : ∀ i, IsReal (x7 i)) (hx8 : ∀ i, IsReal (x8 i)) (hx9 : ∀ i, IsReal (x9 i))
include hx7 hx8 hx9

/-- Layer 0, the output. -/
theorem isReal_v73 : ∀ i, IsReal (val_main_v73 (F := Ideal) x0 x1 x2 x4 x5 x6 x7 x8 x9 i) :=
  real_v73 hx0 hx4 hx5 hx6 hx7 hx8 hx9

/-- Layer 1, the input scaled by the source-degree norm. -/
theorem isReal_v79 : ∀ i, IsReal (val_main_v79 (F := Ideal) x0 x1 x2 x4 x5 x6 x7 x8 x9 i) :=
  real_v79 hx0 hx4 hx5 hx6 hx7 hx8 hx9

/-- Layer 1, the aggregate over incoming edges. -/
theorem isReal_v89 : ∀ i, IsReal (val_main_v89 (F := Ideal) x0 x1 x2 x4 x5 x6 x7 x8 x9 i) :=
  real_v89 hx0 hx4 hx5 hx6 hx7 hx8 hx9

section Layer1
variable (hx10 : ∀ i, IsReal (x10 i)) (hx11 : ∀ i, IsReal (x11 i)) (hx12 : ∀ i, IsReal (x12 i))
include hx10 hx11 hx12

/-- Layer 1, the output of the convolution after its rectifier. -/
theorem isReal_v101 :
    ∀ i, IsReal (val_main_v101 (F := Ideal) x0 x1 x2 x4 x5 x6 x7 x8 x9 x10 x11 x12 i) :=
  real_v101 hx0 hx4 hx5 hx6 hx7 hx8 hx9 hx10 hx11 hx12

/-- Layer 1, the batch mean. -/
theorem isReal_v104 :
    ∀ i, IsReal (val_main_v104 (F := Ideal) x0 x1 x2 x4 x5 x6 x7 x8 x9 x10 x11 x12 i) :=
  real_v104 hx0 hx4 hx5 hx6 hx7 hx8 hx9 hx10 hx11 hx12

/-- Layer 1, the batch variance. -/
theorem isReal_v111 :
    ∀ i, IsReal (val_main_v111 (F := Ideal) x0 x1 x2 x4 x5 x6 x7 x8 x9 x10 x11 x12 i) :=
  real_v111 hx0 hx4 hx5 hx6 hx7 hx8 hx9 hx10 hx11 hx12

/-- Layer 1, the batch variance is nonnegative. -/
theorem nonneg_v111 :
    ∀ i, (0 : EReal) ≤
      (val_main_v111 (F := Ideal) x0 x1 x2 x4 x5 x6 x7 x8 x9 x10 x11 x12 i : EReal) := by
  unfold val_main_v111 val_main_v109 val_main_v108
  exact nonneg_variance _ _ _ _ _ (real_v107 hx0 hx4 hx5 hx6 hx7 hx8 hx9 hx10 hx11 hx12)
    real_cst_24 nonneg_cst_24 v110_pos

/-- Layer 1, the reciprocal standard deviation. -/
theorem isReal_v117 :
    ∀ i, IsReal (val_main_v117 (F := Ideal) x0 x1 x2 x4 x5 x6 x7 x8 x9 x10 x11 x12 i) :=
  real_v117 hx0 hx4 hx5 hx6 hx7 hx8 hx9 hx10 hx11 hx12

section Layer1b
variable (hx13 : ∀ i, IsReal (x13 i)) (hx14 : ∀ i, IsReal (x14 i)) (hx15 : ∀ i, IsReal (x15 i))
include hx13 hx14 hx15

/-- Layer 1, the output: the node features both programs sum by segment. -/
theorem isReal_v131 :
    ∀ i, IsReal
      (val_main_v131 (F := Ideal) x0 x1 x2 x4 x5 x6 x7 x8 x9 x10 x11 x12 x13 x14 x15 i) :=
  real_v131 hx0 hx4 hx5 hx6 hx7 hx8 hx9 hx10 hx11 hx12 hx13 hx14 hx15

end Layer1b
end Layer1
end Layer0b
end Layer0

end Cert.ReferenceIdeal.Finite
-- ==== Proof.TRefFacts.lean ====
/-
  The typed buffer references a called function's operations are written with carry, besides the buffer, the proof
  that the buffer's type is the value's type, and move a value to and from the buffer along that proof. Moving there
  and back is the identity, and moving a value whose type already is the buffer's changes nothing: both by
  substituting the type equation, never by evaluating a table of buffer types.
-/
import Idealize.ShloMosaic.Lib.StableHlo

namespace Cert.Bridge

open Idealize.ShloMosaic Idealize.ShloMosaic.StableHlo

variable {sig : RefSig} {T : BufTy} {Val : EltTy → Type}

/-- A value moved to the buffer's type and back is the value. -/
theorem ofBuf_toBuf (x : TRef sig T) (v : T.Contents Val) : x.ofBuf (x.toBuf v) = v := by
  obtain ⟨r, h, d, u⟩ := x
  subst h
  rfl

/-- Contents of the buffer that are, up to the type equation, the value `v`, read at the value's type, are `v`. -/
theorem ofBuf_of_heq (x : TRef sig T) (w : x.ref.ty.Contents Val) (v : T.Contents Val) (h : HEq w v) : x.ofBuf w = v :=
  eq_of_heq ((cast_heq _ w).trans h)

/-- A value moved to the buffer's type is, up to the type equation, the value. -/
theorem toBuf_of_heq (x : TRef sig T) (v : T.Contents Val) (w : x.ref.ty.Contents Val) (h : HEq v w) : x.toBuf v = w :=
  eq_of_heq ((cast_heq _ v).trans h)

end Cert.Bridge
-- ==== Proof.Glue1.lean ====
/-
  The buffers the first convolution region reads, in the reference's words.

  Both programs begin with the same host computation: the two degree vectors by scatter-adding ones, the factors
  `rsqrt (max deg 1)` where the degree is positive and `0` elsewhere, the features scaled by the out-degree factor of
  their row, gathered along the edges' sources and scatter-added at the edges' targets. The kernel program then
  reshapes the in-degree factor to a column, the bias to a row and the rectifier's slope to a `1 × 1` matrix, where
  the reference broadcasts; read at an index these are the same numbers.
  The readings go one stretch of host operations at a time: what a stretch leaves is a function of what it found, and
  what it found has been identified before.
-/
import proofs.«147171_j25031069401693_2_alg».proof.Proof.Gen.KernelIdeal.Frame
import proofs.«147171_j25031069401693_2_alg».proof.Proof.RefReadP
import proofs.«147171_j25031069401693_2_alg».proof.Proof.Spec
import proofs.«147171_j25031069401693_2_alg».proof.Proof.LayoutFacts
import proofs.«147171_j25031069401693_2_alg».proof.Proof.TRefFacts
import proofs.«147171_j25031069401693_2_alg».proof.Proof.Walk
import Idealize.ShloMosaic.PureOps.Ideal
import Idealize.ShloMosaic.PureOps.Ideal.Laws

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_cst_4 val_main_cst_7 val_main_v8 val_main_v11 val_main_v14 val_main_v17 val_main_v12 val_main_v18 val_main_v31 val_main_v43 val_main_v46 val_main_v53 val_main_v59
  val_main_v73 val_main_v76 val_main_v79 val_main_v89 val_main_v101 val_main_v104 val_main_v111 val_main_v117 val_main_v131
  val_main_v134 val_main_v135)

variable (m : (ℓ : Loc nD τ sig) → Buf (Elt Ideal) ℓ) (ρ : Dev nD → PrngReg) (c : Dev nD)

/-- Reads a buffer through a stretch of host operations: every operation's result at its own buffer is its function of
    its operands' contents, and at any other buffer what was there. -/
macro "read_fold" : tactic =>
  `(tactic| simp (disch := decide) only [hostOps0, hostOps0_1, hostOps0_2, hostOps0_3, hostOps0_4, hostOps1, hostOps2, hostOps3, hostOps4,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)

/-- Where the out-degree is positive, before the selection. -/
theorem w1_v8 : W1 m ρ c (Proc.devRef .tc main_v8) = val_main_v8 (F := Ideal) a1 := by
  show StableHlo.after hostOps0 (W0 m ρ c) _ = _
  read_fold
  rfl

/-- `rsqrt (max deg 1)` of the out-degree, before the selection. -/
theorem w1_v11 : W1 m ρ c (Proc.devRef .tc main_v11) = val_main_v11 (F := Ideal) a1 := by
  show StableHlo.after hostOps0 (W0 m ρ c) _ = _
  read_fold
  rfl

/-- The zero the selection falls back on. -/
theorem w1_cst_4 : W1 m ρ c (Proc.devRef .tc main_cst_4) = val_main_cst_4 (F := Ideal) := by
  show StableHlo.after hostOps0 (W0 m ρ c) _ = _
  read_fold
  rfl

/-- What the out-degree selection computes, over any contents: the called function's three operations move their
    operands to and from their buffers' types, and those moves are identities. -/
theorem sel_v12 (V1 : Valuation τ sig (Elt Ideal)) :
    StableHlo.after hostOps0_1 V1 (Proc.devRef .tc main_v12)
      = select (V1 (Proc.devRef .tc main_v8)) (V1 (Proc.devRef .tc main_v11))
          (broadcastInDim S50000 ![] bcast_S_S50000 (id (V1 (Proc.devRef .tc main_cst_4)))) := by
  read_fold
  rw [ofBuf_toBuf, ofBuf_toBuf]
  rfl

/-- The out-degree factor once its selection has run: the reference's vector. -/
theorem w2_v12 : W2 m ρ c (Proc.devRef .tc main_v12) = val_main_v12 (F := Ideal) a1 := by
  show StableHlo.after hostOps0_1 (W1 m ρ c) _ = _
  rw [sel_v12, w1_v8, w1_v11, w1_cst_4]
  rfl

/-- Where the in-degree is positive, before the selection. -/
theorem w3_v14 : W3 m ρ c (Proc.devRef .tc main_v14) = val_main_v14 (F := Ideal) a2 := by
  show StableHlo.after hostOps0_2 (StableHlo.after hostOps0_1 (StableHlo.after hostOps0 (W0 m ρ c))) _ = _
  read_fold
  rfl

/-- `rsqrt (max deg 1)` of the in-degree, before the selection. -/
theorem w3_v17 : W3 m ρ c (Proc.devRef .tc main_v17) = val_main_v17 (F := Ideal) a2 := by
  show StableHlo.after hostOps0_2 (StableHlo.after hostOps0_1 (StableHlo.after hostOps0 (W0 m ρ c))) _ = _
  read_fold
  rfl

/-- The zero the in-degree selection falls back on. -/
theorem w3_cst_7 : W3 m ρ c (Proc.devRef .tc main_cst_7) = val_main_cst_7 (F := Ideal) := by
  show StableHlo.after hostOps0_2 (StableHlo.after hostOps0_1 (StableHlo.after hostOps0 (W0 m ρ c))) _ = _
  read_fold
  rfl

/-- What the in-degree selection computes, over any contents. -/
theorem sel_v18 (V3 : Valuation τ sig (Elt Ideal)) :
    StableHlo.after hostOps0_3 V3 (Proc.devRef .tc main_v18)
      = select (V3 (Proc.devRef .tc main_v14)) (V3 (Proc.devRef .tc main_v17))
          (broadcastInDim S50000 ![] bcast_S_S50000 (id (V3 (Proc.devRef .tc main_cst_7)))) := by
  read_fold
  rw [ofBuf_toBuf, ofBuf_toBuf]
  rfl

/-- The in-degree factor once its selection has run: the reference's vector. -/
theorem w4_v18 : W4 m ρ c (Proc.devRef .tc main_v18) = val_main_v18 (F := Ideal) a2 := by
  show StableHlo.after hostOps0_3 (W3 m ρ c) _ = _
  rw [sel_v18, w3_v14, w3_v17, w3_cst_7]
  rfl

/-- The two stretches after its selection leave the out-degree factor alone. -/
theorem w4_v12 : W4 m ρ c (Proc.devRef .tc main_v12) = val_main_v12 (F := Ideal) a1 :=
  (Walk.W4_of m ρ c main_v12 (by decide)).trans ((Walk.W3_of m ρ c main_v12 (by decide)).trans (w2_v12 m ρ c))

/-! ## The last stretch before the first region, over any contents -/

theorem ops4_v20 (V4 : Valuation τ sig (Elt Ideal)) :
    StableHlo.after hostOps0_4 V4 (Proc.devRef .tc main_v20)
      = shapeCast S50000x1 (V4 (Proc.devRef .tc main_v18)) shapeCasts_S50000_S50000x1 := by
  read_fold
  rfl

theorem ops4_v19 (V4 : Valuation τ sig (Elt Ideal)) :
    StableHlo.after hostOps0_4 V4 (Proc.devRef .tc main_v19)
      = shapeCast S50000x1 (V4 (Proc.devRef .tc main_v12)) shapeCasts_S50000_S50000x1 := by
  read_fold
  rfl

theorem ops4_v33 (V4 : Valuation τ sig (Elt Ideal)) :
    StableHlo.after hostOps0_4 V4 (Proc.devRef .tc main_v33)
      = shapeCast S1x128 (V4 (Proc.devRef .tc main_arg5)) shapeCasts_S128_S1x128 := by
  read_fold
  rfl

theorem ops4_v34 (V4 : Valuation τ sig (Elt Ideal)) :
    StableHlo.after hostOps0_4 V4 (Proc.devRef .tc main_v34)
      = shapeCast S1x1 (V4 (Proc.devRef .tc main_arg6)) shapeCasts_S_S1x1 := by
  read_fold
  rfl

/-- The aggregate: the features scaled by the out-degree column broadcast along the rows, gathered at the edges'
    sources (a negative index counted from the end), scatter-added at the edges' targets into zeros. -/
theorem ops4_v32 (V4 : Valuation τ sig (Elt Ideal)) :
    StableHlo.after hostOps0_4 V4 (Proc.devRef .tc main_v32)
      = Host.scatterAdd (F := Ideal) scatter_S50000x128_S600000x1_S600000x128_1_0_0_1
          (broadcastInDim S50000x128 ![] bcast_S_S50000x128 (constant (F := Ideal) S_ .f32 0x00000000#32))
          (broadcastInDim S600000x1 ![0] bcast_S600000_S600000x1_0 (V4 (Proc.devRef .tc main_arg2)))
          (Host.gather gather_S50000x128_S600000x1_S600000x128_1_0_n_n_0_1_1128
            (mulf (F := Ideal) (V4 (Proc.devRef .tc main_arg0))
              (broadcastInDim S50000x128 ![0, 1] bcast_S50000x1_S50000x128_0_1
                (shapeCast S50000x1 (V4 (Proc.devRef .tc main_v12)) shapeCasts_S50000_S50000x1)))
            (broadcastInDim S600000x1 ![0] bcast_S600000_S600000x1_0
              (select (cmpi .slt (V4 (Proc.devRef .tc main_arg1)) (broadcastInDim S600000 ![] bcast_S_S600000 (constantI S_ 32 0#32)))
                (addi (V4 (Proc.devRef .tc main_arg1)) (broadcastInDim S600000 ![] bcast_S_S600000 (constantI S_ 32 50000#32)))
                (V4 (Proc.devRef .tc main_arg1))))) := by
  read_fold
  rfl

/-! ## The first region's inputs -/

/-- The in-degree factor at the first region's entry: the reference's vector as a column. -/
theorem w5_v20 : W5 m ρ c (Proc.devRef .tc main_v20)
    = shapeCast S50000x1 (val_main_v18 (F := Ideal) a2) shapeCasts_S50000_S50000x1 := by
  show StableHlo.after hostOps0_4 (W4 m ρ c) _ = _
  rw [ops4_v20, w4_v18]

/-- The out-degree factor at the first region's entry: the reference's vector as a column. -/
theorem w5_v19 : W5 m ρ c (Proc.devRef .tc main_v19)
    = shapeCast S50000x1 (val_main_v12 (F := Ideal) a1) shapeCasts_S50000_S50000x1 := by
  show StableHlo.after hostOps0_4 (W4 m ρ c) _ = _
  rw [ops4_v19, w4_v12]

theorem v5_v20_at (j : S50000x1.Idx) :
    (V5 m ρ c main_v20 : S50000x1.Idx → EReal) j = val_main_v18 (F := Ideal) a2 (ix1 (j 0)) := by
  show W5 m ρ c (Proc.devRef .tc main_v20) j = _
  rw [w5_v20]; exact cast_col _ _ j

theorem v5_v19_at (j : S50000x1.Idx) :
    (V5 m ρ c main_v19 : S50000x1.Idx → EReal) j = val_main_v12 (F := Ideal) a1 (ix1 (j 0)) := by
  show W5 m ρ c (Proc.devRef .tc main_v19) j = _
  rw [w5_v19]; exact cast_col _ _ j

/-- The bias as a row. -/
theorem v5_v33_at (j : S1x128.Idx) : (V5 m ρ c main_v33 : S1x128.Idx → EReal) j = (a5 : S128.Idx → EReal) (ix1 (j 1)) := by
  show StableHlo.after hostOps0_4 (W4 m ρ c) (Proc.devRef .tc main_v33) j = _
  rw [ops4_v33, Walk.W4_arg m ρ c main_arg5 (by decide)]
  exact cast_row _ _ j

/-- The rectifier's slope as a `1 × 1` matrix. -/
theorem v5_v34_at (j : S1x1.Idx) : (V5 m ρ c main_v34 : S1x1.Idx → EReal) j = (a6 : S_.Idx → EReal) ix0 := by
  show StableHlo.after hostOps0_4 (W4 m ρ c) (Proc.devRef .tc main_v34) j = _
  rw [ops4_v34, Walk.W4_arg m ρ c main_arg6 (by decide)]
  exact cast_scal _ _ j

/-- The first weights are the argument itself. -/
theorem v5_arg4 : (V5 m ρ c main_arg4 : S128x128.Idx → EReal) = a4 :=
  Walk.W5_arg m ρ c main_arg4 (by decide)

/-- A column reshaped from a vector and broadcast along the rows is the vector broadcast to a column and then along
    the rows: both read the vector at the row. -/
theorem bcast_cast_eq (y : S50000.Idx → EReal) :
    broadcastInDim S50000x128 ![0, 1] bcast_S50000x1_S50000x128_0_1 (shapeCast S50000x1 y shapeCasts_S50000_S50000x1)
      = broadcastInDim S50000x128 ![0, 1] bcast_S50000x1_S50000x128_0_1 (broadcastInDim S50000x1 ![0] bcast_S50000_S50000x1_0 y) := by
  funext j
  rw [bcast_col, bcast_col, cast_col]
  refine (broadcastInDim_apply ![0] bcast_S50000_S50000x1_0 y (ix2 (j 0) 0) (ix1 (j 0)) fun a => ?_).symm
  match a with
  | ⟨0, _⟩ => show (j 0).val = if (50000 : Nat) = 1 then 0 else (j 0).val; rw [if_neg (by decide)]

/-- The aggregated, source-scaled features the first region reads are the reference's. -/
theorem v5_v32 : (V5 m ρ c main_v32 : S50000x128.Idx → EReal) = val_main_v31 (F := Ideal) a0 a1 a2 := by
  show StableHlo.after hostOps0_4 (W4 m ρ c) (Proc.devRef .tc main_v32) = _
  rw [ops4_v32, Walk.W4_arg m ρ c main_arg0 (by decide), Walk.W4_arg m ρ c main_arg1 (by decide),
    Walk.W4_arg m ρ c main_arg2 (by decide), w4_v12, bcast_cast_eq]
  rfl

end Cert.KernelIdeal.Glue

end
-- ==== Proof.ConvValue0.lean ====
/-
  The first convolution layer with its column statistics, read off the blocked program.

  The region walks ten blocks of 5000 rows. At each block it computes the block of
      h = prelu α ((A ⊙ nd) W + b)
  (rows of the aggregated features scaled by the row's degree factor, times the weights, plus the bias, rectified),
  stores it, and adds the block's column sums of h and of h² onto two one-row accumulators that the first block
  clears. So after the ten blocks the three result arrays are: h itself, entry by entry; for each column, the sum of
  h over all 50000 rows; for each column, the sum of h² over all 50000 rows.

  The steps: each layout operation and the block product read at an entry; what each control case leaves in each
  buffer, namely the value its last whole-block store wrote; those values at an entry, as sums and products of
  extended reals; each window's block at a point as rows of its array; by induction over the points, the
  accumulators after point n hold the column sums of the first n + 1 blocks; ten blocks of 5000 rows regrouped into
  the 50000 rows; and the written-back blocks cover each result array.
-/
import proofs.«147171_j25031069401693_2_alg».proof.Proof.Gen.KernelIdeal.Frame
import proofs.«147171_j25031069401693_2_alg».proof.Proof.Spec
import proofs.«147171_j25031069401693_2_alg».proof.Proof.ERealFacts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open Cert.Bridge

namespace Cert.KernelIdeal.ConvValue0

open Cert.KernelIdeal Cert.KernelIdeal.Gen

/-! ## Layout operations of the body, read at an entry -/

theorem hz : (![0, 0] : Fin 2 → Nat) = fun _ => 0 := funext fun a => by fin_cases a <;> rfl

/-- A column `[5000, 1]` broadcast along the lanes reads, at `(p, q)`, the column's entry at row `p`. -/
theorem bcast_col (x : S5000x1.Idx → EReal) (h : S5000x1.Broadcasts S5000x128) (p : Fin 5000) (q : Fin 128) :
    broadcastTo S5000x128 x h (ix2 p q) = x (ix2 p 0) := by
  refine broadcastTo_apply x h (ix2 p q) (ix2 p 0) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- A single entry `[1, 1]` broadcast to the block reads that entry everywhere. -/
theorem bcast_one (x : S1x1.Idx → EReal) (h : S1x1.Broadcasts S5000x128) (p : Fin 5000) (q : Fin 128) :
    broadcastTo S5000x128 x h (ix2 p q) = x (ix2 0 0) := by
  refine broadcastTo_apply x h (ix2 p q) (ix2 0 0) fun ax => ?_
  match ax with
  | ⟨0, _⟩ => show (0 : Nat) = if (1 : Nat) = 1 then 0 else p.val; rw [if_pos rfl]
  | ⟨1, _⟩ => show (0 : Nat) = if (1 : Nat) = 1 then 0 else q.val; rw [if_pos rfl]

theorem lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at `(p, q)`: row `p` of the left factor against column `q` of the
    right one, summed over the 128 contracted positions. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The index the row reduction sums at: lane `q` with row `k` put back. -/
theorem lift_col (q : Fin 128) (k : Fin 5000) : reduces_S5000x128_S128.lift (ix1 q) k = ix2 k q := by
  funext a
  apply Fin.ext
  match a with
  | ⟨0, _⟩ => rfl
  | ⟨1, _⟩ => rfl

/-- The sum over the rows of a block, stored as a one-row vector: at lane `q` it is `∑ p, v (p, q)`. -/
theorem colsum_apply (v : FVec Ideal S5000x128 .f32) (hφ : FKind.Formats .f32)
    (hacc : (0x00000000#32 : BitVec 32) = 0x00000000#32) (q : Fin 128) :
    shapeCast S1x128 (multiReduction (F := Ideal) .add [0] S128 v 0x00000000#32 reduces_S5000x128_S128 hφ hacc) shapeCasts_S128_S1x128 (ix2 0 q)
      = ∑ p : Fin 5000, v (ix2 p q) := by
  refine (shapeCast_a_1a_apply _ _ 0 q).trans ?_
  refine (Ideal.multiReduction_add_single v 0x00000000#32 reduces_S5000x128_S128 hφ hacc (ix1 q)).trans ?_
  exact Finset.sum_congr rfl fun k _ => congrArg v (lift_col q k)

/-- Row `p` of block `t` as a row of the whole array (taken modulo the extent, so that it is defined for every `t`). -/
def rowOf (t : ℕ) (p : Fin 5000) : Fin 50000 := ⟨(t * 5000 + p.val) % 50000, Nat.mod_lt _ (by decide)⟩

theorem rowOf_eq (t : ℕ) (p : Fin 5000) (h : t * 5000 + p.val < 50000) : rowOf t p = ⟨t * 5000 + p.val, h⟩ :=
  Fin.ext (Nat.mod_eq_of_lt h)

/-- Ten blocks of 5000 rows are the 50000 rows. -/
theorem sum_rows {M : Type*} [AddCommMonoid M] (f : Fin 50000 → M) :
    ∑ t ∈ Finset.range 10, ∑ p : Fin 5000, f (rowOf t p) = ∑ r : Fin 50000, f r := by
  rw [Finset.sum_range]
  exact sum_blocks 10 5000 (fun t p => f (rowOf t.val p)) f (fun t p hk => congrArg f (rowOf_eq t.val p hk))

/-! ## What each control case leaves in the three output buffers

At the first grid point the body first clears the two accumulators; at every point it stores the block of the layer's
output, and adds the block's column sums (of the entries, of their squares) onto the accumulators. Each buffer is
covered by its last whole-block store, so what it holds is that store's payload; a load of an accumulator after the
clearing store reads the cleared value. -/

section Pieces
variable {F : FTy → Type} [FloatOps F]

theorem outA5 (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S5000x128 .f32) (x1 : Vec F S5000x1 .f32) (x2 : Vec F S128x128 .f32) (x3 : Vec F S1x128 .f32) (x4 : Vec F S1x1 .f32) :
    out0_A_5 c i arg1 harg1 arg2 harg2 arg3 harg3 arg4 harg4 arg5 harg5 arg6 harg6 arg7 harg7 arg8 harg8 hc0 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outA6 (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S5000x128 .f32) (x1 : Vec F S5000x1 .f32) (x2 : Vec F S128x128 .f32) (x3 : Vec F S1x128 .f32) (x4 : Vec F S1x1 .f32) :
    out0_A_6 c i arg1 harg1 arg2 harg2 arg3 harg3 arg4 harg4 arg5 harg5 arg6 harg6 arg7 harg7 arg8 harg8 hc0 x0 x1 x2 x3 x4 = k0_pay5 x0 x1 x2 x3 x4 k0_pay2 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outA7 (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S5000x128 .f32) (x1 : Vec F S5000x1 .f32) (x2 : Vec F S128x128 .f32) (x3 : Vec F S1x128 .f32) (x4 : Vec F S1x1 .f32) :
    out0_A_7 c i arg1 harg1 arg2 harg2 arg3 harg3 arg4 harg4 arg5 harg5 arg6 harg6 arg7 harg7 arg8 harg8 hc0 x0 x1 x2 x3 x4 = k0_pay1 (k0_pay4 x0 x1 x2 x3 x4) (k0_pay6 k0_pay3) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outB5 (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S5000x128 .f32) (x1 : Vec F S5000x1 .f32) (x2 : Vec F S128x128 .f32) (x3 : Vec F S1x128 .f32) (x4 : Vec F S1x1 .f32) (xo6 : Vec F S1x128 .f32) (xo7 : Vec F S1x128 .f32) :
    out0_B_5 c i arg1 harg1 arg2 harg2 arg3 harg3 arg4 harg4 arg5 harg5 arg6 harg6 arg7 harg7 arg8 harg8 hc0 x0 x1 x2 x3 x4 xo6 xo7 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outB6 (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S5000x128 .f32) (x1 : Vec F S5000x1 .f32) (x2 : Vec F S128x128 .f32) (x3 : Vec F S1x128 .f32) (x4 : Vec F S1x1 .f32) (xo6 : Vec F S1x128 .f32) (xo7 : Vec F S1x128 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outB7 (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S5000x128 .f32) (x1 : Vec F S5000x1 .f32) (x2 : Vec F S128x128 .f32) (x3 : Vec F S1x128 .f32) (x4 : Vec F S1x1 .f32) (xo6 : Vec F S1x128 .f32) (xo7 : Vec F S1x128 .f32) :
    out0_B_7 c i arg1 harg1 arg2 harg2 arg3 harg3 arg4 harg4 arg5 harg5 arg6 harg6 arg7 harg7 arg8 harg8 hc0 x0 x1 x2 x3 x4 xo6 xo7 = k0_pay1 (k0_pay4 x0 x1 x2 x3 x4) (k0_pay6 xo7) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

end Pieces

/-! ## The body's arithmetic at an entry -/

/-- The block of the layer's output: at `(p, q)` the rectified affine combination of row `p` of the scaled features
    with column `q` of the weights. -/
theorem pay4_apply (x0 : Vec Ideal S5000x128 .f32) (x1 : Vec Ideal S5000x1 .f32) (x2 : Vec Ideal S128x128 .f32) (x3 : Vec Ideal S1x128 .f32) (x4 : Vec Ideal S1x1 .f32) (p : Fin 5000) (q : Fin 128) :
    k0_pay4 (F := Ideal) x0 x1 x2 x3 x4 (ix2 p q)
      = prelu (x4 (ix2 0 0)) ((∑ k : Fin 128, (x0 (ix2 p k) * x1 (ix2 p 0)) * x2 (ix2 k q)) + x3 (ix2 0 q)) := by
  unfold k0_pay4
  simp only [shapeCast_self]
  rw [select_apply, cmpf_apply, mulf_apply, addf_apply, broadcast_apply, mm_apply, broadcastTo_1b_ab_apply, bcast_one]
  simp only [truncf_apply, mulf_apply, bcast_col]
  unfold prelu
  rw [show (FloatOps.ofBits FTy.f32 0x00000000#32 : Ideal .f32) = 0 from Ideal.ofBits_zero_f32]
  rfl

/-- The running column sum after a block: what was there plus the block's column sums. -/
theorem pay5_apply (x0 : Vec Ideal S5000x128 .f32) (x1 : Vec Ideal S5000x1 .f32) (x2 : Vec Ideal S128x128 .f32) (x3 : Vec Ideal S1x128 .f32) (x4 : Vec Ideal S1x1 .f32) (v25 : Vec Ideal S1x128 .f32) (q : Fin 128) :
    k0_pay5 (F := Ideal) x0 x1 x2 x3 x4 v25 (ix2 0 q) = v25 (ix2 0 q) + ∑ p : Fin 5000, k0_pay4 (F := Ideal) x0 x1 x2 x3 x4 (ix2 p q) := by
  unfold k0_pay5
  simp only [shapeCast_self]
  rw [addf_apply]
  exact congrArg (v25 (ix2 0 q) + ·) (colsum_apply (k0_pay4 (F := Ideal) x0 x1 x2 x3 x4) _ _ q)

/-- The running column sum of squares after a block. -/
theorem pay1_apply (v23 : FVec Ideal S5000x128 .f32) (v32 : FVec Ideal S1x128 .f32) (q : Fin 128) :
    k0_pay1 (F := Ideal) v23 v32 (ix2 0 q) = v32 (ix2 0 q) + ∑ p : Fin 5000, v23 (ix2 p q) * v23 (ix2 p q) := by
  unfold k0_pay1
  rw [addf_apply]
  exact congrArg (v32 (ix2 0 q) + ·) (colsum_apply (mulf v23 v23) _ _ q)

theorem pay2_apply (q : Fin 128) : k0_pay2 (F := Ideal) (ix2 0 q) = 0 := by
  unfold k0_pay2
  exact Ideal.ofBits_zero_f32

theorem pay3_apply (q : Fin 128) : k0_pay3 (F := Ideal) (ix2 0 q) = 0 := by
  unfold k0_pay3
  exact Ideal.ofBits_zero_f32

theorem pay6_eq (v31 : Vec Ideal S1x128 .f32) : k0_pay6 (F := Ideal) v31 = v31 := by
  unfold k0_pay6
  exact shapeCast_self _ _

/-! ## From the blocks to the arrays

The grid has ten points; point `t` sees rows `5000 t … 5000 t + 4999` of the row-blocked arrays and the whole of the
resident ones. -/

section Value
variable (V : (c : Dev nD) → (b : Ref sig .tc) → Buf (Elt Ideal) ((c : Thread nD τ).loc b))

/-- The windows' index maps, decided over the grid: a row-blocked window's block index is `(t, 0)`, a resident
    window's `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-- Row `p` of the features' block at point `t` is row `5000 t + p` of the features. -/
theorem blk0_apply (c : Dev nD) (t : Fin cfg0.N) (p : Fin 5000) (k : Fin 128) (hr : t.val * 5000 + p.val < 50000) :
    (iblk0 V c 0 t : Vec Ideal S5000x128 .f32) (ix2 p k) = (V c main_v32 : S50000x128.Idx → EReal) (ix2 ⟨t.val * 5000 + p.val, hr⟩ k) := by
  obtain ⟨e00, e01, e10, e11, e20, e21, e30, e31, e40, e41, e50, e51, e60, e61, e70, e71⟩ := idx_facts t
  unfold iblk0
  rw [View.read_apply]
  show V c main_v32 _ = V c main_v32 _
  congr 1
  funext a
  apply Fin.ext
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega

/-- Row `p` of the degree factors' block at point `t` is row `5000 t + p` of the factors. -/
theorem blk1_apply (c : Dev nD) (t : Fin cfg0.N) (p : Fin 5000) (hr : t.val * 5000 + p.val < 50000) :
    (iblk0 V c 1 t : Vec Ideal S5000x1 .f32) (ix2 p 0) = (V c main_v20 : S50000x1.Idx → EReal) (ix2 ⟨t.val * 5000 + p.val, hr⟩ 0) := by
  obtain ⟨e00, e01, e10, e11, e20, e21, e30, e31, e40, e41, e50, e51, e60, e61, e70, e71⟩ := idx_facts t
  unfold iblk0
  rw [View.read_apply]
  show V c main_v20 _ = V c main_v20 _
  congr 1
  funext a
  apply Fin.ext
  match a with
  | ⟨0, _⟩ => show win0_1.index t (0 : Fin 2) * 5000 + 1 * p.val = t.val * 5000 + p.val; rw [e10]; omega
  | ⟨1, _⟩ => show win0_1.index t (1 : Fin 2) * 1 + 1 * 0 = 0; rw [e11]

/-- The weights are read whole at every point. -/
theorem blk2_apply (c : Dev nD) (t : Fin cfg0.N) (k : Fin 128) (q : Fin 128) :
    (iblk0 V c 2 t : Vec Ideal S128x128 .f32) (ix2 k q) = (V c main_arg4 : S128x128.Idx → EReal) (ix2 k q) := by
  obtain ⟨e00, e01, e10, e11, e20, e21, e30, e31, e40, e41, e50, e51, e60, e61, e70, e71⟩ := idx_facts t
  unfold iblk0
  rw [View.read_apply]
  show V c main_arg4 _ = V c main_arg4 _
  congr 1
  funext a
  apply Fin.ext
  match a with
  | ⟨0, _⟩ => show win0_2.index t (0 : Fin 2) * 128 + 1 * k.val = k.val; rw [e20]; omega
  | ⟨1, _⟩ => show win0_2.index t (1 : Fin 2) * 128 + 1 * q.val = q.val; rw [e21]; omega

/-- The bias is read whole at every point. -/
theorem blk3_apply (c : Dev nD) (t : Fin cfg0.N) (q : Fin 128) :
    (iblk0 V c 3 t : Vec Ideal S1x128 .f32) (ix2 0 q) = (V c main_v33 : S1x128.Idx → EReal) (ix2 0 q) := by
  obtain ⟨e00, e01, e10, e11, e20, e21, e30, e31, e40, e41, e50, e51, e60, e61, e70, e71⟩ := idx_facts t
  unfold iblk0
  rw [View.read_apply]
  show V c main_v33 _ = V c main_v33 _
  congr 1
  funext a
  apply Fin.ext
  match a with
  | ⟨0, _⟩ => show win0_3.index t (0 : Fin 2) * 1 + 1 * 0 = 0; rw [e30]
  | ⟨1, _⟩ => show win0_3.index t (1 : Fin 2) * 128 + 1 * q.val = q.val; rw [e31]; omega

/-- The rectifier's slope is read whole at every point. -/
theorem blk4_apply (c : Dev nD) (t : Fin cfg0.N) :
    (iblk0 V c 4 t : Vec Ideal S1x1 .f32) (ix2 0 0) = (V c main_v34 : S1x1.Idx → EReal) (ix2 0 0) := by
  obtain ⟨e00, e01, e10, e11, e20, e21, e30, e31, e40, e41, e50, e51, e60, e61, e70, e71⟩ := idx_facts t
  unfold iblk0
  rw [View.read_apply]
  show V c main_v34 _ = V c main_v34 _
  congr 1
  funext a
  apply Fin.ext
  match a with
  | ⟨0, _⟩ => show win0_4.index t (0 : Fin 2) * 1 + 1 * 0 = 0; rw [e40]
  | ⟨1, _⟩ => show win0_4.index t (1 : Fin 2) * 1 + 1 * 0 = 0; rw [e41]

/-- The layer's output at row `r`, column `q`, as a function of the arrays the region finds. -/
abbrev hAt (c : Dev nD) (r : Fin 50000) (q : Fin 128) : EReal :=
  convAt (V c main_v32) (V c main_v20) (V c main_arg4) (V c main_v33) (V c main_v34) r q

/-- The block the body computes at point `t` is rows `5000 t …` of the layer's output. -/
theorem pay4_blk (c : Dev nD) (t : Fin cfg0.N) (p : Fin 5000) (q : Fin 128) (hr : t.val * 5000 + p.val < 50000) :
    k0_pay4 (F := Ideal) (iblk0 V c 0 t) (iblk0 V c 1 t) (iblk0 V c 2 t) (iblk0 V c 3 t) (iblk0 V c 4 t) (ix2 p q) = hAt V c ⟨t.val * 5000 + p.val, hr⟩ q := by
  refine (pay4_apply (iblk0 V c 0 t) (iblk0 V c 1 t) (iblk0 V c 2 t) (iblk0 V c 3 t) (iblk0 V c 4 t) p q).trans ?_
  unfold hAt convAt
  rw [blk4_apply V c t, blk3_apply V c t q, blk1_apply V c t p hr]
  simp only [blk0_apply V c t p _ hr, blk2_apply V c t _ q]

/-- The column sums of block `t` of the layer's output, and of its squares (for every natural `t`: rows taken modulo
    the extent). -/
def S1 (c : Dev nD) (t : ℕ) (q : Fin 128) : EReal := ∑ p : Fin 5000, hAt V c (rowOf t p) q
def S2 (c : Dev nD) (t : ℕ) (q : Fin 128) : EReal := ∑ p : Fin 5000, hAt V c (rowOf t p) q * hAt V c (rowOf t p) q

theorem blk_sum1 (c : Dev nD) (t : Fin cfg0.N) (q : Fin 128) :
    ∑ p : Fin 5000, k0_pay4 (F := Ideal) (iblk0 V c 0 t) (iblk0 V c 1 t) (iblk0 V c 2 t) (iblk0 V c 3 t) (iblk0 V c 4 t) (ix2 p q) = S1 V c t.val q := by
  have hN : cfg0.N = 10 := N_0
  unfold S1
  refine Finset.sum_congr rfl fun p _ => ?_
  have hr : t.val * 5000 + p.val < 50000 := by have := t.isLt; have := p.isLt; omega
  rw [rowOf_eq t.val p hr]
  exact pay4_blk V c t p q hr

theorem blk_sum2 (c : Dev nD) (t : Fin cfg0.N) (q : Fin 128) :
    ∑ p : Fin 5000, k0_pay4 (F := Ideal) (iblk0 V c 0 t) (iblk0 V c 1 t) (iblk0 V c 2 t) (iblk0 V c 3 t) (iblk0 V c 4 t) (ix2 p q) * k0_pay4 (F := Ideal) (iblk0 V c 0 t) (iblk0 V c 1 t) (iblk0 V c 2 t) (iblk0 V c 3 t) (iblk0 V c 4 t) (ix2 p q) = S2 V c t.val q := by
  have hN : cfg0.N = 10 := N_0
  unfold S2
  refine Finset.sum_congr rfl fun p _ => ?_
  have hr : t.val * 5000 + p.val < 50000 := by have := t.isLt; have := p.isLt; omega
  rw [rowOf_eq t.val p hr, pay4_blk V c t p q hr]

/-- The three buffers after the first point: the block, and the block's column sums over cleared accumulators. -/
theorem outs_A (c : Dev nD) (t : Fin cfg0.N) (h0 : t.val % 10 = 0) :
    outsAt0 V c t.val t.isLt = (k0_pay4 (F := Ideal) (iblk0 V c 0 t) (iblk0 V c 1 t) (iblk0 V c 2 t) (iblk0 V c 3 t) (iblk0 V c 4 t), k0_pay5 (F := Ideal) (iblk0 V c 0 t) (iblk0 V c 1 t) (iblk0 V c 2 t) (iblk0 V c 3 t) (iblk0 V c 4 t) (k0_pay2 (F := Ideal)), k0_pay1 (F := Ideal) (k0_pay4 (iblk0 V c 0 t) (iblk0 V c 1 t) (iblk0 V c 2 t) (iblk0 V c 3 t) (iblk0 V c 4 t)) (k0_pay6 (k0_pay3 (F := Ideal)))) := by
  rw [outsAt0_A V c t h0, outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ (iblk0 V c 0 t) (iblk0 V c 1 t) (iblk0 V c 2 t) (iblk0 V c 3 t) (iblk0 V c 4 t), outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ (iblk0 V c 0 t) (iblk0 V c 1 t) (iblk0 V c 2 t) (iblk0 V c 3 t) (iblk0 V c 4 t), outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ (iblk0 V c 0 t) (iblk0 V c 1 t) (iblk0 V c 2 t) (iblk0 V c 3 t) (iblk0 V c 4 t)]

/-- The three buffers after a later point: the block, and the block's column sums over what the point before left. -/
theorem outs_B (c : Dev nD) (t : Fin cfg0.N) (h0 : ¬t.val % 10 = 0) :
    outsAt0 V c t.val t.isLt = (k0_pay4 (F := Ideal) (iblk0 V c 0 t) (iblk0 V c 1 t) (iblk0 V c 2 t) (iblk0 V c 3 t) (iblk0 V c 4 t), k0_pay5 (F := Ideal) (iblk0 V c 0 t) (iblk0 V c 1 t) (iblk0 V c 2 t) (iblk0 V c 3 t) (iblk0 V c 4 t) (outsAt0 V c (t.val - 1) (Nat.lt_of_le_of_lt (Nat.sub_le _ _) t.isLt)).2.1, k0_pay1 (F := Ideal) (k0_pay4 (iblk0 V c 0 t) (iblk0 V c 1 t) (iblk0 V c 2 t) (iblk0 V c 3 t) (iblk0 V c 4 t)) (k0_pay6 (outsAt0 V c (t.val - 1) (Nat.lt_of_le_of_lt (Nat.sub_le _ _) t.isLt)).2.2)) := by
  rw [outsAt0_B V c t h0, outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ (iblk0 V c 0 t) (iblk0 V c 1 t) (iblk0 V c 2 t) (iblk0 V c 3 t) (iblk0 V c 4 t) _ _, outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ (iblk0 V c 0 t) (iblk0 V c 1 t) (iblk0 V c 2 t) (iblk0 V c 3 t) (iblk0 V c 4 t) _ _, outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ (iblk0 V c 0 t) (iblk0 V c 1 t) (iblk0 V c 2 t) (iblk0 V c 3 t) (iblk0 V c 4 t) _ _]

/-- After every point the first buffer holds that point's block of the layer's output. -/
theorem out5_eq (c : Dev nD) (t : Fin cfg0.N) :
    (outsAt0 V c t.val t.isLt).1 = k0_pay4 (F := Ideal) (iblk0 V c 0 t) (iblk0 V c 1 t) (iblk0 V c 2 t) (iblk0 V c 3 t) (iblk0 V c 4 t) := by
  by_cases h0 : t.val % 10 = 0
  · rw [outs_A V c t h0]
  · rw [outs_B V c t h0]

/-- After point `n` the first accumulator holds the column sums of the first `n + 1` blocks. -/
theorem acc6 (c : Dev nD) : ∀ (n : ℕ) (hn : n < cfg0.N) (q : Fin 128),
    (outsAt0 V c n hn).2.1 (ix2 0 q) = ∑ t ∈ Finset.range (n + 1), S1 V c t q
  | 0, hn, q => by
    rw [outs_A V c ⟨0, hn⟩ rfl]
    show k0_pay5 (F := Ideal) (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) (ix2 0 q) = _
    rw [pay5_apply (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) q, pay2_apply, zero_add, Finset.sum_range_one]
    exact blk_sum1 V c ⟨0, hn⟩ q
  | n + 1, hn, q => by
    have hN : cfg0.N = 10 := N_0
    have hB : ¬(⟨n + 1, hn⟩ : Fin cfg0.N).val % 10 = 0 := by dsimp only; omega
    rw [outs_B V c ⟨n + 1, hn⟩ hB]
    show k0_pay5 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.1 (ix2 0 q) = _
    rw [pay5_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.1 q, acc6 c n (Nat.lt_of_succ_lt hn) q, Finset.sum_range_succ _ (n + 1)]
    exact congrArg (_ + ·) (blk_sum1 V c ⟨n + 1, hn⟩ q)

/-- After point `n` the second accumulator holds the column sums of squares of the first `n + 1` blocks. -/
theorem acc7 (c : Dev nD) : ∀ (n : ℕ) (hn : n < cfg0.N) (q : Fin 128),
    (outsAt0 V c n hn).2.2 (ix2 0 q) = ∑ t ∈ Finset.range (n + 1), S2 V c t q
  | 0, hn, q => by
    rw [outs_A V c ⟨0, hn⟩ rfl]
    show k0_pay1 (F := Ideal) (k0_pay4 (iblk0 V c 0 ⟨0, hn⟩) (iblk0 V c 1 ⟨0, hn⟩) (iblk0 V c 2 ⟨0, hn⟩) (iblk0 V c 3 ⟨0, hn⟩) (iblk0 V c 4 ⟨0, hn⟩)) (k0_pay6 (k0_pay3 (F := Ideal))) (ix2 0 q) = _
    rw [pay1_apply (k0_pay4 (iblk0 V c 0 ⟨0, hn⟩) (iblk0 V c 1 ⟨0, hn⟩) (iblk0 V c 2 ⟨0, hn⟩) (iblk0 V c 3 ⟨0, hn⟩) (iblk0 V c 4 ⟨0, hn⟩)) (k0_pay6 (k0_pay3 (F := Ideal))) q, pay6_eq, pay3_apply, zero_add, Finset.sum_range_one]
    exact blk_sum2 V c ⟨0, hn⟩ q
  | n + 1, hn, q => by
    have hN : cfg0.N = 10 := N_0
    have hB : ¬(⟨n + 1, hn⟩ : Fin cfg0.N).val % 10 = 0 := by dsimp only; omega
    rw [outs_B V c ⟨n + 1, hn⟩ hB]
    show k0_pay1 (F := Ideal) (k0_pay4 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)) (k0_pay6 (outsAt0 V c n (Nat.lt_of_succ_lt hn)).2.2) (ix2 0 q) = _
    rw [pay1_apply (k0_pay4 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)) (k0_pay6 (outsAt0 V c n (Nat.lt_of_succ_lt hn)).2.2) q, pay6_eq, acc7 c n (Nat.lt_of_succ_lt hn) q, Finset.sum_range_succ _ (n + 1)]
    exact congrArg (_ + ·) (blk_sum2 V c ⟨n + 1, hn⟩ q)

/-! ## The three result arrays -/

/-- What point `t` writes back of the layer's output is block `t` of the whole output. -/
theorem flushed5_eq (c : Dev nD) (t : Fin cfg0.N) :
    (dat0 (F := Ideal) V c).flushed 5 t = ((cfg0.win 5).blk t).view.read (Elt Ideal) (fun i : S50000x128.Idx => hAt V c (i 0) (i 1)) := by
  have hN : cfg0.N = 10 := N_0
  obtain ⟨e00, e01, e10, e11, e20, e21, e30, e31, e40, e41, e50, e51, e60, e61, e70, e71⟩ := idx_facts t
  show (cfg0.win 5).cut (grid0.coords t) ((dat0 (F := Ideal) V c).after 5 t) = _
  rw [after0_5, out5_eq V c t]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := t.isLt; have := p.isLt; omega
  rw [View.read_apply]
  have h0 : (((cfg0.win 5).blk t).view.emb (ix2 p q)) 0 = ⟨t.val * 5000 + p.val, hr⟩ :=
    Fin.ext (show win0_5.index t (0 : Fin 2) * 5000 + 1 * p.val = t.val * 5000 + p.val by rw [e50]; omega)
  have h1 : (((cfg0.win 5).blk t).view.emb (ix2 p q)) 1 = q :=
    Fin.ext (show win0_5.index t (1 : Fin 2) * 128 + 1 * q.val = q.val by rw [e51]; omega)
  show _ = hAt V c ((((cfg0.win 5).blk t).view.emb (ix2 p q)) 0) ((((cfg0.win 5).blk t).view.emb (ix2 p q)) 1)
  rw [h0, h1]
  exact pay4_blk V c t p q hr

theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v35_0).slice (win0_5.rect t)).set ↔ _
  rw [View.set_slice_whole, Rect.mem_set_unit]
  exact Iff.rfl

/-- Row `r` lies in the block of point `r / 5000`. -/
theorem cover5 (i : S50000x128.Idx) : ∃ t : Fin cfg0.N, (cfg0.win 5).flush t = true ∧ i ∈ ((cfg0.win 5).blk t).view.set := by
  have hN : cfg0.N = 10 := N_0
  have i0 : (i 0).val < 50000 := (i 0).isLt
  have i1 : (i 1).val < 128 := (i 1).isLt
  have ht : (i 0).val / 5000 < cfg0.N := by rw [hN]; omega
  obtain ⟨e00, e01, e10, e11, e20, e21, e30, e31, e40, e41, e50, e51, e60, e61, e70, e71⟩ := idx_facts ⟨(i 0).val / 5000, ht⟩
  refine ⟨⟨(i 0).val / 5000, ht⟩, flush0_5 _, ?_⟩
  rw [mem_blk5]
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; rw [e50]; dsimp only; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; rw [e51]; omega

/-- THE LAYER'S OUTPUT after the region: entry `(r, q)` is the rectified affine combination of row `r` of the scaled
    features with column `q` of the weights. -/
theorem final0_5 (c : Dev nD) : (dat0 (F := Ideal) V c).arrAt 5 cfg0.N
    = fun i : S50000x128.Idx => convAt (V c main_v32) (V c main_v20) (V c main_arg4) (V c main_v33) (V c main_v34) (i 0) (i 1) :=
  (dat0 (F := Ideal) V c).arrAt_eq_of_cover 5 _ (fun t _ => flushed5_eq V c t) cover5

/-- The sum over all the rows of column `q` of the layer's output, and of its squares. -/
def colSum (c : Dev nD) (q : Fin 128) : EReal := ∑ r : Fin 50000, hAt V c r q
def colSumSq (c : Dev nD) (q : Fin 128) : EReal := ∑ r : Fin 50000, hAt V c r q * hAt V c r q

/-- A function of the lane alone, read through the last point's block of this one-row array, is that function. -/
theorem read_row6 (t : Fin cfg0.N) (G : Fin 128 → EReal) (q : Fin 128) :
    ((cfg0.win 6).blk t).view.read (Elt Ideal) (fun j : S1x128.Idx => G (j 1)) (ix2 0 q) = G q := by
  obtain ⟨e00, e01, e10, e11, e20, e21, e30, e31, e40, e41, e50, e51, e60, e61, e70, e71⟩ := idx_facts t
  rw [View.read_apply]
  show G ((((cfg0.win 6).blk t).view.emb (ix2 0 q)) 1) = G q
  exact congrArg G (Fin.ext (show win0_6.index t (1 : Fin 2) * 128 + 1 * q.val = q.val by rw [e61]; omega))

/-- The one write-back of this accumulator, after the last point, writes the sums over all the rows. -/
theorem flushed6_eq (c : Dev nD) (t : Fin cfg0.N) (hf : (cfg0.win 6).flush t = true) :
    (dat0 (F := Ideal) V c).flushed 6 t = ((cfg0.win 6).blk t).view.read (Elt Ideal) (fun j : S1x128.Idx => colSum V c (j 1)) := by
  have hN : cfg0.N = 10 := N_0
  have h9 : t.val = 9 := by have := (flush0_6 t).mp hf; have := t.isLt; omega
  show (cfg0.win 6).cut (grid0.coords t) ((dat0 (F := Ideal) V c).after 6 t) = _
  rw [after0_6]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  refine ((acc6 V c t.val t.isLt q).trans ?_).trans (read_row6 t (colSum V c) q).symm
  rw [h9]
  exact sum_rows (fun r => hAt V c r q)

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v35_1).slice (win0_6.rect t)).set ↔ _
  rw [View.set_slice_whole, Rect.mem_set_unit]
  exact Iff.rfl

/-- The last point's block is the whole one-row array. -/
theorem cover6 (i : S1x128.Idx) : ∃ t : Fin cfg0.N, (cfg0.win 6).flush t = true ∧ i ∈ ((cfg0.win 6).blk t).view.set := by
  have hN : cfg0.N = 10 := N_0
  have h9 : 9 < cfg0.N := by rw [hN]; decide
  obtain ⟨e00, e01, e10, e11, e20, e21, e30, e31, e40, e41, e50, e51, e60, e61, e70, e71⟩ := idx_facts ⟨9, h9⟩
  refine ⟨⟨9, h9⟩, (flush0_6 _).mpr rfl, ?_⟩
  rw [mem_blk6]
  intro a
  have i0 : (i 0).val < 1 := (i 0).isLt
  have i1 : (i 1).val < 128 := (i 1).isLt
  match a with
  | ⟨0, _⟩ => show win0_6.index ⟨9, h9⟩ (0 : Fin 2) * 1 ≤ (i 0).val ∧ (i 0).val < win0_6.index ⟨9, h9⟩ (0 : Fin 2) * 1 + 1; rw [e60]; omega
  | ⟨1, _⟩ => show win0_6.index ⟨9, h9⟩ (1 : Fin 2) * 128 ≤ (i 1).val ∧ (i 1).val < win0_6.index ⟨9, h9⟩ (1 : Fin 2) * 128 + 128; rw [e61]; omega

/-- THE COLUMN SUMS of the layer's output after the region. -/
theorem final0_6 (c : Dev nD) : (dat0 (F := Ideal) V c).arrAt 6 cfg0.N
    = (fun j : S1x128.Idx => ∑ r : Fin 50000, convAt (V c main_v32) (V c main_v20) (V c main_arg4) (V c main_v33) (V c main_v34) r (j 1) : S1x128.Idx → EReal) :=
  (dat0 (F := Ideal) V c).arrAt_eq_of_cover 6 (fun j : S1x128.Idx => colSum V c (j 1)) (flushed6_eq V c) cover6

/-- A function of the lane alone, read through the last point's block of this one-row array, is that function. -/
theorem read_row7 (t : Fin cfg0.N) (G : Fin 128 → EReal) (q : Fin 128) :
    ((cfg0.win 7).blk t).view.read (Elt Ideal) (fun j : S1x128.Idx => G (j 1)) (ix2 0 q) = G q := by
  obtain ⟨e00, e01, e10, e11, e20, e21, e30, e31, e40, e41, e50, e51, e60, e61, e70, e71⟩ := idx_facts t
  rw [View.read_apply]
  show G ((((cfg0.win 7).blk t).view.emb (ix2 0 q)) 1) = G q
  exact congrArg G (Fin.ext (show win0_7.index t (1 : Fin 2) * 128 + 1 * q.val = q.val by rw [e71]; omega))

/-- The one write-back of this accumulator, after the last point, writes the sums over all the rows. -/
theorem flushed7_eq (c : Dev nD) (t : Fin cfg0.N) (hf : (cfg0.win 7).flush t = true) :
    (dat0 (F := Ideal) V c).flushed 7 t = ((cfg0.win 7).blk t).view.read (Elt Ideal) (fun j : S1x128.Idx => colSumSq V c (j 1)) := by
  have hN : cfg0.N = 10 := N_0
  have h9 : t.val = 9 := by have := (flush0_7 t).mp hf; have := t.isLt; omega
  show (cfg0.win 7).cut (grid0.coords t) ((dat0 (F := Ideal) V c).after 7 t) = _
  rw [after0_7]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  refine ((acc7 V c t.val t.isLt q).trans ?_).trans (read_row7 t (colSumSq V c) q).symm
  rw [h9]
  exact sum_rows (fun r => hAt V c r q * hAt V c r q)

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v35_2).slice (win0_7.rect t)).set ↔ _
  rw [View.set_slice_whole, Rect.mem_set_unit]
  exact Iff.rfl

/-- The last point's block is the whole one-row array. -/
theorem cover7 (i : S1x128.Idx) : ∃ t : Fin cfg0.N, (cfg0.win 7).flush t = true ∧ i ∈ ((cfg0.win 7).blk t).view.set := by
  have hN : cfg0.N = 10 := N_0
  have h9 : 9 < cfg0.N := by rw [hN]; decide
  obtain ⟨e00, e01, e10, e11, e20, e21, e30, e31, e40, e41, e50, e51, e60, e61, e70, e71⟩ := idx_facts ⟨9, h9⟩
  refine ⟨⟨9, h9⟩, (flush0_7 _).mpr rfl, ?_⟩
  rw [mem_blk7]
  intro a
  have i0 : (i 0).val < 1 := (i 0).isLt
  have i1 : (i 1).val < 128 := (i 1).isLt
  match a with
  | ⟨0, _⟩ => show win0_7.index ⟨9, h9⟩ (0 : Fin 2) * 1 ≤ (i 0).val ∧ (i 0).val < win0_7.index ⟨9, h9⟩ (0 : Fin 2) * 1 + 1; rw [e70]; omega
  | ⟨1, _⟩ => show win0_7.index ⟨9, h9⟩ (1 : Fin 2) * 128 ≤ (i 1).val ∧ (i 1).val < win0_7.index ⟨9, h9⟩ (1 : Fin 2) * 128 + 128; rw [e71]; omega

/-- THE COLUMN SUMS OF SQUARES of the layer's output after the region. -/
theorem final0_7 (c : Dev nD) : (dat0 (F := Ideal) V c).arrAt 7 cfg0.N
    = (fun j : S1x128.Idx => ∑ r : Fin 50000, convAt (V c main_v32) (V c main_v20) (V c main_arg4) (V c main_v33) (V c main_v34) r (j 1) * convAt (V c main_v32) (V c main_v20) (V c main_arg4) (V c main_v33) (V c main_v34) r (j 1) : S1x128.Idx → EReal) :=
  (dat0 (F := Ideal) V c).arrAt_eq_of_cover 7 (fun j : S1x128.Idx => colSumSq V c (j 1)) (flushed7_eq V c) cover7

end Value

end Cert.KernelIdeal.ConvValue0

end
-- ==== Proof.Glue2.lean ====
/-
  The first convolution region's results, in the reference's words.

  After the region the kernel program holds the layer's output `h` and, for each column, the sums of `h` and of `h²`
  over the 50000 rows, where `h (r, q) = prelu α (∑ k, (A (r, k) · nd r) · W (k, q) + b q)` is taken over the arrays the
  region reads. Those five arrays are, entry by entry, the reference's aggregated features, in-degree factor, weights,
  bias and slope; and the reference's convolution stage is the same law of them. So the three results are the
  reference's stage, its column sums and the column sums of its squares.
-/
import proofs.«147171_j25031069401693_2_alg».proof.Proof.Gen.KernelIdeal.Frame
import proofs.«147171_j25031069401693_2_alg».proof.Proof.RefReadP
import proofs.«147171_j25031069401693_2_alg».proof.Proof.RefRead
import proofs.«147171_j25031069401693_2_alg».proof.Proof.Spec
import proofs.«147171_j25031069401693_2_alg».proof.Proof.ConvValue0
import proofs.«147171_j25031069401693_2_alg».proof.Proof.Walk
import proofs.«147171_j25031069401693_2_alg».proof.Proof.Glue1

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx
open Cert.Bridge
open Cert.ReferenceIdeal.ReadP (val_main_v18 val_main_v31 val_main_v43)

/-- The convolution law depends on its five arrays only through their entries. -/
theorem convAt_congr {A A' : S50000x128.Idx → EReal} {nd nd' : S50000x1.Idx → EReal} {W W' : S128x128.Idx → EReal}
    {b b' : S1x128.Idx → EReal} {al al' : S1x1.Idx → EReal} (hA : A = A') (hn : nd = nd') (hW : W = W') (hb : b = b')
    (ha : al = al') (r : Fin 50000) (q : Fin 128) : convAt A nd W b al r q = convAt A' nd' W' b' al' r q := by
  subst hA hn hW hb ha; rfl

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)

/-- The convolution law over the arrays the first region reads is the reference's convolution stage, entry by entry. -/
theorem conv_v5 (r : Fin 50000) (q : Fin 128) :
    convAt (V5 m ρ c main_v32) (V5 m ρ c main_v20) (V5 m ρ c main_arg4) (V5 m ρ c main_v33) (V5 m ρ c main_v34) r q
      = val_main_v43 (F := Ideal) a0 a1 a2 a4 a5 a6 (ix2 r q) := by
  have e1 : (V5 m ρ c main_v20 : S50000x1.Idx → EReal) = fun j => val_main_v18 (F := Ideal) a2 (ix1 (j 0)) :=
    funext fun j => v5_v20_at m ρ c j
  have e3 : (V5 m ρ c main_v33 : S1x128.Idx → EReal) = fun j => (a5 : S128.Idx → EReal) (ix1 (j 1)) :=
    funext fun j => v5_v33_at m ρ c j
  have e4 : (V5 m ρ c main_v34 : S1x1.Idx → EReal) = fun _ => (a6 : S_.Idx → EReal) ix0 :=
    funext fun j => v5_v34_at m ρ c j
  exact (convAt_congr (v5_v32 m ρ c) e1 (v5_arg4 m ρ c) e3 e4 r q).trans
    (Cert.ReferenceIdeal.RefRead.v43_at a0 a1 a2 a4 a5 a6 r q).symm

/-- The layer's output after the first region is the reference's convolution stage. -/
theorem w6_v35_0 : (W6 m ρ c (Proc.devRef .tc main_v35_0) : S50000x128.Idx → EReal)
    = val_main_v43 (F := Ideal) a0 a1 a2 a4 a5 a6 := by
  rw [Walk.W6_v35_0 m ρ c, ConvValue0.final0_5 (V5 m ρ) c]
  funext i
  obtain ⟨p, q, rfl⟩ : ∃ (p : Fin 50000) (q : Fin 128), i = ix2 p q := ⟨i 0, i 1, eq_ix2 i⟩
  exact conv_v5 m ρ c p q

/-- Column by column, the sums of the law over the rows are the sums of the reference's stage. -/
theorem sum_conv_v5 (q : Fin 128) :
    (∑ r : Fin 50000, convAt (V5 m ρ c main_v32) (V5 m ρ c main_v20) (V5 m ρ c main_arg4) (V5 m ρ c main_v33) (V5 m ρ c main_v34) r q : EReal)
      = ∑ r : Fin 50000, val_main_v43 (F := Ideal) a0 a1 a2 a4 a5 a6 (ix2 r q) :=
  Finset.sum_congr rfl fun r _ => conv_v5 m ρ c r q

theorem sum_sq_conv_v5 (q : Fin 128) :
    (∑ r : Fin 50000, convAt (V5 m ρ c main_v32) (V5 m ρ c main_v20) (V5 m ρ c main_arg4) (V5 m ρ c main_v33) (V5 m ρ c main_v34) r q * convAt (V5 m ρ c main_v32) (V5 m ρ c main_v20) (V5 m ρ c main_arg4) (V5 m ρ c main_v33) (V5 m ρ c main_v34) r q : EReal)
      = ∑ r : Fin 50000, val_main_v43 (F := Ideal) a0 a1 a2 a4 a5 a6 (ix2 r q) * val_main_v43 (F := Ideal) a0 a1 a2 a4 a5 a6 (ix2 r q) :=
  Finset.sum_congr rfl fun r _ => by rw [conv_v5 m ρ c r q]

/-- The first accumulator after the first region: the column sums of the reference's convolution stage. -/
theorem w6_v35_1_at (q : Fin 128) : (W6 m ρ c (Proc.devRef .tc main_v35_1) : S1x128.Idx → EReal) (ix2 0 q)
    = (∑ r : Fin 50000, val_main_v43 (F := Ideal) a0 a1 a2 a4 a5 a6 (ix2 r q) : EReal) :=
  (congrFun ((Walk.W6_v35_1 m ρ c).trans (ConvValue0.final0_6 (V5 m ρ) c)) (ix2 0 q)).trans (sum_conv_v5 m ρ c q)

/-- The second accumulator after the first region: the column sums of the squares of the reference's convolution stage. -/
theorem w6_v35_2_at (q : Fin 128) : (W6 m ρ c (Proc.devRef .tc main_v35_2) : S1x128.Idx → EReal) (ix2 0 q)
    = (∑ r : Fin 50000, val_main_v43 (F := Ideal) a0 a1 a2 a4 a5 a6 (ix2 r q) * val_main_v43 (F := Ideal) a0 a1 a2 a4 a5 a6 (ix2 r q) : EReal) :=
  (congrFun ((Walk.W6_v35_2 m ρ c).trans (ConvValue0.final0_7 (V5 m ρ) c)) (ix2 0 q)).trans (sum_sq_conv_v5 m ρ c q)

end Cert.KernelIdeal.Glue

end
-- ==== Proof.Glue3.lean ====
/-
  The buffers the first normalisation region reads, in the reference's words.

  Between the first convolution region and the first normalisation region the kernel program turns the two column
  accumulators (the sums of h and of h² over the 50000 rows, h the convolution output) into the column statistics:
  mean = s / 50000, variance = max (ss / 50000 − mean · mean) 0, inverse standard deviation = rsqrt (variance + ε); and
  it reshapes the mean, the inverse standard deviation, the gain and the shift to rows and the slope to a 1 × 1 matrix.

  The reference computes the mean the same way, but the variance as the mean of the squared deviations
  (∑ (h − mean)²) / 50000. On finite data the two variances are the same number: the mean of squares minus the square
  of the mean is the mean squared deviation, and it is nonnegative, so the clamp at zero changes nothing. That identity
  of real numbers is the only place where the finiteness of the arguments is used: every entry of the convolution
  output is then a finite extended real.
-/
import proofs.«147171_j25031069401693_2_alg».proof.Proof.Gen.KernelIdeal.Frame
import proofs.«147171_j25031069401693_2_alg».proof.Proof.RefReadP
import proofs.«147171_j25031069401693_2_alg».proof.Proof.RefRead
import proofs.«147171_j25031069401693_2_alg».proof.Proof.RefFinite
import proofs.«147171_j25031069401693_2_alg».proof.Proof.ERealFacts
import proofs.«147171_j25031069401693_2_alg».proof.Proof.HostFinite
import proofs.«147171_j25031069401693_2_alg».proof.Proof.LayoutFacts
import proofs.«147171_j25031069401693_2_alg».proof.Proof.Walk
import proofs.«147171_j25031069401693_2_alg».proof.Proof.Glue1
import proofs.«147171_j25031069401693_2_alg».proof.Proof.Glue2
import Idealize.ShloMosaic.Lib.IdealHost
import Idealize.ShloMosaic.PureOps.Ideal
import Idealize.ShloMosaic.PureOps.Ideal.Laws

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v12 val_main_v43 val_main_v46 val_main_v53 val_main_v59)

local notation "N₅" => Ideal.ofBits .f32 0x47435000#32
local notation "ε₅" => Ideal.ofBits .f32 0x3727C5AC#32

/-! ### The one real argument: the two variances agree on finite data -/

/-- For finite data f over the 50000 rows, the inverse standard deviation from the moments,
    rsqrt (max (∑ f² / N − (∑ f / N)²) 0 + e), is the one from the squared deviations,
    rsqrt (∑ (f − ∑ f / N)² / N + e): the two variances are equal real numbers. -/
theorem invstd_eq (f : Fin 50000 → EReal) (hf : ∀ r, IsReal (f r)) (e : EReal) :
    Ideal.rsqrt (max (Ideal.div (∑ r, f r * f r) N₅ - Ideal.div (∑ r, f r) N₅ * Ideal.div (∑ r, f r) N₅) 0 + e)
      = Ideal.rsqrt (Ideal.div (∑ r, (f r - Ideal.div (∑ r, f r) N₅) * (f r - Ideal.div (∑ r, f r) N₅)) N₅ + e) := by
  rewrite [ofBits_50000]
  rewrite [variance_eq f hf 50000 (by simp) (by norm_num)]
  rfl

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)

/-! ### The statistics as the stretch computes them -/

/-- The column means: the first accumulator as a vector, divided by the count. -/
abbrev meanVec : S128.Idx → EReal :=
  Host.divf (shapeCast S128 (W6 m ρ c (Proc.devRef .tc main_v35_1) : S1x128.Idx → EReal) shapeCasts_S1x128_S128)
    (broadcastInDim S128 ![] bcast_S_S128 (constant (F := Ideal) S_ .f32 0x47435000#32))

/-- The column means of the squares: the second accumulator as a vector, divided by the count. -/
abbrev sqMeanVec : S128.Idx → EReal :=
  Host.divf (shapeCast S128 (W6 m ρ c (Proc.devRef .tc main_v35_2) : S1x128.Idx → EReal) shapeCasts_S1x128_S128)
    (broadcastInDim S128 ![] bcast_S_S128 (constant (F := Ideal) S_ .f32 0x47435000#32))

/-- The inverse standard deviations from the moments. -/
abbrev invstdVec : S128.Idx → EReal :=
  Host.rsqrt (addf (maximumf (subf (sqMeanVec m ρ c) (mulf (meanVec m ρ c) (meanVec m ρ c)))
      (broadcastInDim S128 ![] bcast_S_S128 (constant (F := Ideal) S_ .f32 0x00000000#32)))
    (broadcastInDim S128 ![] bcast_S_S128 (constant (F := Ideal) S_ .f32 0x3727C5AC#32)))

/-- A column mean is the column sum of the reference's convolution stage over the count. -/
theorem meanVec_at (j : S128.Idx) : meanVec m ρ c j
    = Ideal.div (∑ r : Fin 50000, val_main_v43 (F := Ideal) a0 a1 a2 a4 a5 a6 (ix2 r (j 0))) N₅ := by
  show Ideal.div (shapeCast S128 (W6 m ρ c (Proc.devRef .tc main_v35_1) : S1x128.Idx → EReal) shapeCasts_S1x128_S128 j)
    (broadcastInDim S128 ![] bcast_S_S128 (constant (F := Ideal) S_ .f32 0x47435000#32) j) = _
  rewrite [cast_unrow, broadcastInDim_scalar_apply, w6_v35_1_at m ρ c (j 0)]
  rfl

/-- A column mean of squares is the column sum of the squares of the reference's stage over the count. -/
theorem sqMeanVec_at (j : S128.Idx) : sqMeanVec m ρ c j
    = Ideal.div (∑ r : Fin 50000, val_main_v43 (F := Ideal) a0 a1 a2 a4 a5 a6 (ix2 r (j 0))
        * val_main_v43 (F := Ideal) a0 a1 a2 a4 a5 a6 (ix2 r (j 0))) N₅ := by
  show Ideal.div (shapeCast S128 (W6 m ρ c (Proc.devRef .tc main_v35_2) : S1x128.Idx → EReal) shapeCasts_S1x128_S128 j)
    (broadcastInDim S128 ![] bcast_S_S128 (constant (F := Ideal) S_ .f32 0x47435000#32) j) = _
  rewrite [cast_unrow, broadcastInDim_scalar_apply, w6_v35_2_at m ρ c (j 0)]
  rfl

/-- An inverse standard deviation, entry by entry: every operation of the chain is pointwise. -/
theorem invstdVec_at (j : S128.Idx) : invstdVec m ρ c j
    = Ideal.rsqrt (max (sqMeanVec m ρ c j - meanVec m ρ c j * meanVec m ρ c j) 0 + ε₅) := by
  show Ideal.rsqrt (max (sqMeanVec m ρ c j - meanVec m ρ c j * meanVec m ρ c j) (Ideal.ofBits .f32 0x00000000#32) + ε₅) = _
  rewrite [Ideal.ofBits_zero_f32]
  rfl

/-! ### The rows the region reads -/

/-- The mean row: the reference's column mean. -/
theorem v7_v49_at (j : S1x128.Idx) :
    (V7 m ρ c main_v49 : S1x128.Idx → EReal) j = val_main_v46 (F := Ideal) a0 a1 a2 a4 a5 a6 (ix1 (j 1)) := by
  have e : W7 m ρ c (Proc.devRef .tc main_v49) = shapeCast S1x128 (meanVec m ρ c) shapeCasts_S128_S1x128 := by
    show StableHlo.after hostOps1 (W6 m ρ c) _ = _
    read_fold
    rfl
  show W7 m ρ c (Proc.devRef .tc main_v49) j = _
  rewrite [e, cast_row, meanVec_at, Cert.ReferenceIdeal.RefRead.v46_at a0 a1 a2 a4 a5 a6 (j 1)]
  rfl

/-- The inverse-standard-deviation row: the reference's, by the agreement of the two variances on finite data. -/
theorem v7_v50_at (hx0 : ∀ i, IsReal ((a0 : S50000x128.Idx → EReal) i)) (hx4 : ∀ i, IsReal ((a4 : S128x128.Idx → EReal) i))
    (hx5 : ∀ i, IsReal ((a5 : S128.Idx → EReal) i)) (hx6 : ∀ i, IsReal ((a6 : S_.Idx → EReal) i)) (j : S1x128.Idx) :
    (V7 m ρ c main_v50 : S1x128.Idx → EReal) j = val_main_v59 (F := Ideal) a0 a1 a2 a4 a5 a6 (ix1 (j 1)) := by
  have e : W7 m ρ c (Proc.devRef .tc main_v50) = shapeCast S1x128 (invstdVec m ρ c) shapeCasts_S128_S1x128 := by
    show StableHlo.after hostOps1 (W6 m ρ c) _ = _
    read_fold
    rfl
  show W7 m ρ c (Proc.devRef .tc main_v50) j = _
  rewrite [e, cast_row, invstdVec_at, sqMeanVec_at, meanVec_at,
    Cert.ReferenceIdeal.RefRead.v59_at a0 a1 a2 a4 a5 a6 (j 1), Cert.ReferenceIdeal.RefRead.v53_at a0 a1 a2 a4 a5 a6 (j 1),
    Cert.ReferenceIdeal.RefRead.v46_at a0 a1 a2 a4 a5 a6 (j 1)]
  exact invstd_eq (fun r => val_main_v43 (F := Ideal) a0 a1 a2 a4 a5 a6 (ix2 r (j 1)))
    (fun r => Cert.ReferenceIdeal.Finite.isReal_v43 a1 a2 hx0 hx4 hx5 hx6 (ix2 r (j 1))) ε₅

/-- The gain row. -/
theorem v7_v51_at (j : S1x128.Idx) :
    (V7 m ρ c main_v51 : S1x128.Idx → EReal) j = (a7 : S128.Idx → EReal) (ix1 (j 1)) := by
  have e : W7 m ρ c (Proc.devRef .tc main_v51)
      = shapeCast S1x128 (W6 m ρ c (Proc.devRef .tc main_arg7) : S128.Idx → EReal) shapeCasts_S128_S1x128 := by
    show StableHlo.after hostOps1 (W6 m ρ c) _ = _
    read_fold
    rfl
  show W7 m ρ c (Proc.devRef .tc main_v51) j = _
  rewrite [e, Walk.W6_arg m ρ c main_arg7 (by decide)]
  exact cast_row _ _ j

/-- The shift row. -/
theorem v7_v52_at (j : S1x128.Idx) :
    (V7 m ρ c main_v52 : S1x128.Idx → EReal) j = (a8 : S128.Idx → EReal) (ix1 (j 1)) := by
  have e : W7 m ρ c (Proc.devRef .tc main_v52)
      = shapeCast S1x128 (W6 m ρ c (Proc.devRef .tc main_arg8) : S128.Idx → EReal) shapeCasts_S128_S1x128 := by
    show StableHlo.after hostOps1 (W6 m ρ c) _ = _
    read_fold
    rfl
  show W7 m ρ c (Proc.devRef .tc main_v52) j = _
  rewrite [e, Walk.W6_arg m ρ c main_arg8 (by decide)]
  exact cast_row _ _ j

/-- The slope as a 1 × 1 matrix. -/
theorem v7_v53_at (j : S1x1.Idx) :
    (V7 m ρ c main_v53 : S1x1.Idx → EReal) j = (a9 : S_.Idx → EReal) ix0 := by
  have e : W7 m ρ c (Proc.devRef .tc main_v53)
      = shapeCast S1x1 (W6 m ρ c (Proc.devRef .tc main_arg9) : S_.Idx → EReal) shapeCasts_S_S1x1 := by
    show StableHlo.after hostOps1 (W6 m ρ c) _ = _
    read_fold
    rfl
  show W7 m ρ c (Proc.devRef .tc main_v53) j = _
  rewrite [e, Walk.W6_arg m ρ c main_arg9 (by decide)]
  exact cast_scal _ _ j

/-- The features the region normalises: the reference's convolution stage, untouched by the stretch. -/
theorem v7_v35_0 : (V7 m ρ c main_v35_0 : S50000x128.Idx → EReal) = val_main_v43 (F := Ideal) a0 a1 a2 a4 a5 a6 :=
  (Walk.W7_v35_0 m ρ c).trans (w6_v35_0 m ρ c)

/-- The out-degree factor column, untouched since the first region's entry. -/
theorem v7_v19_at (j : S50000x1.Idx) :
    (V7 m ρ c main_v19 : S50000x1.Idx → EReal) j = val_main_v12 (F := Ideal) a1 (ix1 (j 0)) := by
  show W7 m ρ c (Proc.devRef .tc main_v19) j = _
  rewrite [Walk.W7_v19 m ρ c]
  exact v5_v19_at m ρ c j

end Cert.KernelIdeal.Glue

end
-- ==== Proof.Glue4.lean ====
/-
  The first normalisation region's results, in the reference's words.

  After the region the kernel program holds, entry by entry, the batch normalisation followed by the rectifier of the
  arrays the region read: the entry of the convolution output, centred by its column's mean, scaled by the column's
  inverse standard deviation and by the gain, shifted, rectified with the slope; and a second array, the same entries
  multiplied by the row's out-degree factor. The six arrays the region read are, entry by entry, the reference's
  convolution stage, its column mean, its inverse standard deviation, and the gain, shift and slope arguments; the
  reference's normalised stage is the same law of them. So the two results are the reference's layer output and that
  output scaled by the out-degree factor.
-/
import proofs.«147171_j25031069401693_2_alg».proof.Proof.Gen.KernelIdeal.Frame
import proofs.«147171_j25031069401693_2_alg».proof.Proof.RefReadP
import proofs.«147171_j25031069401693_2_alg».proof.Proof.RefRead
import proofs.«147171_j25031069401693_2_alg».proof.Proof.Spec
import proofs.«147171_j25031069401693_2_alg».proof.Proof.Walk
import proofs.«147171_j25031069401693_2_alg».proof.Proof.BnValue
import proofs.«147171_j25031069401693_2_alg».proof.Proof.Glue3

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v12 val_main_v43 val_main_v46 val_main_v59 val_main_v73 val_main_v79)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)

/-- The normalisation law over the arrays the region reads is the reference's layer output, entry by entry. -/
theorem bn_v7 (hx0 : ∀ i, IsReal ((a0 : S50000x128.Idx → EReal) i)) (hx4 : ∀ i, IsReal ((a4 : S128x128.Idx → EReal) i))
    (hx5 : ∀ i, IsReal ((a5 : S128.Idx → EReal) i)) (hx6 : ∀ i, IsReal ((a6 : S_.Idx → EReal) i))
    (p : Fin 50000) (q : Fin 128) :
    bnPrelu ((V7 m ρ c main_v35_0 : S50000x128.Idx → EReal) (ix2 p q))
        ((V7 m ρ c main_v49 : S1x128.Idx → EReal) (ix2 (0 : Fin 1) q))
        ((V7 m ρ c main_v50 : S1x128.Idx → EReal) (ix2 (0 : Fin 1) q))
        ((V7 m ρ c main_v51 : S1x128.Idx → EReal) (ix2 (0 : Fin 1) q))
        ((V7 m ρ c main_v52 : S1x128.Idx → EReal) (ix2 (0 : Fin 1) q))
        ((V7 m ρ c main_v53 : S1x1.Idx → EReal) (ix2 (0 : Fin 1) (0 : Fin 1)))
      = val_main_v73 (F := Ideal) a0 a1 a2 a4 a5 a6 a7 a8 a9 (ix2 p q) := by
  rewrite [Cert.ReferenceIdeal.RefRead.v73_at a0 a1 a2 a4 a5 a6 a7 a8 a9 p q]
  exact BnValue.bnPrelu_congr (congrFun (v7_v35_0 m ρ c) (ix2 p q)) (v7_v49_at m ρ c (ix2 (0 : Fin 1) q))
    (v7_v50_at m ρ c hx0 hx4 hx5 hx6 (ix2 (0 : Fin 1) q)) (v7_v51_at m ρ c (ix2 (0 : Fin 1) q))
    (v7_v52_at m ρ c (ix2 (0 : Fin 1) q)) (v7_v53_at m ρ c (ix2 (0 : Fin 1) (0 : Fin 1)))

/-- The region's first output: the reference's layer-0 output. -/
theorem w8_v54_0 (hx0 : ∀ i, IsReal ((a0 : S50000x128.Idx → EReal) i)) (hx4 : ∀ i, IsReal ((a4 : S128x128.Idx → EReal) i))
    (hx5 : ∀ i, IsReal ((a5 : S128.Idx → EReal) i)) (hx6 : ∀ i, IsReal ((a6 : S_.Idx → EReal) i)) :
    (W8 m ρ c (Proc.devRef .tc main_v54_0) : S50000x128.Idx → EReal)
    = val_main_v73 (F := Ideal) a0 a1 a2 a4 a5 a6 a7 a8 a9 := by
  rewrite [Walk.W8_v54_0 m ρ c, BnValue.final1_7 (V7 m ρ) c]
  funext i
  obtain ⟨p, q, rfl⟩ : ∃ (p : Fin 50000) (q : Fin 128), i = ix2 p q := ⟨i 0, i 1, eq_ix2 i⟩
  exact bn_v7 m ρ c hx0 hx4 hx5 hx6 p q

/-- The region's second output: the reference's layer-0 output scaled by the row's out-degree factor. -/
theorem w8_v54_1 (hx0 : ∀ i, IsReal ((a0 : S50000x128.Idx → EReal) i)) (hx4 : ∀ i, IsReal ((a4 : S128x128.Idx → EReal) i))
    (hx5 : ∀ i, IsReal ((a5 : S128.Idx → EReal) i)) (hx6 : ∀ i, IsReal ((a6 : S_.Idx → EReal) i)) :
    (W8 m ρ c (Proc.devRef .tc main_v54_1) : S50000x128.Idx → EReal)
    = val_main_v79 (F := Ideal) a0 a1 a2 a4 a5 a6 a7 a8 a9 := by
  rewrite [Walk.W8_v54_1 m ρ c, BnValue.final1_8 (V7 m ρ) c]
  funext i
  obtain ⟨p, q, rfl⟩ : ∃ (p : Fin 50000) (q : Fin 128), i = ix2 p q := ⟨i 0, i 1, eq_ix2 i⟩
  rewrite [Cert.ReferenceIdeal.RefRead.v79_at a0 a1 a2 a4 a5 a6 a7 a8 a9 p q]
  exact congrArg₂ (· * ·) (bn_v7 m ρ c hx0 hx4 hx5 hx6 p q) (v7_v19_at m ρ c (ix2 p (0 : Fin 1)))

end Cert.KernelIdeal.Glue

end
-- ==== Proof.Glue5.lean ====
/-
  The buffers the second convolution region reads, and the first segment sum, in the reference's words.

  Between the two layers both programs do the same host computation on the first layer's output: its rows are
  scatter-added by graph id (the first segment sum), and its rows scaled by the out-degree factor are gathered along
  the edges' sources (a negative index wrapped around) and scatter-added at the edges' targets. The kernel program then
  reshapes the second bias to a row and the second slope to a `1 × 1` matrix, where the reference broadcasts; read at
  an index these are the same numbers. The in-degree factor and the second weights are carried over unchanged.
-/
import proofs.«147171_j25031069401693_2_alg».proof.Proof.Gen.KernelIdeal.Frame
import proofs.«147171_j25031069401693_2_alg».proof.Proof.RefReadP
import proofs.«147171_j25031069401693_2_alg».proof.Proof.Spec
import proofs.«147171_j25031069401693_2_alg».proof.Proof.LayoutFacts
import proofs.«147171_j25031069401693_2_alg».proof.Proof.Walk
import proofs.«147171_j25031069401693_2_alg».proof.Proof.Glue1
import Idealize.ShloMosaic.PureOps.Ideal
import Idealize.ShloMosaic.PureOps.Ideal.Laws

set_option maxRecDepth 16384
set_option quotPrecheck false

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v12 val_main_v18 val_main_v31 val_main_v43 val_main_v46 val_main_v53 val_main_v59
  val_main_v73 val_main_v76 val_main_v79 val_main_v89 val_main_v101 val_main_v104 val_main_v111 val_main_v117 val_main_v131
  val_main_v134 val_main_v135)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)

/-- The first segment sum: the first layer's output scatter-added by graph id. -/
theorem w9_v57 (h73 : W8 m ρ c (Proc.devRef .tc main_v54_0) = val_main_v73 (F := Ideal) a0 a1 a2 a4 a5 a6 a7 a8 a9) :
    W9 m ρ c (Proc.devRef .tc main_v57) = val_main_v76 (F := Ideal) a0 a1 a2 a3 a4 a5 a6 a7 a8 a9 := by
  show StableHlo.after hostOps2 (W8 m ρ c) _ = _
  read_fold
  rw [Walk.W8_arg m ρ c main_arg3 (by decide), h73]
  rfl

/-- The aggregated, source-scaled features the second region reads: the first layer's scaled output gathered along
    the edges' sources and scatter-added at the edges' targets. -/
theorem w9_v67 (h79 : W8 m ρ c (Proc.devRef .tc main_v54_1) = val_main_v79 (F := Ideal) a0 a1 a2 a4 a5 a6 a7 a8 a9) :
    W9 m ρ c (Proc.devRef .tc main_v67) = val_main_v89 (F := Ideal) a0 a1 a2 a4 a5 a6 a7 a8 a9 := by
  show StableHlo.after hostOps2 (W8 m ρ c) _ = _
  read_fold
  rw [Walk.W8_arg m ρ c main_arg1 (by decide), Walk.W8_arg m ρ c main_arg2 (by decide), h79]
  rfl

/-- The second bias as a row, the second slope as a `1 × 1` matrix. -/
theorem v9_v68_at (j : S1x128.Idx) : (V9 m ρ c main_v68 : S1x128.Idx → EReal) j = (a11 : S128.Idx → EReal) (ix1 (j 1)) := by
  have e : W9 m ρ c (Proc.devRef .tc main_v68) = shapeCast S1x128 (a11 : S128.Idx → EReal) shapeCasts_S128_S1x128 := by
    show StableHlo.after hostOps2 (W8 m ρ c) _ = _
    read_fold
    rw [Walk.W8_arg m ρ c main_arg11 (by decide)]
    rfl
  show W9 m ρ c (Proc.devRef .tc main_v68) j = _
  rw [e]; exact cast_row _ _ j

theorem v9_v69_at (j : S1x1.Idx) : (V9 m ρ c main_v69 : S1x1.Idx → EReal) j = (a12 : S_.Idx → EReal) ix0 := by
  have e : W9 m ρ c (Proc.devRef .tc main_v69) = shapeCast S1x1 (a12 : S_.Idx → EReal) shapeCasts_S_S1x1 := by
    show StableHlo.after hostOps2 (W8 m ρ c) _ = _
    read_fold
    rw [Walk.W8_arg m ρ c main_arg12 (by decide)]
    rfl
  show W9 m ρ c (Proc.devRef .tc main_v69) j = _
  rw [e]; exact cast_scal _ _ j

/-- The second weights are the argument itself. -/
theorem v9_arg10 : (V9 m ρ c main_arg10 : S128x128.Idx → EReal) = a10 :=
  Walk.W9_arg m ρ c main_arg10 (by decide)

/-- The in-degree factor is carried over from the first region's entry: the reference's vector as a column. -/
theorem v9_v20_at (j : S50000x1.Idx) :
    (V9 m ρ c main_v20 : S50000x1.Idx → EReal) j = val_main_v18 (F := Ideal) a2 (ix1 (j 0)) := by
  show W9 m ρ c (Proc.devRef .tc main_v20) j = _
  rw [Walk.W9_v20]; exact v5_v20_at m ρ c j

end Cert.KernelIdeal.Glue

end
-- ==== Proof.RefRead1.lean ====
/-
  The reference program's second layer read at an index, in the vocabulary of the two pointwise laws.

  The second layer repeats the first on the first layer's output: the convolution's entry `(p, q)` is the rectified sum
  over `k` of `(aggregate (p, k) · in-degree factor p) · weight (k, q)` plus the bias `q` (`convAt`, with the second
  layer's weights, bias and slope); the column mean is the column sum over the 50000 rows divided by 50000; the variance
  the mean of the squared deviations; the normalised, rectified entry is `bnPrelu` of the entry and its column's
  statistics, with the second layer's gain, shift and slope.
-/
import proofs.«147171_j25031069401693_2_alg».proof.Proof.RefReadP
import proofs.«147171_j25031069401693_2_alg».proof.Proof.Spec

noncomputable section

namespace Cert.ReferenceIdeal.RefRead1

open Cert.ReferenceIdeal Cert.ReferenceIdeal.ReadP Cert.Bridge
open Idealize.ShloMosaic Idealize.ShloMosaic.ValueIdx

set_option quotPrecheck false in
local notation "𝔸" => (⟨S50000x128, .f32⟩ : BufTy).Contents (Elt Ideal)
set_option quotPrecheck false in
local notation "𝕀" => (⟨S600000, .i32⟩ : BufTy).Contents (Elt Ideal)
set_option quotPrecheck false in
local notation "𝕎" => (⟨S128x128, .f32⟩ : BufTy).Contents (Elt Ideal)
set_option quotPrecheck false in
local notation "𝕍" => (⟨S128, .f32⟩ : BufTy).Contents (Elt Ideal)
set_option quotPrecheck false in
local notation "𝕊" => (⟨S_, .f32⟩ : BufTy).Contents (Elt Ideal)

/-- Layer 1 before the rectifier, at entry `(p, q)`: the contraction of the degree-scaled aggregate's row `p` with
    the weights' column `q`, plus the bias. -/
theorem v96_at (x0 : 𝔸) (x1 x2 : 𝕀) (x4 : 𝕎) (x5 : 𝕍) (x6 : 𝕊) (x7 x8 : 𝕍) (x9 : 𝕊) (x10 : 𝕎) (x11 : 𝕍) (p : Fin 50000) (q : Fin 128) :
    val_main_v96 (F := Ideal) x0 x1 x2 x4 x5 x6 x7 x8 x9 x10 x11 (ix2 p q)
      = (∑ k : Fin 128, (val_main_v89 (F := Ideal) x0 x1 x2 x4 x5 x6 x7 x8 x9 (ix2 p k) * val_main_v18 (F := Ideal) x2 (ix1 p)) * x10 (ix2 k q))
        + x11 (ix1 q) := by
  rw [val_main_v96_apply, val_main_v93_apply, val_main_v95_apply, val_main_v94_apply]
  show _ + _ = _ + _
  refine congrArg₂ (· + ·) ?_ ?_
  · refine Finset.sum_congr rfl fun k _ => ?_
    rw [val_main_v92_apply, val_main_v91_apply, val_main_v90_apply]
    have e1 : lidx_main_v93 (ix2 p q) k = ix2 p k := funext fun a => Fin.ext (by match a with | ⟨0, _⟩ => rfl | ⟨1, _⟩ => rfl)
    have e2 : ridx_main_v93 (ix2 p q) k = ix2 k q := funext fun a => Fin.ext (by match a with | ⟨0, _⟩ => rfl | ⟨1, _⟩ => rfl)
    have e3 : idx_main_v90 (idx_main_v91 (ix2 p k)) = ix1 p := funext fun a => Fin.ext (by match a with | ⟨0, _⟩ => rfl)
    rw [e1, e2, e3]
    rfl
  · have e4 : idx_main_v94 (idx_main_v95 (ix2 p q)) = ix1 q := funext fun a => Fin.ext (by match a with | ⟨0, _⟩ => rfl)
    rw [e4]

/-- Layer 1's convolution output is the convolution law at every entry. -/
theorem v101_at (x0 : 𝔸) (x1 x2 : 𝕀) (x4 : 𝕎) (x5 : 𝕍) (x6 : 𝕊) (x7 x8 : 𝕍) (x9 : 𝕊) (x10 : 𝕎) (x11 : 𝕍) (x12 : 𝕊) (p : Fin 50000) (q : Fin 128) :
    val_main_v101 (F := Ideal) x0 x1 x2 x4 x5 x6 x7 x8 x9 x10 x11 x12 (ix2 p q)
      = convAt (val_main_v89 (F := Ideal) x0 x1 x2 x4 x5 x6 x7 x8 x9) (fun j => val_main_v18 (F := Ideal) x2 (ix1 (j 0))) x10
          (fun j => x11 (ix1 (j 1))) (fun _ => x12 ix0) p q := by
  rw [val_main_v101_apply, val_main_v98_apply, val_main_v100_apply, val_main_v99_apply, val_main_v97_apply,
    val_main_cst_21_apply, v96_at]
  have e5 : idx_main_v99 (ix2 p q) = ix0 := funext fun a => a.elim0
  rw [e5]
  unfold convAt prelu
  show Scalar.select (Ideal.cmp .oge _ (Ideal.ofBits .f32 0x00000000#32)) _ _ = _
  rw [Ideal.ofBits_zero_f32]
  rfl

set_option quotPrecheck false in
local notation "N₅" => Ideal.ofBits .f32 0x47435000#32
set_option quotPrecheck false in
local notation "ε₅" => Ideal.ofBits .f32 0x3727C5AC#32

/-- Layer 1's column mean: the column's sum over the 50000 rows, divided by 50000. -/
theorem v104_at (x0 : 𝔸) (x1 x2 : 𝕀) (x4 : 𝕎) (x5 : 𝕍) (x6 : 𝕊) (x7 x8 : 𝕍) (x9 : 𝕊) (x10 : 𝕎) (x11 : 𝕍) (x12 : 𝕊) (q : Fin 128) :
    val_main_v104 (F := Ideal) x0 x1 x2 x4 x5 x6 x7 x8 x9 x10 x11 x12 (ix1 q)
      = Ideal.div (∑ r : Fin 50000, val_main_v101 (F := Ideal) x0 x1 x2 x4 x5 x6 x7 x8 x9 x10 x11 x12 (ix2 r q)) N₅ := by
  rw [val_main_v104_apply, val_main_v102_apply, val_main_v103_apply, val_main_cst_23_apply, val_main_cst_22_apply]
  show Ideal.div (Ideal.ofBits .f32 0x00000000#32 + _) _ = _
  rw [Ideal.ofBits_zero_f32, zero_add]
  refine congrArg (fun s => Ideal.div s N₅) (Finset.sum_congr rfl fun k _ => ?_)
  exact congrArg _ (funext fun a => Fin.ext (by match a with | ⟨0, _⟩ => rfl | ⟨1, _⟩ => rfl))

/-- Layer 1's column variance: the mean of the squared deviations from the column mean. -/
theorem v111_at (x0 : 𝔸) (x1 x2 : 𝕀) (x4 : 𝕎) (x5 : 𝕍) (x6 : 𝕊) (x7 x8 : 𝕍) (x9 : 𝕊) (x10 : 𝕎) (x11 : 𝕍) (x12 : 𝕊) (q : Fin 128) :
    val_main_v111 (F := Ideal) x0 x1 x2 x4 x5 x6 x7 x8 x9 x10 x11 x12 (ix1 q)
      = Ideal.div (∑ r : Fin 50000,
          (val_main_v101 (F := Ideal) x0 x1 x2 x4 x5 x6 x7 x8 x9 x10 x11 x12 (ix2 r q) - val_main_v104 (F := Ideal) x0 x1 x2 x4 x5 x6 x7 x8 x9 x10 x11 x12 (ix1 q))
          * (val_main_v101 (F := Ideal) x0 x1 x2 x4 x5 x6 x7 x8 x9 x10 x11 x12 (ix2 r q) - val_main_v104 (F := Ideal) x0 x1 x2 x4 x5 x6 x7 x8 x9 x10 x11 x12 (ix1 q))) N₅ := by
  rw [val_main_v111_apply, val_main_v109_apply, val_main_v110_apply, val_main_cst_25_apply, val_main_cst_24_apply]
  show Ideal.div (Ideal.ofBits .f32 0x00000000#32 + _) _ = _
  rw [Ideal.ofBits_zero_f32, zero_add]
  refine congrArg (fun s => Ideal.div s N₅) (Finset.sum_congr rfl fun k _ => ?_)
  rw [val_main_v108_apply, val_main_v107_apply, val_main_v106_apply, val_main_v105_apply]
  have e1 : idx_main_v109 (ix1 q) k = ix2 k q := funext fun a => Fin.ext (by match a with | ⟨0, _⟩ => rfl | ⟨1, _⟩ => rfl)
  have e2 : idx_main_v105 (idx_main_v106 (ix2 k q)) = ix1 q := funext fun a => Fin.ext (by match a with | ⟨0, _⟩ => rfl)
  rw [e1, e2]
  rfl

/-- Layer 1's inverse standard deviation. -/
theorem v117_at (x0 : 𝔸) (x1 x2 : 𝕀) (x4 : 𝕎) (x5 : 𝕍) (x6 : 𝕊) (x7 x8 : 𝕍) (x9 : 𝕊) (x10 : 𝕎) (x11 : 𝕍) (x12 : 𝕊) (q : Fin 128) :
    val_main_v117 (F := Ideal) x0 x1 x2 x4 x5 x6 x7 x8 x9 x10 x11 x12 (ix1 q)
      = Ideal.rsqrt (val_main_v111 (F := Ideal) x0 x1 x2 x4 x5 x6 x7 x8 x9 x10 x11 x12 (ix1 q) + ε₅) := by
  rw [val_main_v117_apply, val_main_v116_apply, val_main_v115_apply, val_main_cst_26_apply]
  rfl

/-- Layer 1's output: the normalisation law at every entry, with the column's mean and inverse standard deviation. -/
theorem v131_at (x0 : 𝔸) (x1 x2 : 𝕀) (x4 : 𝕎) (x5 : 𝕍) (x6 : 𝕊) (x7 x8 : 𝕍) (x9 : 𝕊) (x10 : 𝕎) (x11 : 𝕍) (x12 : 𝕊) (x13 x14 : 𝕍) (x15 : 𝕊) (p : Fin 50000) (q : Fin 128) :
    val_main_v131 (F := Ideal) x0 x1 x2 x4 x5 x6 x7 x8 x9 x10 x11 x12 x13 x14 x15 (ix2 p q)
      = bnPrelu (val_main_v101 (F := Ideal) x0 x1 x2 x4 x5 x6 x7 x8 x9 x10 x11 x12 (ix2 p q)) (val_main_v104 (F := Ideal) x0 x1 x2 x4 x5 x6 x7 x8 x9 x10 x11 x12 (ix1 q))
          (val_main_v117 (F := Ideal) x0 x1 x2 x4 x5 x6 x7 x8 x9 x10 x11 x12 (ix1 q)) (x13 (ix1 q)) (x14 (ix1 q)) (x15 ix0) := by
  rw [val_main_v131_apply, val_main_v128_apply, val_main_v130_apply, val_main_v129_apply, val_main_v127_apply,
    val_main_cst_27_apply, val_main_v126_apply, val_main_v123_apply, val_main_v120_apply, val_main_v114_apply,
    val_main_v113_apply, val_main_v112_apply, val_main_v119_apply, val_main_v118_apply, val_main_v122_apply, val_main_v121_apply,
    val_main_v125_apply, val_main_v124_apply]
  have e1 : idx_main_v112 (idx_main_v113 (ix2 p q)) = ix1 q := funext fun a => Fin.ext (by match a with | ⟨0, _⟩ => rfl)
  have e2 : idx_main_v118 (idx_main_v119 (ix2 p q)) = ix1 q := funext fun a => Fin.ext (by match a with | ⟨0, _⟩ => rfl)
  have e3 : idx_main_v121 (idx_main_v122 (ix2 p q)) = ix1 q := funext fun a => Fin.ext (by match a with | ⟨0, _⟩ => rfl)
  have e4 : idx_main_v124 (idx_main_v125 (ix2 p q)) = ix1 q := funext fun a => Fin.ext (by match a with | ⟨0, _⟩ => rfl)
  have e5 : idx_main_v129 (ix2 p q) = ix0 := funext fun a => a.elim0
  rw [e1, e2, e3, e4, e5]
  unfold bnPrelu prelu
  show Scalar.select (Ideal.cmp .oge _ (Ideal.ofBits .f32 0x00000000#32)) _ _ = _
  rw [Ideal.ofBits_zero_f32]
  rfl

end Cert.ReferenceIdeal.RefRead1

end
-- ==== Proof.ConvValue2.lean ====
/-
  The second convolution layer with its column statistics, read off the blocked program.

  The region walks ten blocks of 5000 rows. At each block it computes the block of
      h = prelu α ((A ⊙ nd) W + b)
  (rows of the aggregated features scaled by the row's degree factor, times the weights, plus the bias, rectified),
  stores it, and adds the block's column sums of h and of h² onto two one-row accumulators that the first block
  clears. So after the ten blocks the three result arrays are: h itself, entry by entry; for each column, the sum of
  h over all 50000 rows; for each column, the sum of h² over all 50000 rows.

  The steps: each layout operation and the block product read at an entry; what each control case leaves in each
  buffer, namely the value its last whole-block store wrote; those values at an entry, as sums and products of
  extended reals; each window's block at a point as rows of its array; by induction over the points, the
  accumulators after point n hold the column sums of the first n + 1 blocks; ten blocks of 5000 rows regrouped into
  the 50000 rows; and the written-back blocks cover each result array.
-/
import proofs.«147171_j25031069401693_2_alg».proof.Proof.Gen.KernelIdeal.Frame
import proofs.«147171_j25031069401693_2_alg».proof.Proof.Spec
import proofs.«147171_j25031069401693_2_alg».proof.Proof.ERealFacts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open Cert.Bridge

namespace Cert.KernelIdeal.ConvValue2

open Cert.KernelIdeal Cert.KernelIdeal.Gen

/-! ## Layout operations of the body, read at an entry -/

theorem hz : (![0, 0] : Fin 2 → Nat) = fun _ => 0 := funext fun a => by fin_cases a <;> rfl

/-- A column `[5000, 1]` broadcast along the lanes reads, at `(p, q)`, the column's entry at row `p`. -/
theorem bcast_col (x : S5000x1.Idx → EReal) (h : S5000x1.Broadcasts S5000x128) (p : Fin 5000) (q : Fin 128) :
    broadcastTo S5000x128 x h (ix2 p q) = x (ix2 p 0) := by
  refine broadcastTo_apply x h (ix2 p q) (ix2 p 0) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- A single entry `[1, 1]` broadcast to the block reads that entry everywhere. -/
theorem bcast_one (x : S1x1.Idx → EReal) (h : S1x1.Broadcasts S5000x128) (p : Fin 5000) (q : Fin 128) :
    broadcastTo S5000x128 x h (ix2 p q) = x (ix2 0 0) := by
  refine broadcastTo_apply x h (ix2 p q) (ix2 0 0) fun ax => ?_
  match ax with
  | ⟨0, _⟩ => show (0 : Nat) = if (1 : Nat) = 1 then 0 else p.val; rw [if_pos rfl]
  | ⟨1, _⟩ => show (0 : Nat) = if (1 : Nat) = 1 then 0 else q.val; rw [if_pos rfl]

theorem lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at `(p, q)`: row `p` of the left factor against column `q` of the
    right one, summed over the 128 contracted positions. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The index the row reduction sums at: lane `q` with row `k` put back. -/
theorem lift_col (q : Fin 128) (k : Fin 5000) : reduces_S5000x128_S128.lift (ix1 q) k = ix2 k q := by
  funext a
  apply Fin.ext
  match a with
  | ⟨0, _⟩ => rfl
  | ⟨1, _⟩ => rfl

/-- The sum over the rows of a block, stored as a one-row vector: at lane `q` it is `∑ p, v (p, q)`. -/
theorem colsum_apply (v : FVec Ideal S5000x128 .f32) (hφ : FKind.Formats .f32)
    (hacc : (0x00000000#32 : BitVec 32) = 0x00000000#32) (q : Fin 128) :
    shapeCast S1x128 (multiReduction (F := Ideal) .add [0] S128 v 0x00000000#32 reduces_S5000x128_S128 hφ hacc) shapeCasts_S128_S1x128 (ix2 0 q)
      = ∑ p : Fin 5000, v (ix2 p q) := by
  refine (shapeCast_a_1a_apply _ _ 0 q).trans ?_
  refine (Ideal.multiReduction_add_single v 0x00000000#32 reduces_S5000x128_S128 hφ hacc (ix1 q)).trans ?_
  exact Finset.sum_congr rfl fun k _ => congrArg v (lift_col q k)

/-- Row `p` of block `t` as a row of the whole array (taken modulo the extent, so that it is defined for every `t`). -/
def rowOf (t : ℕ) (p : Fin 5000) : Fin 50000 := ⟨(t * 5000 + p.val) % 50000, Nat.mod_lt _ (by decide)⟩

theorem rowOf_eq (t : ℕ) (p : Fin 5000) (h : t * 5000 + p.val < 50000) : rowOf t p = ⟨t * 5000 + p.val, h⟩ :=
  Fin.ext (Nat.mod_eq_of_lt h)

/-- Ten blocks of 5000 rows are the 50000 rows. -/
theorem sum_rows {M : Type*} [AddCommMonoid M] (f : Fin 50000 → M) :
    ∑ t ∈ Finset.range 10, ∑ p : Fin 5000, f (rowOf t p) = ∑ r : Fin 50000, f r := by
  rw [Finset.sum_range]
  exact sum_blocks 10 5000 (fun t p => f (rowOf t.val p)) f (fun t p hk => congrArg f (rowOf_eq t.val p hk))

/-! ## What each control case leaves in the three output buffers

At the first grid point the body first clears the two accumulators; at every point it stores the block of the layer's
output, and adds the block's column sums (of the entries, of their squares) onto the accumulators. Each buffer is
covered by its last whole-block store, so what it holds is that store's payload; a load of an accumulator after the
clearing store reads the cleared value. -/

section Pieces
variable {F : FTy → Type} [FloatOps F]

theorem outA5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S5000x128 .f32) (x1 : Vec F S5000x1 .f32) (x2 : Vec F S128x128 .f32) (x3 : Vec F S1x128 .f32) (x4 : Vec F S1x1 .f32) :
    out2_A_5 c i arg1 harg1 arg2 harg2 arg3 harg3 arg4 harg4 arg5 harg5 arg6 harg6 arg7 harg7 arg8 harg8 hc0 x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outA6 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S5000x128 .f32) (x1 : Vec F S5000x1 .f32) (x2 : Vec F S128x128 .f32) (x3 : Vec F S1x128 .f32) (x4 : Vec F S1x1 .f32) :
    out2_A_6 c i arg1 harg1 arg2 harg2 arg3 harg3 arg4 harg4 arg5 harg5 arg6 harg6 arg7 harg7 arg8 harg8 hc0 x0 x1 x2 x3 x4 = k2_pay5 x0 x1 x2 x3 x4 k2_pay2 := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outA7 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S5000x128 .f32) (x1 : Vec F S5000x1 .f32) (x2 : Vec F S128x128 .f32) (x3 : Vec F S1x128 .f32) (x4 : Vec F S1x1 .f32) :
    out2_A_7 c i arg1 harg1 arg2 harg2 arg3 harg3 arg4 harg4 arg5 harg5 arg6 harg6 arg7 harg7 arg8 harg8 hc0 x0 x1 x2 x3 x4 = k2_pay1 (k2_pay4 x0 x1 x2 x3 x4) (k2_pay6 k2_pay3) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outB5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S5000x128 .f32) (x1 : Vec F S5000x1 .f32) (x2 : Vec F S128x128 .f32) (x3 : Vec F S1x128 .f32) (x4 : Vec F S1x1 .f32) (xo6 : Vec F S1x128 .f32) (xo7 : Vec F S1x128 .f32) :
    out2_B_5 c i arg1 harg1 arg2 harg2 arg3 harg3 arg4 harg4 arg5 harg5 arg6 harg6 arg7 harg7 arg8 harg8 hc0 x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outB6 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S5000x128 .f32) (x1 : Vec F S5000x1 .f32) (x2 : Vec F S128x128 .f32) (x3 : Vec F S1x128 .f32) (x4 : Vec F S1x1 .f32) (xo6 : Vec F S1x128 .f32) (xo7 : Vec F S1x128 .f32) :
    out2_B_6 c i arg1 harg1 arg2 harg2 arg3 harg3 arg4 harg4 arg5 harg5 arg6 harg6 arg7 harg7 arg8 harg8 hc0 x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

theorem outB7 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S5000x128 .f32) (x1 : Vec F S5000x1 .f32) (x2 : Vec F S128x128 .f32) (x3 : Vec F S1x128 .f32) (x4 : Vec F S1x1 .f32) (xo6 : Vec F S1x128 .f32) (xo7 : Vec F S1x128 .f32) :
    out2_B_7 c i arg1 harg1 arg2 harg2 arg3 harg3 arg4 harg4 arg5 harg5 arg6 harg6 arg7 harg7 arg8 harg8 hc0 x0 x1 x2 x3 x4 xo6 xo7 = k2_pay1 (k2_pay4 x0 x1 x2 x3 x4) (k2_pay6 xo7) := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S5000x1) hz, View.ld_unit_zero (S := S128x128) hz, View.ld_unit_zero (S := S1x128) hz, View.ld_unit_zero (S := S1x1) hz]

end Pieces

/-! ## The body's arithmetic at an entry -/

/-- The block of the layer's output: at `(p, q)` the rectified affine combination of row `p` of the scaled features
    with column `q` of the weights. -/
theorem pay4_apply (x0 : Vec Ideal S5000x128 .f32) (x1 : Vec Ideal S5000x1 .f32) (x2 : Vec Ideal S128x128 .f32) (x3 : Vec Ideal S1x128 .f32) (x4 : Vec Ideal S1x1 .f32) (p : Fin 5000) (q : Fin 128) :
    k2_pay4 (F := Ideal) x0 x1 x2 x3 x4 (ix2 p q)
      = prelu (x4 (ix2 0 0)) ((∑ k : Fin 128, (x0 (ix2 p k) * x1 (ix2 p 0)) * x2 (ix2 k q)) + x3 (ix2 0 q)) := by
  unfold k2_pay4
  simp only [shapeCast_self]
  rw [select_apply, cmpf_apply, mulf_apply, addf_apply, broadcast_apply, mm_apply, broadcastTo_1b_ab_apply, bcast_one]
  simp only [truncf_apply, mulf_apply, bcast_col]
  unfold prelu
  rw [show (FloatOps.ofBits FTy.f32 0x00000000#32 : Ideal .f32) = 0 from Ideal.ofBits_zero_f32]
  rfl

/-- The running column sum after a block: what was there plus the block's column sums. -/
theorem pay5_apply (x0 : Vec Ideal S5000x128 .f32) (x1 : Vec Ideal S5000x1 .f32) (x2 : Vec Ideal S128x128 .f32) (x3 : Vec Ideal S1x128 .f32) (x4 : Vec Ideal S1x1 .f32) (v25 : Vec Ideal S1x128 .f32) (q : Fin 128) :
    k2_pay5 (F := Ideal) x0 x1 x2 x3 x4 v25 (ix2 0 q) = v25 (ix2 0 q) + ∑ p : Fin 5000, k2_pay4 (F := Ideal) x0 x1 x2 x3 x4 (ix2 p q) := by
  unfold k2_pay5
  simp only [shapeCast_self]
  rw [addf_apply]
  exact congrArg (v25 (ix2 0 q) + ·) (colsum_apply (k2_pay4 (F := Ideal) x0 x1 x2 x3 x4) _ _ q)

/-- The running column sum of squares after a block. -/
theorem pay1_apply (v23 : FVec Ideal S5000x128 .f32) (v32 : FVec Ideal S1x128 .f32) (q : Fin 128) :
    k2_pay1 (F := Ideal) v23 v32 (ix2 0 q) = v32 (ix2 0 q) + ∑ p : Fin 5000, v23 (ix2 p q) * v23 (ix2 p q) := by
  unfold k2_pay1
  rw [addf_apply]
  exact congrArg (v32 (ix2 0 q) + ·) (colsum_apply (mulf v23 v23) _ _ q)

theorem pay2_apply (q : Fin 128) : k2_pay2 (F := Ideal) (ix2 0 q) = 0 := by
  unfold k2_pay2
  exact Ideal.ofBits_zero_f32

theorem pay3_apply (q : Fin 128) : k2_pay3 (F := Ideal) (ix2 0 q) = 0 := by
  unfold k2_pay3
  exact Ideal.ofBits_zero_f32

theorem pay6_eq (v31 : Vec Ideal S1x128 .f32) : k2_pay6 (F := Ideal) v31 = v31 := by
  unfold k2_pay6
  exact shapeCast_self _ _

/-! ## From the blocks to the arrays

The grid has ten points; point `t` sees rows `5000 t … 5000 t + 4999` of the row-blocked arrays and the whole of the
resident ones. -/

section Value
variable (V : (c : Dev nD) → (b : Ref sig .tc) → Buf (Elt Ideal) ((c : Thread nD τ).loc b))

/-- The windows' index maps, decided over the grid: a row-blocked window's block index is `(t, 0)`, a resident
    window's `(0, 0)`. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-- Row `p` of the features' block at point `t` is row `5000 t + p` of the features. -/
theorem blk0_apply (c : Dev nD) (t : Fin cfg2.N) (p : Fin 5000) (k : Fin 128) (hr : t.val * 5000 + p.val < 50000) :
    (iblk2 V c 0 t : Vec Ideal S5000x128 .f32) (ix2 p k) = (V c main_v67 : S50000x128.Idx → EReal) (ix2 ⟨t.val * 5000 + p.val, hr⟩ k) := by
  obtain ⟨e00, e01, e10, e11, e20, e21, e30, e31, e40, e41, e50, e51, e60, e61, e70, e71⟩ := idx_facts t
  unfold iblk2
  rw [View.read_apply]
  show V c main_v67 _ = V c main_v67 _
  congr 1
  funext a
  apply Fin.ext
  match a with
  | ⟨0, _⟩ => show win2_0.index t (0 : Fin 2) * 5000 + 1 * p.val = t.val * 5000 + p.val; rw [e00]; omega
  | ⟨1, _⟩ => show win2_0.index t (1 : Fin 2) * 128 + 1 * k.val = k.val; rw [e01]; omega

/-- Row `p` of the degree factors' block at point `t` is row `5000 t + p` of the factors. -/
theorem blk1_apply (c : Dev nD) (t : Fin cfg2.N) (p : Fin 5000) (hr : t.val * 5000 + p.val < 50000) :
    (iblk2 V c 1 t : Vec Ideal S5000x1 .f32) (ix2 p 0) = (V c main_v20 : S50000x1.Idx → EReal) (ix2 ⟨t.val * 5000 + p.val, hr⟩ 0) := by
  obtain ⟨e00, e01, e10, e11, e20, e21, e30, e31, e40, e41, e50, e51, e60, e61, e70, e71⟩ := idx_facts t
  unfold iblk2
  rw [View.read_apply]
  show V c main_v20 _ = V c main_v20 _
  congr 1
  funext a
  apply Fin.ext
  match a with
  | ⟨0, _⟩ => show win2_1.index t (0 : Fin 2) * 5000 + 1 * p.val = t.val * 5000 + p.val; rw [e10]; omega
  | ⟨1, _⟩ => show win2_1.index t (1 : Fin 2) * 1 + 1 * 0 = 0; rw [e11]

/-- The weights are read whole at every point. -/
theorem blk2_apply (c : Dev nD) (t : Fin cfg2.N) (k : Fin 128) (q : Fin 128) :
    (iblk2 V c 2 t : Vec Ideal S128x128 .f32) (ix2 k q) = (V c main_arg10 : S128x128.Idx → EReal) (ix2 k q) := by
  obtain ⟨e00, e01, e10, e11, e20, e21, e30, e31, e40, e41, e50, e51, e60, e61, e70, e71⟩ := idx_facts t
  unfold iblk2
  rw [View.read_apply]
  show V c main_arg10 _ = V c main_arg10 _
  congr 1
  funext a
  apply Fin.ext
  match a with
  | ⟨0, _⟩ => show win2_2.index t (0 : Fin 2) * 128 + 1 * k.val = k.val; rw [e20]; omega
  | ⟨1, _⟩ => show win2_2.index t (1 : Fin 2) * 128 + 1 * q.val = q.val; rw [e21]; omega

/-- The bias is read whole at every point. -/
theorem blk3_apply (c : Dev nD) (t : Fin cfg2.N) (q : Fin 128) :
    (iblk2 V c 3 t : Vec Ideal S1x128 .f32) (ix2 0 q) = (V c main_v68 : S1x128.Idx → EReal) (ix2 0 q) := by
  obtain ⟨e00, e01, e10, e11, e20, e21, e30, e31, e40, e41, e50, e51, e60, e61, e70, e71⟩ := idx_facts t
  unfold iblk2
  rw [View.read_apply]
  show V c main_v68 _ = V c main_v68 _
  congr 1
  funext a
  apply Fin.ext
  match a with
  | ⟨0, _⟩ => show win2_3.index t (0 : Fin 2) * 1 + 1 * 0 = 0; rw [e30]
  | ⟨1, _⟩ => show win2_3.index t (1 : Fin 2) * 128 + 1 * q.val = q.val; rw [e31]; omega

/-- The rectifier's slope is read whole at every point. -/
theorem blk4_apply (c : Dev nD) (t : Fin cfg2.N) :
    (iblk2 V c 4 t : Vec Ideal S1x1 .f32) (ix2 0 0) = (V c main_v69 : S1x1.Idx → EReal) (ix2 0 0) := by
  obtain ⟨e00, e01, e10, e11, e20, e21, e30, e31, e40, e41, e50, e51, e60, e61, e70, e71⟩ := idx_facts t
  unfold iblk2
  rw [View.read_apply]
  show V c main_v69 _ = V c main_v69 _
  congr 1
  funext a
  apply Fin.ext
  match a with
  | ⟨0, _⟩ => show win2_4.index t (0 : Fin 2) * 1 + 1 * 0 = 0; rw [e40]
  | ⟨1, _⟩ => show win2_4.index t (1 : Fin 2) * 1 + 1 * 0 = 0; rw [e41]

/-- The layer's output at row `r`, column `q`, as a function of the arrays the region finds. -/
abbrev hAt (c : Dev nD) (r : Fin 50000) (q : Fin 128) : EReal :=
  convAt (V c main_v67) (V c main_v20) (V c main_arg10) (V c main_v68) (V c main_v69) r q

/-- The block the body computes at point `t` is rows `5000 t …` of the layer's output. -/
theorem pay4_blk (c : Dev nD) (t : Fin cfg2.N) (p : Fin 5000) (q : Fin 128) (hr : t.val * 5000 + p.val < 50000) :
    k2_pay4 (F := Ideal) (iblk2 V c 0 t) (iblk2 V c 1 t) (iblk2 V c 2 t) (iblk2 V c 3 t) (iblk2 V c 4 t) (ix2 p q) = hAt V c ⟨t.val * 5000 + p.val, hr⟩ q := by
  refine (pay4_apply (iblk2 V c 0 t) (iblk2 V c 1 t) (iblk2 V c 2 t) (iblk2 V c 3 t) (iblk2 V c 4 t) p q).trans ?_
  unfold hAt convAt
  rw [blk4_apply V c t, blk3_apply V c t q, blk1_apply V c t p hr]
  simp only [blk0_apply V c t p _ hr, blk2_apply V c t _ q]

/-- The column sums of block `t` of the layer's output, and of its squares (for every natural `t`: rows taken modulo
    the extent). -/
def S1 (c : Dev nD) (t : ℕ) (q : Fin 128) : EReal := ∑ p : Fin 5000, hAt V c (rowOf t p) q
def S2 (c : Dev nD) (t : ℕ) (q : Fin 128) : EReal := ∑ p : Fin 5000, hAt V c (rowOf t p) q * hAt V c (rowOf t p) q

theorem blk_sum1 (c : Dev nD) (t : Fin cfg2.N) (q : Fin 128) :
    ∑ p : Fin 5000, k2_pay4 (F := Ideal) (iblk2 V c 0 t) (iblk2 V c 1 t) (iblk2 V c 2 t) (iblk2 V c 3 t) (iblk2 V c 4 t) (ix2 p q) = S1 V c t.val q := by
  have hN : cfg2.N = 10 := N_2
  unfold S1
  refine Finset.sum_congr rfl fun p _ => ?_
  have hr : t.val * 5000 + p.val < 50000 := by have := t.isLt; have := p.isLt; omega
  rw [rowOf_eq t.val p hr]
  exact pay4_blk V c t p q hr

theorem blk_sum2 (c : Dev nD) (t : Fin cfg2.N) (q : Fin 128) :
    ∑ p : Fin 5000, k2_pay4 (F := Ideal) (iblk2 V c 0 t) (iblk2 V c 1 t) (iblk2 V c 2 t) (iblk2 V c 3 t) (iblk2 V c 4 t) (ix2 p q) * k2_pay4 (F := Ideal) (iblk2 V c 0 t) (iblk2 V c 1 t) (iblk2 V c 2 t) (iblk2 V c 3 t) (iblk2 V c 4 t) (ix2 p q) = S2 V c t.val q := by
  have hN : cfg2.N = 10 := N_2
  unfold S2
  refine Finset.sum_congr rfl fun p _ => ?_
  have hr : t.val * 5000 + p.val < 50000 := by have := t.isLt; have := p.isLt; omega
  rw [rowOf_eq t.val p hr, pay4_blk V c t p q hr]

/-- The three buffers after the first point: the block, and the block's column sums over cleared accumulators. -/
theorem outs_A (c : Dev nD) (t : Fin cfg2.N) (h0 : t.val % 10 = 0) :
    outsAt2 V c t.val t.isLt = (k2_pay4 (F := Ideal) (iblk2 V c 0 t) (iblk2 V c 1 t) (iblk2 V c 2 t) (iblk2 V c 3 t) (iblk2 V c 4 t), k2_pay5 (F := Ideal) (iblk2 V c 0 t) (iblk2 V c 1 t) (iblk2 V c 2 t) (iblk2 V c 3 t) (iblk2 V c 4 t) (k2_pay2 (F := Ideal)), k2_pay1 (F := Ideal) (k2_pay4 (iblk2 V c 0 t) (iblk2 V c 1 t) (iblk2 V c 2 t) (iblk2 V c 3 t) (iblk2 V c 4 t)) (k2_pay6 (k2_pay3 (F := Ideal)))) := by
  rw [outsAt2_A V c t h0, outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) _ (iblk2 V c 0 t) (iblk2 V c 1 t) (iblk2 V c 2 t) (iblk2 V c 3 t) (iblk2 V c 4 t), outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) _ (iblk2 V c 0 t) (iblk2 V c 1 t) (iblk2 V c 2 t) (iblk2 V c 3 t) (iblk2 V c 4 t), outA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) _ (iblk2 V c 0 t) (iblk2 V c 1 t) (iblk2 V c 2 t) (iblk2 V c 3 t) (iblk2 V c 4 t)]

/-- The three buffers after a later point: the block, and the block's column sums over what the point before left. -/
theorem outs_B (c : Dev nD) (t : Fin cfg2.N) (h0 : ¬t.val % 10 = 0) :
    outsAt2 V c t.val t.isLt = (k2_pay4 (F := Ideal) (iblk2 V c 0 t) (iblk2 V c 1 t) (iblk2 V c 2 t) (iblk2 V c 3 t) (iblk2 V c 4 t), k2_pay5 (F := Ideal) (iblk2 V c 0 t) (iblk2 V c 1 t) (iblk2 V c 2 t) (iblk2 V c 3 t) (iblk2 V c 4 t) (outsAt2 V c (t.val - 1) (Nat.lt_of_le_of_lt (Nat.sub_le _ _) t.isLt)).2.1, k2_pay1 (F := Ideal) (k2_pay4 (iblk2 V c 0 t) (iblk2 V c 1 t) (iblk2 V c 2 t) (iblk2 V c 3 t) (iblk2 V c 4 t)) (k2_pay6 (outsAt2 V c (t.val - 1) (Nat.lt_of_le_of_lt (Nat.sub_le _ _) t.isLt)).2.2)) := by
  rw [outsAt2_B V c t h0, outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) _ (iblk2 V c 0 t) (iblk2 V c 1 t) (iblk2 V c 2 t) (iblk2 V c 3 t) (iblk2 V c 4 t) _ _, outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) _ (iblk2 V c 0 t) (iblk2 V c 1 t) (iblk2 V c 2 t) (iblk2 V c 3 t) (iblk2 V c 4 t) _ _, outB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) _ (iblk2 V c 0 t) (iblk2 V c 1 t) (iblk2 V c 2 t) (iblk2 V c 3 t) (iblk2 V c 4 t) _ _]

/-- After every point the first buffer holds that point's block of the layer's output. -/
theorem out5_eq (c : Dev nD) (t : Fin cfg2.N) :
    (outsAt2 V c t.val t.isLt).1 = k2_pay4 (F := Ideal) (iblk2 V c 0 t) (iblk2 V c 1 t) (iblk2 V c 2 t) (iblk2 V c 3 t) (iblk2 V c 4 t) := by
  by_cases h0 : t.val % 10 = 0
  · rw [outs_A V c t h0]
  · rw [outs_B V c t h0]

/-- After point `n` the first accumulator holds the column sums of the first `n + 1` blocks. -/
theorem acc6 (c : Dev nD) : ∀ (n : ℕ) (hn : n < cfg2.N) (q : Fin 128),
    (outsAt2 V c n hn).2.1 (ix2 0 q) = ∑ t ∈ Finset.range (n + 1), S1 V c t q
  | 0, hn, q => by
    rw [outs_A V c ⟨0, hn⟩ rfl]
    show k2_pay5 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := Ideal)) (ix2 0 q) = _
    rw [pay5_apply (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := Ideal)) q, pay2_apply, zero_add, Finset.sum_range_one]
    exact blk_sum1 V c ⟨0, hn⟩ q
  | n + 1, hn, q => by
    have hN : cfg2.N = 10 := N_2
    have hB : ¬(⟨n + 1, hn⟩ : Fin cfg2.N).val % 10 = 0 := by dsimp only; omega
    rw [outs_B V c ⟨n + 1, hn⟩ hB]
    show k2_pay5 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 (ix2 0 q) = _
    rw [pay5_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 q, acc6 c n (Nat.lt_of_succ_lt hn) q, Finset.sum_range_succ _ (n + 1)]
    exact congrArg (_ + ·) (blk_sum1 V c ⟨n + 1, hn⟩ q)

/-- After point `n` the second accumulator holds the column sums of squares of the first `n + 1` blocks. -/
theorem acc7 (c : Dev nD) : ∀ (n : ℕ) (hn : n < cfg2.N) (q : Fin 128),
    (outsAt2 V c n hn).2.2 (ix2 0 q) = ∑ t ∈ Finset.range (n + 1), S2 V c t q
  | 0, hn, q => by
    rw [outs_A V c ⟨0, hn⟩ rfl]
    show k2_pay1 (F := Ideal) (k2_pay4 (iblk2 V c 0 ⟨0, hn⟩) (iblk2 V c 1 ⟨0, hn⟩) (iblk2 V c 2 ⟨0, hn⟩) (iblk2 V c 3 ⟨0, hn⟩) (iblk2 V c 4 ⟨0, hn⟩)) (k2_pay6 (k2_pay3 (F := Ideal))) (ix2 0 q) = _
    rw [pay1_apply (k2_pay4 (iblk2 V c 0 ⟨0, hn⟩) (iblk2 V c 1 ⟨0, hn⟩) (iblk2 V c 2 ⟨0, hn⟩) (iblk2 V c 3 ⟨0, hn⟩) (iblk2 V c 4 ⟨0, hn⟩)) (k2_pay6 (k2_pay3 (F := Ideal))) q, pay6_eq, pay3_apply, zero_add, Finset.sum_range_one]
    exact blk_sum2 V c ⟨0, hn⟩ q
  | n + 1, hn, q => by
    have hN : cfg2.N = 10 := N_2
    have hB : ¬(⟨n + 1, hn⟩ : Fin cfg2.N).val % 10 = 0 := by dsimp only; omega
    rw [outs_B V c ⟨n + 1, hn⟩ hB]
    show k2_pay1 (F := Ideal) (k2_pay4 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)) (k2_pay6 (outsAt2 V c n (Nat.lt_of_succ_lt hn)).2.2) (ix2 0 q) = _
    rw [pay1_apply (k2_pay4 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)) (k2_pay6 (outsAt2 V c n (Nat.lt_of_succ_lt hn)).2.2) q, pay6_eq, acc7 c n (Nat.lt_of_succ_lt hn) q, Finset.sum_range_succ _ (n + 1)]
    exact congrArg (_ + ·) (blk_sum2 V c ⟨n + 1, hn⟩ q)

/-! ## The three result arrays -/

/-- What point `t` writes back of the layer's output is block `t` of the whole output. -/
theorem flushed5_eq (c : Dev nD) (t : Fin cfg2.N) :
    (dat2 (F := Ideal) V c).flushed 5 t = ((cfg2.win 5).blk t).view.read (Elt Ideal) (fun i : S50000x128.Idx => hAt V c (i 0) (i 1)) := by
  have hN : cfg2.N = 10 := N_2
  obtain ⟨e00, e01, e10, e11, e20, e21, e30, e31, e40, e41, e50, e51, e60, e61, e70, e71⟩ := idx_facts t
  show (cfg2.win 5).cut (grid2.coords t) ((dat2 (F := Ideal) V c).after 5 t) = _
  rw [after2_5, out5_eq V c t]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := t.isLt; have := p.isLt; omega
  rw [View.read_apply]
  have h0 : (((cfg2.win 5).blk t).view.emb (ix2 p q)) 0 = ⟨t.val * 5000 + p.val, hr⟩ :=
    Fin.ext (show win2_5.index t (0 : Fin 2) * 5000 + 1 * p.val = t.val * 5000 + p.val by rw [e50]; omega)
  have h1 : (((cfg2.win 5).blk t).view.emb (ix2 p q)) 1 = q :=
    Fin.ext (show win2_5.index t (1 : Fin 2) * 128 + 1 * q.val = q.val by rw [e51]; omega)
  show _ = hAt V c ((((cfg2.win 5).blk t).view.emb (ix2 p q)) 0) ((((cfg2.win 5).blk t).view.emb (ix2 p q)) 1)
  rw [h0, h1]
  exact pay4_blk V c t p q hr

theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v70_0).slice (win2_5.rect t)).set ↔ _
  rw [View.set_slice_whole, Rect.mem_set_unit]
  exact Iff.rfl

/-- Row `r` lies in the block of point `r / 5000`. -/
theorem cover5 (i : S50000x128.Idx) : ∃ t : Fin cfg2.N, (cfg2.win 5).flush t = true ∧ i ∈ ((cfg2.win 5).blk t).view.set := by
  have hN : cfg2.N = 10 := N_2
  have i0 : (i 0).val < 50000 := (i 0).isLt
  have i1 : (i 1).val < 128 := (i 1).isLt
  have ht : (i 0).val / 5000 < cfg2.N := by rw [hN]; omega
  obtain ⟨e00, e01, e10, e11, e20, e21, e30, e31, e40, e41, e50, e51, e60, e61, e70, e71⟩ := idx_facts ⟨(i 0).val / 5000, ht⟩
  refine ⟨⟨(i 0).val / 5000, ht⟩, flush2_5 _, ?_⟩
  rw [mem_blk5]
  intro a
  match a with
  | ⟨0, _⟩ => show win2_5.index ⟨(i 0).val / 5000, ht⟩ (0 : Fin 2) * 5000 ≤ (i 0).val ∧ (i 0).val < win2_5.index ⟨(i 0).val / 5000, ht⟩ (0 : Fin 2) * 5000 + 5000; rw [e50]; dsimp only; omega
  | ⟨1, _⟩ => show win2_5.index ⟨(i 0).val / 5000, ht⟩ (1 : Fin 2) * 128 ≤ (i 1).val ∧ (i 1).val < win2_5.index ⟨(i 0).val / 5000, ht⟩ (1 : Fin 2) * 128 + 128; rw [e51]; omega

/-- THE LAYER'S OUTPUT after the region: entry `(r, q)` is the rectified affine combination of row `r` of the scaled
    features with column `q` of the weights. -/
theorem final2_5 (c : Dev nD) : (dat2 (F := Ideal) V c).arrAt 5 cfg2.N
    = fun i : S50000x128.Idx => convAt (V c main_v67) (V c main_v20) (V c main_arg10) (V c main_v68) (V c main_v69) (i 0) (i 1) :=
  (dat2 (F := Ideal) V c).arrAt_eq_of_cover 5 _ (fun t _ => flushed5_eq V c t) cover5

/-- The sum over all the rows of column `q` of the layer's output, and of its squares. -/
def colSum (c : Dev nD) (q : Fin 128) : EReal := ∑ r : Fin 50000, hAt V c r q
def colSumSq (c : Dev nD) (q : Fin 128) : EReal := ∑ r : Fin 50000, hAt V c r q * hAt V c r q

/-- A function of the lane alone, read through the last point's block of this one-row array, is that function. -/
theorem read_row6 (t : Fin cfg2.N) (G : Fin 128 → EReal) (q : Fin 128) :
    ((cfg2.win 6).blk t).view.read (Elt Ideal) (fun j : S1x128.Idx => G (j 1)) (ix2 0 q) = G q := by
  obtain ⟨e00, e01, e10, e11, e20, e21, e30, e31, e40, e41, e50, e51, e60, e61, e70, e71⟩ := idx_facts t
  rw [View.read_apply]
  show G ((((cfg2.win 6).blk t).view.emb (ix2 0 q)) 1) = G q
  exact congrArg G (Fin.ext (show win2_6.index t (1 : Fin 2) * 128 + 1 * q.val = q.val by rw [e61]; omega))

/-- The one write-back of this accumulator, after the last point, writes the sums over all the rows. -/
theorem flushed6_eq (c : Dev nD) (t : Fin cfg2.N) (hf : (cfg2.win 6).flush t = true) :
    (dat2 (F := Ideal) V c).flushed 6 t = ((cfg2.win 6).blk t).view.read (Elt Ideal) (fun j : S1x128.Idx => colSum V c (j 1)) := by
  have hN : cfg2.N = 10 := N_2
  have h9 : t.val = 9 := by have := (flush2_6 t).mp hf; have := t.isLt; omega
  show (cfg2.win 6).cut (grid2.coords t) ((dat2 (F := Ideal) V c).after 6 t) = _
  rw [after2_6]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  refine ((acc6 V c t.val t.isLt q).trans ?_).trans (read_row6 t (colSum V c) q).symm
  rw [h9]
  exact sum_rows (fun r => hAt V c r q)

theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v70_1).slice (win2_6.rect t)).set ↔ _
  rw [View.set_slice_whole, Rect.mem_set_unit]
  exact Iff.rfl

/-- The last point's block is the whole one-row array. -/
theorem cover6 (i : S1x128.Idx) : ∃ t : Fin cfg2.N, (cfg2.win 6).flush t = true ∧ i ∈ ((cfg2.win 6).blk t).view.set := by
  have hN : cfg2.N = 10 := N_2
  have h9 : 9 < cfg2.N := by rw [hN]; decide
  obtain ⟨e00, e01, e10, e11, e20, e21, e30, e31, e40, e41, e50, e51, e60, e61, e70, e71⟩ := idx_facts ⟨9, h9⟩
  refine ⟨⟨9, h9⟩, (flush2_6 _).mpr rfl, ?_⟩
  rw [mem_blk6]
  intro a
  have i0 : (i 0).val < 1 := (i 0).isLt
  have i1 : (i 1).val < 128 := (i 1).isLt
  match a with
  | ⟨0, _⟩ => show win2_6.index ⟨9, h9⟩ (0 : Fin 2) * 1 ≤ (i 0).val ∧ (i 0).val < win2_6.index ⟨9, h9⟩ (0 : Fin 2) * 1 + 1; rw [e60]; omega
  | ⟨1, _⟩ => show win2_6.index ⟨9, h9⟩ (1 : Fin 2) * 128 ≤ (i 1).val ∧ (i 1).val < win2_6.index ⟨9, h9⟩ (1 : Fin 2) * 128 + 128; rw [e61]; omega

/-- THE COLUMN SUMS of the layer's output after the region. -/
theorem final2_6 (c : Dev nD) : (dat2 (F := Ideal) V c).arrAt 6 cfg2.N
    = (fun j : S1x128.Idx => ∑ r : Fin 50000, convAt (V c main_v67) (V c main_v20) (V c main_arg10) (V c main_v68) (V c main_v69) r (j 1) : S1x128.Idx → EReal) :=
  (dat2 (F := Ideal) V c).arrAt_eq_of_cover 6 (fun j : S1x128.Idx => colSum V c (j 1)) (flushed6_eq V c) cover6

/-- A function of the lane alone, read through the last point's block of this one-row array, is that function. -/
theorem read_row7 (t : Fin cfg2.N) (G : Fin 128 → EReal) (q : Fin 128) :
    ((cfg2.win 7).blk t).view.read (Elt Ideal) (fun j : S1x128.Idx => G (j 1)) (ix2 0 q) = G q := by
  obtain ⟨e00, e01, e10, e11, e20, e21, e30, e31, e40, e41, e50, e51, e60, e61, e70, e71⟩ := idx_facts t
  rw [View.read_apply]
  show G ((((cfg2.win 7).blk t).view.emb (ix2 0 q)) 1) = G q
  exact congrArg G (Fin.ext (show win2_7.index t (1 : Fin 2) * 128 + 1 * q.val = q.val by rw [e71]; omega))

/-- The one write-back of this accumulator, after the last point, writes the sums over all the rows. -/
theorem flushed7_eq (c : Dev nD) (t : Fin cfg2.N) (hf : (cfg2.win 7).flush t = true) :
    (dat2 (F := Ideal) V c).flushed 7 t = ((cfg2.win 7).blk t).view.read (Elt Ideal) (fun j : S1x128.Idx => colSumSq V c (j 1)) := by
  have hN : cfg2.N = 10 := N_2
  have h9 : t.val = 9 := by have := (flush2_7 t).mp hf; have := t.isLt; omega
  show (cfg2.win 7).cut (grid2.coords t) ((dat2 (F := Ideal) V c).after 7 t) = _
  rw [after2_7]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  refine ((acc7 V c t.val t.isLt q).trans ?_).trans (read_row7 t (colSumSq V c) q).symm
  rw [h9]
  exact sum_rows (fun r => hAt V c r q * hAt V c r q)

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v70_2).slice (win2_7.rect t)).set ↔ _
  rw [View.set_slice_whole, Rect.mem_set_unit]
  exact Iff.rfl

/-- The last point's block is the whole one-row array. -/
theorem cover7 (i : S1x128.Idx) : ∃ t : Fin cfg2.N, (cfg2.win 7).flush t = true ∧ i ∈ ((cfg2.win 7).blk t).view.set := by
  have hN : cfg2.N = 10 := N_2
  have h9 : 9 < cfg2.N := by rw [hN]; decide
  obtain ⟨e00, e01, e10, e11, e20, e21, e30, e31, e40, e41, e50, e51, e60, e61, e70, e71⟩ := idx_facts ⟨9, h9⟩
  refine ⟨⟨9, h9⟩, (flush2_7 _).mpr rfl, ?_⟩
  rw [mem_blk7]
  intro a
  have i0 : (i 0).val < 1 := (i 0).isLt
  have i1 : (i 1).val < 128 := (i 1).isLt
  match a with
  | ⟨0, _⟩ => show win2_7.index ⟨9, h9⟩ (0 : Fin 2) * 1 ≤ (i 0).val ∧ (i 0).val < win2_7.index ⟨9, h9⟩ (0 : Fin 2) * 1 + 1; rw [e70]; omega
  | ⟨1, _⟩ => show win2_7.index ⟨9, h9⟩ (1 : Fin 2) * 128 ≤ (i 1).val ∧ (i 1).val < win2_7.index ⟨9, h9⟩ (1 : Fin 2) * 128 + 128; rw [e71]; omega

/-- THE COLUMN SUMS OF SQUARES of the layer's output after the region. -/
theorem final2_7 (c : Dev nD) : (dat2 (F := Ideal) V c).arrAt 7 cfg2.N
    = (fun j : S1x128.Idx => ∑ r : Fin 50000, convAt (V c main_v67) (V c main_v20) (V c main_arg10) (V c main_v68) (V c main_v69) r (j 1) * convAt (V c main_v67) (V c main_v20) (V c main_arg10) (V c main_v68) (V c main_v69) r (j 1) : S1x128.Idx → EReal) :=
  (dat2 (F := Ideal) V c).arrAt_eq_of_cover 7 (fun j : S1x128.Idx => colSumSq V c (j 1)) (flushed7_eq V c) cover7

end Value

end Cert.KernelIdeal.ConvValue2

end
-- ==== Proof.Glue6.lean ====
/-
  The second convolution region's results, in the reference's words.

  The second layer repeats the first on the normalised output of the first. Once the aggregated features the region
  reads are identified with the reference's, the other four arrays are the reference's in-degree factor, second
  weights, bias and slope entry by entry, and the reference's second convolution stage is the same law of them. So the
  layer's output, its column sums and the column sums of its squares are the reference's stage, its column sums and the
  column sums of its squares.
-/
import proofs.«147171_j25031069401693_2_alg».proof.Proof.Gen.KernelIdeal.Frame
import proofs.«147171_j25031069401693_2_alg».proof.Proof.RefReadP
import proofs.«147171_j25031069401693_2_alg».proof.Proof.RefRead1
import proofs.«147171_j25031069401693_2_alg».proof.Proof.Spec
import proofs.«147171_j25031069401693_2_alg».proof.Proof.ConvValue2
import proofs.«147171_j25031069401693_2_alg».proof.Proof.Walk
import proofs.«147171_j25031069401693_2_alg».proof.Proof.Glue5

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx
open Cert.Bridge
open Cert.ReferenceIdeal.ReadP (val_main_v18 val_main_v89 val_main_v101)

/-- The convolution law depends on its five arrays only through their entries. -/
theorem convAt_ext {A A' : S50000x128.Idx → EReal} {nd nd' : S50000x1.Idx → EReal} {W W' : S128x128.Idx → EReal}
    {b b' : S1x128.Idx → EReal} {al al' : S1x1.Idx → EReal} (hA : A = A') (hn : nd = nd') (hW : W = W') (hb : b = b')
    (ha : al = al') (r : Fin 50000) (q : Fin 128) : convAt A nd W b al r q = convAt A' nd' W' b' al' r q := by
  subst hA hn hW hb ha; rfl

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)

/-- The convolution law over the arrays the second convolution region reads is the reference's second convolution
    stage, entry by entry, once the aggregated features are the reference's. -/
theorem conv_v9 (h89 : (V9 m ρ c main_v67 : S50000x128.Idx → EReal) = val_main_v89 (F := Ideal) a0 a1 a2 a4 a5 a6 a7 a8 a9)
    (r : Fin 50000) (q : Fin 128) :
    convAt (V9 m ρ c main_v67) (V9 m ρ c main_v20) (V9 m ρ c main_arg10) (V9 m ρ c main_v68) (V9 m ρ c main_v69) r q
      = val_main_v101 (F := Ideal) a0 a1 a2 a4 a5 a6 a7 a8 a9 a10 a11 a12 (ix2 r q) := by
  have e1 : (V9 m ρ c main_v20 : S50000x1.Idx → EReal) = fun j => val_main_v18 (F := Ideal) a2 (ix1 (j 0)) :=
    funext fun j => v9_v20_at m ρ c j
  have e3 : (V9 m ρ c main_v68 : S1x128.Idx → EReal) = fun j => (a11 : S128.Idx → EReal) (ix1 (j 1)) :=
    funext fun j => v9_v68_at m ρ c j
  have e4 : (V9 m ρ c main_v69 : S1x1.Idx → EReal) = fun _ => (a12 : S_.Idx → EReal) ix0 :=
    funext fun j => v9_v69_at m ρ c j
  exact (convAt_ext h89 e1 (v9_arg10 m ρ c) e3 e4 r q).trans
    (Cert.ReferenceIdeal.RefRead1.v101_at a0 a1 a2 a4 a5 a6 a7 a8 a9 a10 a11 a12 r q).symm

/-- The second layer's convolution output after its region is the reference's second convolution stage. -/
theorem w10_v70_0 (h89 : (V9 m ρ c main_v67 : S50000x128.Idx → EReal) = val_main_v89 (F := Ideal) a0 a1 a2 a4 a5 a6 a7 a8 a9) :
    (W10 m ρ c (Proc.devRef .tc main_v70_0) : S50000x128.Idx → EReal)
      = val_main_v101 (F := Ideal) a0 a1 a2 a4 a5 a6 a7 a8 a9 a10 a11 a12 := by
  rw [Walk.W10_v70_0 m ρ c, ConvValue2.final2_5 (V9 m ρ) c]
  funext i
  obtain ⟨p, q, rfl⟩ : ∃ (p : Fin 50000) (q : Fin 128), i = ix2 p q := ⟨i 0, i 1, eq_ix2 i⟩
  exact conv_v9 m ρ c h89 p q

/-- Column by column, the sums of the law over the rows are the sums of the reference's stage. -/
theorem sum_conv_v9 (h89 : (V9 m ρ c main_v67 : S50000x128.Idx → EReal) = val_main_v89 (F := Ideal) a0 a1 a2 a4 a5 a6 a7 a8 a9) (q : Fin 128) :
    (∑ r : Fin 50000, convAt (V9 m ρ c main_v67) (V9 m ρ c main_v20) (V9 m ρ c main_arg10) (V9 m ρ c main_v68) (V9 m ρ c main_v69) r q : EReal)
      = ∑ r : Fin 50000, val_main_v101 (F := Ideal) a0 a1 a2 a4 a5 a6 a7 a8 a9 a10 a11 a12 (ix2 r q) :=
  Finset.sum_congr rfl fun r _ => conv_v9 m ρ c h89 r q

theorem sum_sq_conv_v9 (h89 : (V9 m ρ c main_v67 : S50000x128.Idx → EReal) = val_main_v89 (F := Ideal) a0 a1 a2 a4 a5 a6 a7 a8 a9) (q : Fin 128) :
    (∑ r : Fin 50000, convAt (V9 m ρ c main_v67) (V9 m ρ c main_v20) (V9 m ρ c main_arg10) (V9 m ρ c main_v68) (V9 m ρ c main_v69) r q * convAt (V9 m ρ c main_v67) (V9 m ρ c main_v20) (V9 m ρ c main_arg10) (V9 m ρ c main_v68) (V9 m ρ c main_v69) r q : EReal)
      = ∑ r : Fin 50000, val_main_v101 (F := Ideal) a0 a1 a2 a4 a5 a6 a7 a8 a9 a10 a11 a12 (ix2 r q) * val_main_v101 (F := Ideal) a0 a1 a2 a4 a5 a6 a7 a8 a9 a10 a11 a12 (ix2 r q) :=
  Finset.sum_congr rfl fun r _ => by rw [conv_v9 m ρ c h89 r q]

/-- The first accumulator after the region: the column sums of the reference's second convolution stage. -/
theorem w10_v70_1_at (h89 : (V9 m ρ c main_v67 : S50000x128.Idx → EReal) = val_main_v89 (F := Ideal) a0 a1 a2 a4 a5 a6 a7 a8 a9)
    (q : Fin 128) : (W10 m ρ c (Proc.devRef .tc main_v70_1) : S1x128.Idx → EReal) (ix2 0 q)
      = (∑ r : Fin 50000, val_main_v101 (F := Ideal) a0 a1 a2 a4 a5 a6 a7 a8 a9 a10 a11 a12 (ix2 r q) : EReal) :=
  (congrFun ((Walk.W10_v70_1 m ρ c).trans (ConvValue2.final2_6 (V9 m ρ) c)) (ix2 0 q)).trans (sum_conv_v9 m ρ c h89 q)

/-- The second accumulator after the region: the column sums of the squares of the reference's second convolution stage. -/
theorem w10_v70_2_at (h89 : (V9 m ρ c main_v67 : S50000x128.Idx → EReal) = val_main_v89 (F := Ideal) a0 a1 a2 a4 a5 a6 a7 a8 a9)
    (q : Fin 128) : (W10 m ρ c (Proc.devRef .tc main_v70_2) : S1x128.Idx → EReal) (ix2 0 q)
      = (∑ r : Fin 50000, val_main_v101 (F := Ideal) a0 a1 a2 a4 a5 a6 a7 a8 a9 a10 a11 a12 (ix2 r q) * val_main_v101 (F := Ideal) a0 a1 a2 a4 a5 a6 a7 a8 a9 a10 a11 a12 (ix2 r q) : EReal) :=
  (congrFun ((Walk.W10_v70_2 m ρ c).trans (ConvValue2.final2_7 (V9 m ρ) c)) (ix2 0 q)).trans (sum_sq_conv_v9 m ρ c h89 q)

end Cert.KernelIdeal.Glue

end
-- ==== Proof.Glue7.lean ====
/-
  The arrays the second normalisation region reads, in the reference's words.

  Between the second convolution region and the second normalisation region the kernel program computes, on the host,
  the column statistics from the two accumulators the convolution region left: the mean as the column sum divided by
  the row count, and the inverse standard deviation as the reciprocal square root of the clamped difference of moments
  (mean of squares minus square of the mean, clamped below at zero) plus the stabiliser. It reshapes both to rows, and
  reshapes the learnt gain and shift to rows and the rectifier's slope to a one-by-one matrix.

  The reference computes the mean the same way and the variance as the mean of the squared deviations. The two
  variances are the same real number whenever the data are finite (the law of ERealFacts), so the two inverse standard
  deviations agree; the other four arrays are the same numbers entry by entry.
-/
import proofs.«147171_j25031069401693_2_alg».proof.Proof.Gen.KernelIdeal.Frame
import proofs.«147171_j25031069401693_2_alg».proof.Proof.RefReadP
import proofs.«147171_j25031069401693_2_alg».proof.Proof.RefRead1
import proofs.«147171_j25031069401693_2_alg».proof.Proof.Spec
import proofs.«147171_j25031069401693_2_alg».proof.Proof.LayoutFacts
import proofs.«147171_j25031069401693_2_alg».proof.Proof.ERealFacts
import proofs.«147171_j25031069401693_2_alg».proof.Proof.HostFinite
import proofs.«147171_j25031069401693_2_alg».proof.Proof.RefFinite
import proofs.«147171_j25031069401693_2_alg».proof.Proof.Walk
import proofs.«147171_j25031069401693_2_alg».proof.Proof.Glue6
import Idealize.ShloMosaic.Lib.IdealHost
import Idealize.ShloMosaic.PureOps.Ideal
import Idealize.ShloMosaic.PureOps.Ideal.Laws

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v89 val_main_v101 val_main_v104 val_main_v111 val_main_v117 val_main_v131)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-! ## The stretch's results, as terms of what the second convolution region left -/

namespace Stats11

/-- The column sums divided by the row count, as a vector. -/
abbrev meanVec (S : S1x128.Idx → EReal) : S128.Idx → EReal :=
  Host.divf (F := Ideal) (shapeCast S128 S shapeCasts_S1x128_S128)
    (broadcastInDim S128 ![] bcast_S_S128 (constant (F := Ideal) S_ .f32 0x47435000#32))

/-- The mean vector at a column: the accumulator's entry of that column divided by the row count. -/
theorem meanVec_at (S : S1x128.Idx → EReal) (q : Fin 128) :
    meanVec S (ix1 q) = Ideal.div (S (ix2 0 q)) (Ideal.ofBits .f32 0x47435000#32) := by
  show Ideal.div (shapeCast S128 S shapeCasts_S1x128_S128 (ix1 q))
    (broadcastInDim S128 ![] bcast_S_S128 (constant (F := Ideal) S_ .f32 0x47435000#32) (ix1 q)) = _
  rewrite [cast_unrow, broadcastInDim_scalar_apply]
  rfl

end Stats11

open Stats11

/-- The mean row the normalisation region reads: the first accumulator divided by the row count, as a row. -/
theorem w11_v84 : W11 m ρ c (Proc.devRef .tc main_v84)
    = shapeCast S1x128 (meanVec (W10 m ρ c (Proc.devRef .tc main_v70_1))) shapeCasts_S128_S1x128 := by
  show StableHlo.after hostOps3 (W10 m ρ c) _ = _
  read_fold
  rfl

/-- The inverse-standard-deviation row: from the two accumulators, the clamped difference of moments plus the
    stabiliser, under the reciprocal square root, as a row. -/
theorem w11_v85 : W11 m ρ c (Proc.devRef .tc main_v85)
    = shapeCast S1x128 (Host.rsqrt (F := Ideal) (addf (maximumf (subf (meanVec (W10 m ρ c (Proc.devRef .tc main_v70_2)))
          (mulf (meanVec (W10 m ρ c (Proc.devRef .tc main_v70_1))) (meanVec (W10 m ρ c (Proc.devRef .tc main_v70_1)))))
        (broadcastInDim S128 ![] bcast_S_S128 (constant (F := Ideal) S_ .f32 0x00000000#32)))
      (broadcastInDim S128 ![] bcast_S_S128 (constant (F := Ideal) S_ .f32 0x3727C5AC#32)))) shapeCasts_S128_S1x128 := by
  show StableHlo.after hostOps3 (W10 m ρ c) _ = _
  read_fold
  rfl

/-! ## Read at an index -/

/-- The mean row is the reference's column mean of the second layer. -/
theorem v11_v84_at (h89 : (V9 m ρ c main_v67 : S50000x128.Idx → EReal) = val_main_v89 (F := Ideal) a0 a1 a2 a4 a5 a6 a7 a8 a9) (j : S1x128.Idx) :
    (V11 m ρ c main_v84 : S1x128.Idx → EReal) j = val_main_v104 (F := Ideal) a0 a1 a2 a4 a5 a6 a7 a8 a9 a10 a11 a12 (ix1 (j 1)) := by
  show W11 m ρ c (Proc.devRef .tc main_v84) j = _
  rewrite [w11_v84]
  refine (cast_row _ _ j).trans ?_
  refine (meanVec_at _ (j 1)).trans ?_
  rewrite [w10_v70_1_at m ρ c h89 (j 1)]
  exact (Cert.ReferenceIdeal.RefRead1.v104_at a0 a1 a2 a4 a5 a6 a7 a8 a9 a10 a11 a12 (j 1)).symm

namespace Stats11

/-- The inverse standard deviation the stretch computes, at a column: from the two accumulators' entries of that column. -/
theorem invstd_at (S1 S2 : S1x128.Idx → EReal) (q : Fin 128) :
    Host.rsqrt (F := Ideal) (addf (maximumf (subf (meanVec S2) (mulf (meanVec S1) (meanVec S1)))
        (broadcastInDim S128 ![] bcast_S_S128 (constant (F := Ideal) S_ .f32 0x00000000#32)))
      (broadcastInDim S128 ![] bcast_S_S128 (constant (F := Ideal) S_ .f32 0x3727C5AC#32))) (ix1 q)
      = Ideal.rsqrt (max (Ideal.div (S2 (ix2 0 q)) (Ideal.ofBits .f32 0x47435000#32)
            - Ideal.div (S1 (ix2 0 q)) (Ideal.ofBits .f32 0x47435000#32) * Ideal.div (S1 (ix2 0 q)) (Ideal.ofBits .f32 0x47435000#32)) 0
          + Ideal.ofBits .f32 0x3727C5AC#32) := by
  show Ideal.rsqrt (max (meanVec S2 (ix1 q) - meanVec S1 (ix1 q) * meanVec S1 (ix1 q))
      (broadcastInDim S128 ![] bcast_S_S128 (constant (F := Ideal) S_ .f32 0x00000000#32) (ix1 q))
    + broadcastInDim S128 ![] bcast_S_S128 (constant (F := Ideal) S_ .f32 0x3727C5AC#32) (ix1 q)) = _
  rewrite [meanVec_at, meanVec_at, broadcastInDim_scalar_apply, broadcastInDim_scalar_apply]
  show Ideal.rsqrt (max _ (Ideal.ofBits .f32 0x00000000#32) + Ideal.ofBits .f32 0x3727C5AC#32) = _
  rewrite [Ideal.ofBits_zero_f32]
  rfl

end Stats11

/-- The inverse-standard-deviation row is the reference's: the clamped difference of the two moments is the mean of the
    squared deviations, the data being finite. -/
theorem v11_v85_at (h89 : (V9 m ρ c main_v67 : S50000x128.Idx → EReal) = val_main_v89 (F := Ideal) a0 a1 a2 a4 a5 a6 a7 a8 a9) (hx0 : ∀ i, IsReal ((a0 : S50000x128.Idx → EReal) i)) (hx4 : ∀ i, IsReal ((a4 : S128x128.Idx → EReal) i)) (hx5 : ∀ i, IsReal ((a5 : S128.Idx → EReal) i)) (hx6 : ∀ i, IsReal ((a6 : S_.Idx → EReal) i)) (hx7 : ∀ i, IsReal ((a7 : S128.Idx → EReal) i)) (hx8 : ∀ i, IsReal ((a8 : S128.Idx → EReal) i)) (hx9 : ∀ i, IsReal ((a9 : S_.Idx → EReal) i)) (hx10 : ∀ i, IsReal ((a10 : S128x128.Idx → EReal) i)) (hx11 : ∀ i, IsReal ((a11 : S128.Idx → EReal) i)) (hx12 : ∀ i, IsReal ((a12 : S_.Idx → EReal) i)) (j : S1x128.Idx) :
    (V11 m ρ c main_v85 : S1x128.Idx → EReal) j = val_main_v117 (F := Ideal) a0 a1 a2 a4 a5 a6 a7 a8 a9 a10 a11 a12 (ix1 (j 1)) := by
  obtain ⟨z, q, rfl⟩ : ∃ (z : Fin 1) (q : Fin 128), j = ix2 z q := ⟨j 0, j 1, eq_ix2 j⟩
  show W11 m ρ c (Proc.devRef .tc main_v85) (ix2 z q) = val_main_v117 (F := Ideal) a0 a1 a2 a4 a5 a6 a7 a8 a9 a10 a11 a12 (ix1 q)
  rewrite [w11_v85]
  refine (cast_row _ _ (ix2 z q)).trans ?_
  refine (invstd_at _ _ q).trans ?_
  rewrite [w10_v70_1_at m ρ c h89 q, w10_v70_2_at m ρ c h89 q,
    Cert.ReferenceIdeal.RefRead1.v117_at a0 a1 a2 a4 a5 a6 a7 a8 a9 a10 a11 a12 q, Cert.ReferenceIdeal.RefRead1.v111_at a0 a1 a2 a4 a5 a6 a7 a8 a9 a10 a11 a12 q, Cert.ReferenceIdeal.RefRead1.v104_at a0 a1 a2 a4 a5 a6 a7 a8 a9 a10 a11 a12 q, ofBits_50000]
  have hN : (50000 : ℝ) = (Fintype.card (Fin 50000) : ℝ) := by rw [Fintype.card_fin]; norm_num
  rewrite [variance_eq (fun r : Fin 50000 => val_main_v101 (F := Ideal) a0 a1 a2 a4 a5 a6 a7 a8 a9 a10 a11 a12 (ix2 r q))
    (fun r => Cert.ReferenceIdeal.Finite.isReal_v101 a1 a2 hx0 hx4 hx5 hx6 hx7 hx8 hx9 hx10 hx11 hx12 (ix2 r q)) 50000 hN (by norm_num)]
  rfl

/-- The gain, the shift and the slope the normalisation region reads are the arguments, reshaped. -/
theorem v11_v86_at (j : S1x128.Idx) : (V11 m ρ c main_v86 : S1x128.Idx → EReal) j = (a13 : S128.Idx → EReal) (ix1 (j 1)) := by
  have e : W11 m ρ c (Proc.devRef .tc main_v86) = shapeCast S1x128 (a13 : S128.Idx → EReal) shapeCasts_S128_S1x128 := by
    show StableHlo.after hostOps3 (W10 m ρ c) _ = _
    read_fold
    rewrite [Walk.W10_arg m ρ c main_arg13 (by decide)]
    rfl
  show W11 m ρ c (Proc.devRef .tc main_v86) j = _
  rewrite [e]; exact cast_row _ _ j

theorem v11_v87_at (j : S1x128.Idx) : (V11 m ρ c main_v87 : S1x128.Idx → EReal) j = (a14 : S128.Idx → EReal) (ix1 (j 1)) := by
  have e : W11 m ρ c (Proc.devRef .tc main_v87) = shapeCast S1x128 (a14 : S128.Idx → EReal) shapeCasts_S128_S1x128 := by
    show StableHlo.after hostOps3 (W10 m ρ c) _ = _
    read_fold
    rewrite [Walk.W10_arg m ρ c main_arg14 (by decide)]
    rfl
  show W11 m ρ c (Proc.devRef .tc main_v87) j = _
  rewrite [e]; exact cast_row _ _ j

theorem v11_v88_at (j : S1x1.Idx) : (V11 m ρ c main_v88 : S1x1.Idx → EReal) j = (a15 : S_.Idx → EReal) ix0 := by
  have e : W11 m ρ c (Proc.devRef .tc main_v88) = shapeCast S1x1 (a15 : S_.Idx → EReal) shapeCasts_S_S1x1 := by
    show StableHlo.after hostOps3 (W10 m ρ c) _ = _
    read_fold
    rewrite [Walk.W10_arg m ρ c main_arg15 (by decide)]
    rfl
  show W11 m ρ c (Proc.devRef .tc main_v88) j = _
  rewrite [e]; exact cast_scal _ _ j

/-- The features the normalisation region reads are the reference's second convolution stage. -/
theorem v11_v70_0 (h89 : (V9 m ρ c main_v67 : S50000x128.Idx → EReal) = val_main_v89 (F := Ideal) a0 a1 a2 a4 a5 a6 a7 a8 a9) :
    (V11 m ρ c main_v70_0 : S50000x128.Idx → EReal) = val_main_v101 (F := Ideal) a0 a1 a2 a4 a5 a6 a7 a8 a9 a10 a11 a12 :=
  (Walk.W11_v70_0 m ρ c).trans (w10_v70_0 m ρ c h89)

end Cert.KernelIdeal.Glue

end
-- ==== Proof.Glue8.lean ====
/-
  The second normalisation region's result, in the reference's words.

  The region applies the normalisation law to every entry of the arrays it finds; each of those arrays is the
  reference's (the second convolution stage, its column mean, its inverse standard deviation, the gain, the shift, the
  slope), and the reference's final stage is the same law of them. So the array the region leaves is the reference's
  final stage.
-/
import proofs.«147171_j25031069401693_2_alg».proof.Proof.Gen.KernelIdeal.Frame
import proofs.«147171_j25031069401693_2_alg».proof.Proof.RefReadP
import proofs.«147171_j25031069401693_2_alg».proof.Proof.RefRead1
import proofs.«147171_j25031069401693_2_alg».proof.Proof.Spec
import proofs.«147171_j25031069401693_2_alg».proof.Proof.Walk
import proofs.«147171_j25031069401693_2_alg».proof.Proof.BnValue
import proofs.«147171_j25031069401693_2_alg».proof.Proof.Glue7
import Idealize.ShloMosaic.PureOps.Ideal
import Idealize.ShloMosaic.PureOps.Ideal.Laws

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v89 val_main_v101 val_main_v104 val_main_v111 val_main_v117 val_main_v131)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-- THE SECOND LAYER'S OUTPUT after the normalisation region is the reference's final stage: the region applies the
    normalisation law entry by entry to the arrays it finds, and each of those is the reference's. -/
theorem w12_v89 (h89 : (V9 m ρ c main_v67 : S50000x128.Idx → EReal) = val_main_v89 (F := Ideal) a0 a1 a2 a4 a5 a6 a7 a8 a9) (hx0 : ∀ i, IsReal ((a0 : S50000x128.Idx → EReal) i)) (hx4 : ∀ i, IsReal ((a4 : S128x128.Idx → EReal) i)) (hx5 : ∀ i, IsReal ((a5 : S128.Idx → EReal) i)) (hx6 : ∀ i, IsReal ((a6 : S_.Idx → EReal) i)) (hx7 : ∀ i, IsReal ((a7 : S128.Idx → EReal) i)) (hx8 : ∀ i, IsReal ((a8 : S128.Idx → EReal) i)) (hx9 : ∀ i, IsReal ((a9 : S_.Idx → EReal) i)) (hx10 : ∀ i, IsReal ((a10 : S128x128.Idx → EReal) i)) (hx11 : ∀ i, IsReal ((a11 : S128.Idx → EReal) i)) (hx12 : ∀ i, IsReal ((a12 : S_.Idx → EReal) i)) :
    (W12 m ρ c (Proc.devRef .tc main_v89) : S50000x128.Idx → EReal)
      = val_main_v131 (F := Ideal) a0 a1 a2 a4 a5 a6 a7 a8 a9 a10 a11 a12 a13 a14 a15 := by
  rewrite [Walk.W12_v89 m ρ c, BnValue.final3_6 (V11 m ρ) c]
  funext i
  obtain ⟨p, q, rfl⟩ : ∃ (p : Fin 50000) (q : Fin 128), i = ix2 p q := ⟨i 0, i 1, eq_ix2 i⟩
  rewrite [Cert.ReferenceIdeal.RefRead1.v131_at a0 a1 a2 a4 a5 a6 a7 a8 a9 a10 a11 a12 a13 a14 a15 p q]
  exact BnValue.bnPrelu_congr (congrFun (v11_v70_0 m ρ c h89) (ix2 p q))
    (v11_v84_at m ρ c h89 (ix2 0 q))
    (v11_v85_at m ρ c h89 hx0 hx4 hx5 hx6 hx7 hx8 hx9 hx10 hx11 hx12 (ix2 0 q))
    (v11_v86_at m ρ c (ix2 0 q)) (v11_v87_at m ρ c (ix2 0 q)) (v11_v88_at m ρ c (ix2 0 0))

end Cert.KernelIdeal.Glue

end
-- ==== Proof.Glue9.lean ====
/-
  The program's two results, in the reference's words.

  After the last region both programs scatter-add the final node features by graph id and add the first segment sum;
  the final node features themselves are returned as the last region left them.
-/
import proofs.«147171_j25031069401693_2_alg».proof.Proof.Gen.KernelIdeal.Frame
import proofs.«147171_j25031069401693_2_alg».proof.Proof.RefReadP
import proofs.«147171_j25031069401693_2_alg».proof.Proof.Spec
import proofs.«147171_j25031069401693_2_alg».proof.Proof.LayoutFacts
import proofs.«147171_j25031069401693_2_alg».proof.Proof.Walk
import proofs.«147171_j25031069401693_2_alg».proof.Proof.Glue1
import Idealize.ShloMosaic.PureOps.Ideal
import Idealize.ShloMosaic.PureOps.Ideal.Laws

set_option maxRecDepth 16384
set_option quotPrecheck false

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v12 val_main_v18 val_main_v31 val_main_v43 val_main_v46 val_main_v53 val_main_v59
  val_main_v73 val_main_v76 val_main_v79 val_main_v89 val_main_v101 val_main_v104 val_main_v111 val_main_v117 val_main_v131
  val_main_v134 val_main_v135)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-- The final node features are returned as the last region left them. -/
theorem w13_v89
    (h131 : W12 m ρ c (Proc.devRef .tc main_v89)
      = val_main_v131 (F := Ideal) a0 a1 a2 a4 a5 a6 a7 a8 a9 a10 a11 a12 a13 a14 a15) :
    W13 m ρ c (Proc.devRef .tc main_v89)
      = val_main_v131 (F := Ideal) a0 a1 a2 a4 a5 a6 a7 a8 a9 a10 a11 a12 a13 a14 a15 :=
  (Walk.W13_v89 m ρ c).trans h131

/-- The graph features: the first segment sum plus the final node features scatter-added by graph id. -/
theorem w13_v93
    (h76 : W9 m ρ c (Proc.devRef .tc main_v57) = val_main_v76 (F := Ideal) a0 a1 a2 a3 a4 a5 a6 a7 a8 a9)
    (h131 : W12 m ρ c (Proc.devRef .tc main_v89)
      = val_main_v131 (F := Ideal) a0 a1 a2 a4 a5 a6 a7 a8 a9 a10 a11 a12 a13 a14 a15) :
    W13 m ρ c (Proc.devRef .tc main_v93)
      = val_main_v135 (F := Ideal) a0 a1 a2 a3 a4 a5 a6 a7 a8 a9 a10 a11 a12 a13 a14 a15 := by
  show StableHlo.after hostOps4 (W12 m ρ c) _ = _
  read_fold
  rw [Walk.W12_arg m ρ c main_arg3 (by decide), Walk.W12_v57, h76, h131]
  rfl

end Cert.KernelIdeal.Glue

end
-- ==== Proof.Final.lean ====
/-
  The idealized kernel program's two results are the reference's last stages.

  Under the precondition every float argument is a finite real, so every entry of both convolution outputs is; the
  column variance the kernel program forms from its accumulated sums is then the reference's mean of squared
  deviations. With that the chain closes segment by segment: the first layer's normalised output and its out-degree
  scaling, the first segment sum and the second aggregate, the second layer, and the tail that adds the two segment
  sums.
-/
import proofs.«147171_j25031069401693_2_alg».proof.Proof.Gen.KernelIdeal.Frame
import proofs.«147171_j25031069401693_2_alg».proof.Proof.RefReadP
import proofs.«147171_j25031069401693_2_alg».proof.Proof.Spec
import proofs.«147171_j25031069401693_2_alg».proof.Proof.LayoutFacts
import proofs.«147171_j25031069401693_2_alg».proof.Proof.PreFinite
import proofs.«147171_j25031069401693_2_alg».proof.Proof.Glue4
import proofs.«147171_j25031069401693_2_alg».proof.Proof.Glue5
import proofs.«147171_j25031069401693_2_alg».proof.Proof.Glue8
import proofs.«147171_j25031069401693_2_alg».proof.Proof.Glue9
import Idealize.ShloMosaic.PureOps.Ideal
import Idealize.ShloMosaic.PureOps.Ideal.Laws

set_option quotPrecheck false
set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx
open Cert.Bridge
open Cert.ReferenceIdeal.ReadP (val_main_v12 val_main_v18 val_main_v31 val_main_v43 val_main_v46 val_main_v53 val_main_v59
  val_main_v73 val_main_v76 val_main_v79 val_main_v89 val_main_v101 val_main_v104 val_main_v111 val_main_v117 val_main_v131
  val_main_v134 val_main_v135)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-- At the return, the kernel program's first result is the reference's final node features and its second the
    reference's sum of the two per-graph sums, as functions of the same arguments. -/
theorem results (hpre : Cert.Pre_finite_inputs.fn (F := Ideal) a0 a1 a2 a3 a4 a5 a6 a7 a8 a9 a10 a11 a12 a13 a14 a15 = fun _ => 1#1) :
    W13 m ρ c (Proc.devRef .tc main_v89) = val_main_v131 (F := Ideal) a0 a1 a2 a4 a5 a6 a7 a8 a9 a10 a11 a12 a13 a14 a15
    ∧ W13 m ρ c (Proc.devRef .tc main_v93) = val_main_v135 (F := Ideal) a0 a1 a2 a3 a4 a5 a6 a7 a8 a9 a10 a11 a12 a13 a14 a15 := by
  obtain ⟨hx0, hx4, hx5, hx6, hx7, hx8, hx9, hx10, hx11, hx12, hx13, hx14, hx15⟩ :=
    Cert.Bridge.finite_of_pre a0 a1 a2 a3 a4 a5 a6 a7 a8 a9 a10 a11 a12 a13 a14 a15 hpre
  have h73 := w8_v54_0 m ρ c hx0 hx4 hx5 hx6
  have h79 := w8_v54_1 m ρ c hx0 hx4 hx5 hx6
  have h76 := w9_v57 m ρ c h73
  have h89 := w9_v67 m ρ c h79
  have h131 := w12_v89 m ρ c h89 hx0 hx4 hx5 hx6 hx7 hx8 hx9 hx10 hx11 hx12
  exact ⟨w13_v89 m ρ c h131, w13_v93 m ρ c h76 h131⟩

end Cert.KernelIdeal.Glue

end
-- ==== Proof.lean ====
/-
  The certificate: a two-layer graph-convolution network whose dense per-layer work runs in four tiled kernel
  regions, against its plain reference, over the extended reals.

  Both programs scale the node features by an out-degree factor, gather them along the edges, scatter-add them at the
  edges' targets, scale by an in-degree factor, multiply by the layer's weights, add the bias and rectify; then
  normalise every column by its mean and variance over the 50000 nodes, rectify again, and sum the nodes of each
  graph. They differ in three ways that do not change the value on exact reals: the kernel regions work on row blocks
  of 5000 nodes and accumulate the column sums across the ten blocks; they cast the matrix product's operands to a
  shorter float format, which is the identity here; and they obtain the variance as the mean of squares minus the
  squared mean, clamped at zero, where the reference averages the squared deviations. The last two agree because under
  the precondition every input, hence every intermediate entry, is a finite real.

  The three frame claims are the generated frames (the reference's is its run with the results dropped); there is no
  rewrite to preserve; the value claim gives both runs the same witnesses, the reference's last stages at the kernel
  memory's arguments.
-/
import proofs.«147171_j25031069401693_2_alg».proof.Defs
import proofs.«147171_j25031069401693_2_alg».proof.Proof.Gen.Kernel
import proofs.«147171_j25031069401693_2_alg».proof.Proof.Gen.Kernel.Skeleton
import proofs.«147171_j25031069401693_2_alg».proof.Proof.Gen.Kernel.Launch
import proofs.«147171_j25031069401693_2_alg».proof.Proof.Gen.Kernel.Points
import proofs.«147171_j25031069401693_2_alg».proof.Proof.Gen.Kernel.Frame
import proofs.«147171_j25031069401693_2_alg».proof.Proof.Gen.KernelIdeal
import proofs.«147171_j25031069401693_2_alg».proof.Proof.Gen.KernelIdeal.Skeleton
import proofs.«147171_j25031069401693_2_alg».proof.Proof.Gen.KernelIdeal.Launch
import proofs.«147171_j25031069401693_2_alg».proof.Proof.Gen.KernelIdeal.Points
import proofs.«147171_j25031069401693_2_alg».proof.Proof.Gen.KernelIdeal.Frame
import proofs.«147171_j25031069401693_2_alg».proof.Proof.Gen.ReferenceIdeal
import proofs.«147171_j25031069401693_2_alg».proof.Proof.Gen.Pre_finite_inputs
import proofs.«147171_j25031069401693_2_alg».proof.Proof.KernelRun
import proofs.«147171_j25031069401693_2_alg».proof.Proof.RefRunP
import proofs.«147171_j25031069401693_2_alg».proof.Proof.RefReadP
import proofs.«147171_j25031069401693_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and keeps its arguments. -/
theorem frame_k : Cert.frame_Kernel :=
  fun m ρ _ => Cert.Kernel.Gen.frame m ρ

/-- The idealized kernel program runs and keeps its arguments. -/
theorem frame_ki : Cert.frame_KernelIdeal :=
  fun m ρ _ => Cert.KernelIdeal.Gen.frame m ρ

/-- The reference runs and keeps its arguments: its run, with the two results dropped. -/
theorem frame_ri : Cert.frame_ReferenceIdeal :=
  fun m ρ _ => (θ_run Cert.ReferenceIdeal.defs _ _).mono (fun _ h c => (h c).2.2)
    (Cert.ReferenceIdeal.ValueP.run (F := Ideal) m ρ)

/-- From memories agreeing on the arguments, both idealized programs end with the reference's last stages of those
    arguments in their result buffers. -/
theorem algebraic : Cert.algebraic_KernelIdeal_ReferenceIdeal := by
  intro m ρ m' ρ' hpre hagree
  refine ⟨fun c => Cert.ReferenceIdeal.ReadP.val_main_v131 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)),
    fun c => Cert.ReferenceIdeal.ReadP.val_main_v135 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · -- the kernel program: every unscoped buffer ends at the last boundary's contents; the two results by the chain,
    -- the arguments by the generated walk back to the launch memory
    refine (θ_run (Cert.KernelIdeal.defs (F := Ideal)) _ _).mono (fun r h c => ?_) (Cert.KernelIdeal.RunValue.run_all m ρ)
    obtain ⟨h131, h135⟩ := Cert.KernelIdeal.Glue.results m ρ c (hpre c)
    exact ⟨(h c _ (Cert.KernelIdeal.Gen.mem_uc Cert.KernelIdeal.main_v89 (by decide))).trans h131,
      (h c _ (Cert.KernelIdeal.Gen.mem_uc Cert.KernelIdeal.main_v93 (by decide))).trans h135,
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c),
      (h c _ (Cert.KernelIdeal.Gen.mem_uc Cert.KernelIdeal.main_arg8 (by decide))).trans (Cert.KernelIdeal.Gen.W13_main_arg8 m ρ c),
      (h c _ (Cert.KernelIdeal.Gen.mem_uc Cert.KernelIdeal.main_arg9 (by decide))).trans (Cert.KernelIdeal.Gen.W13_main_arg9 m ρ c),
      (h c _ (Cert.KernelIdeal.Gen.mem_uc Cert.KernelIdeal.main_arg10 (by decide))).trans (Cert.KernelIdeal.Gen.W13_main_arg10 m ρ c),
      (h c _ (Cert.KernelIdeal.Gen.mem_uc Cert.KernelIdeal.main_arg11 (by decide))).trans (Cert.KernelIdeal.Gen.W13_main_arg11 m ρ c),
      (h c _ (Cert.KernelIdeal.Gen.mem_uc Cert.KernelIdeal.main_arg12 (by decide))).trans (Cert.KernelIdeal.Gen.W13_main_arg12 m ρ c),
      (h c _ (Cert.KernelIdeal.Gen.mem_uc Cert.KernelIdeal.main_arg13 (by decide))).trans (Cert.KernelIdeal.Gen.W13_main_arg13 m ρ c),
      (h c _ (Cert.KernelIdeal.Gen.mem_uc Cert.KernelIdeal.main_arg14 (by decide))).trans (Cert.KernelIdeal.Gen.W13_main_arg14 m ρ c),
      (h c _ (Cert.KernelIdeal.Gen.mem_uc Cert.KernelIdeal.main_arg15 (by decide))).trans (Cert.KernelIdeal.Gen.W13_main_arg15 m ρ c)⟩
  · -- the reference: its run leaves the fold of its operations, which is the last stage of ITS arguments, and those
    -- are the kernel memory's
    refine (θ_run (Cert.ReferenceIdeal.defs (F := Ideal)) _ _).mono (fun r h c => ?_)
      (Cert.ReferenceIdeal.ValueP.run (F := Ideal) m' ρ')
    obtain ⟨h131, h135, hargs⟩ := h c
    obtain ⟨e0, e1, e2, e3, e4, e5, e6, e7, e8, e9, e10, e11, e12, e13, e14, e15⟩ := hagree c
    refine ⟨h131.trans ?_, h135.trans ?_, hargs⟩
    · rw [Cert.ReferenceIdeal.ReadP.val_main_v131_eq, e0, e1, e2, e4, e5, e6, e7, e8, e9, e10, e11, e12, e13, e14, e15]
    · rw [Cert.ReferenceIdeal.ReadP.val_main_v135_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
